-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S_ : Shape := ⟨0, ![]⟩

class Facts : Prop where
  bcast_S_S8x96x256x256 : S_.BroadcastsInDim S8x96x256x256 (![] : Fin 0 → Fin S8x96x256x256.rank)
  reducesTo_S8x96x256x256_S_d0_1_2_3 : S8x96x256x256.ReducesTo [0, 1, 2, 3] S_
  h_S_ : 0 < S_.numel
  bcast_S_S6x96 : S_.BroadcastsInDim S6x96 (![] : Fin 0 → Fin S6x96.rank)
  reducesTo_S6x96_S_d0_1 : S6x96.ReducesTo [0, 1] S_
  bcast_S_S96x1x1 : S_.BroadcastsInDim S96x1x1 (![] : Fin 0 → Fin S96x1x1.rank)
  reducesTo_S96x1x1_S_d0_1_2 : S96x1x1.ReducesTo [0, 1, 2] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S8x96x256x256 .f32) (main_arg1 : FVec F S6x96 .f32) (main_arg2 : FVec F S96x1x1 .f32) (main_arg3 : FVec F S96 .f32) (main_arg4 : FVec F S96 .f32) : IVec S_ 1 :=
  let main_v0 : FVec F S8x96x256x256 .f32 := Host.absf main_arg0
  let main_cst : FVec F S_ .f32 := constant S_ .f32 0x7F800000#32
  let main_v1 : FVec F S8x96x256x256 .f32 := broadcastInDim S8x96x256x256 ![] bcast_S_S8x96x256x256 main_cst
  let main_v2 : IVec S8x96x256x256 1 := cmpf .olt main_v0 main_v1
  let main_c : IVec S_ 1 := constantI S_ 1 1#1
  let main_v3 : IVec S_ 1 := (fun x v => Host.reduce IntOp.andi x v reducesTo_S8x96x256x256_S_d0_1_2_3 h_S_) main_v2 main_c
  let main_v4 : FVec F S6x96 .f32 := Host.absf main_arg1
  let main_cst_0 : FVec F S_ .f32 := constant S_ .f32 0x7F800000#32
  let main_v5 : FVec F S6x96 .f32 := broadcastInDim S6x96 ![] bcast_S_S6x96 main_cst_0
  let main_v6 : IVec S6x96 1 := cmpf .olt main_v4 main_v5
  let main_c_1 : IVec S_ 1 := constantI S_ 1 1#1
  let main_v7 : IVec S_ 1 := (fun x v => Host.reduce IntOp.andi x v reducesTo_S6x96_S_d0_1 h_S_) main_v6 main_c_1
  let main_v8 : IVec S_ 1 := andi main_v3 main_v7
  let main_v9 : FVec F S96x1x1 .f32 := Host.absf main_arg2
  let main_cst_2 : FVec F S_ .f32 := constant S_ .f32 0x7F800000#32
  let main_v10 : FVec F S96x1x1 .f32 := broadcastInDim S96x1x1 ![] bcast_S_S96x1x1 main_cst_2
  let main_v11 : IVec S96x1x1 1 := cmpf .olt main_v9 main_v10
  let main_c_3 : IVec S_ 1 := constantI S_ 1 1#1
  let main_v12 : IVec S_ 1 := (fun x v => Host.reduce IntOp.andi x v reducesTo_S96x1x1_S_d0_1_2 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_v13 main_v16
-- ==== Kernel.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S8x96x256x1 : Shape := ⟨4, ![8, 96, 256, 1]⟩
abbrev S1x96x64x256 : Shape := ⟨4, ![1, 96, 64, 256]⟩
abbrev S1x96x64x1 : Shape := ⟨4, ![1, 96, 64, 1]⟩
abbrev S96x64x256 : Shape := ⟨3, ![96, 64, 256]⟩
abbrev S96x64 : Shape := ⟨2, ![96, 64]⟩
abbrev S96x64x1 : Shape := ⟨3, ![96, 64, 1]⟩
abbrev S8x96x256 : Shape := ⟨3, ![8, 96, 256]⟩
abbrev S_ : Shape := ⟨0, ![]⟩
abbrev S8x96 : Shape := ⟨2, ![8, 96]⟩
abbrev S96x6 : Shape := ⟨2, ![96, 6]⟩
abbrev S8x6 : Shape := ⟨2, ![8, 6]⟩
abbrev S8x2x3 : Shape := ⟨3, ![8, 2, 3]⟩
abbrev S8x2x48x3 : Shape := ⟨4, ![8, 2, 48, 3]⟩
abbrev S8x96x3 : Shape := ⟨3, ![8, 96, 3]⟩
abbrev S8x96x1 : Shape := ⟨3, ![8, 96, 1]⟩
abbrev S8x96x1x1 : Shape := ⟨4, ![8, 96, 1, 1]⟩
abbrev S8x96x256x257 : Shape := ⟨4, ![8, 96, 256, 257]⟩
abbrev S8x96x256x258 : Shape := ⟨4, ![8, 96, 256, 258]⟩
abbrev S1x96x32x258 : Shape := ⟨4, ![1, 96, 32, 258]⟩
abbrev S1x96x32x1 : Shape := ⟨4, ![1, 96, 32, 1]⟩
abbrev S1x96x1x1 : Shape := ⟨4, ![1, 96, 1, 1]⟩
abbrev S1x96x32x256 : Shape := ⟨4, ![1, 96, 32, 256]⟩
abbrev S96x32x258 : Shape := ⟨3, ![96, 32, 258]⟩
abbrev S96x32x256 : Shape := ⟨3, ![96, 32, 256]⟩
abbrev S96x32x1 : Shape := ⟨3, ![96, 32, 1]⟩

abbrev nBuf : Space → Nat
  | .hbm => 39
  | .vmem => 19
  | .smem => 0
  | _ => 0

abbrev bufTy : (tb : Table) → Fin (tcTables nBuf tb) → BufTy
  | .hbm, ⟨0, _⟩ => ⟨S8x96x256x256, .f32⟩
  | .hbm, ⟨1, _⟩ => ⟨S6x96, .f32⟩
  | .hbm, ⟨2, _⟩ => ⟨S96x1x1, .f32⟩
  | .hbm, ⟨3, _⟩ => ⟨S96, .f32⟩
  | .hbm, ⟨4, _⟩ => ⟨S96, .f32⟩
  | .hbm, ⟨5, _⟩ => ⟨S8x96x256x1, .f32⟩
  | .hbm, ⟨6, _⟩ => ⟨S8x96x256, .f32⟩
  | .hbm, ⟨7, _⟩ => ⟨S_, .f32⟩
  | .hbm, ⟨8, _⟩ => ⟨S8x96, .f32⟩
  | .hbm, ⟨9, _⟩ => ⟨S_, .f32⟩
  | .hbm, ⟨10, _⟩ => ⟨S8x96, .f32⟩
  | .hbm, ⟨11, _⟩ => ⟨S8x96, .f32⟩
  | .hbm, ⟨12, _⟩ => ⟨S96x6, .f32⟩
  | .hbm, ⟨13, _⟩ => ⟨S8x6, .f32⟩
  | .hbm, ⟨14, _⟩ => ⟨S8x6, .f32⟩
  | .hbm, ⟨15, _⟩ => ⟨S8x2x3, .f32⟩
  | .hbm, ⟨16, _⟩ => ⟨S8x2x48x3, .f32⟩
  | .hbm, ⟨17, _⟩ => ⟨S8x96x3, .f32⟩
  | .hbm, ⟨18, _⟩ => ⟨S8x96x1, .f32⟩
  | .hbm, ⟨19, _⟩ => ⟨S8x96, .f32⟩
  | .hbm, ⟨20, _⟩ => ⟨S8x96x1x1, .f32⟩
  | .hbm, ⟨21, _⟩ => ⟨S8x96x1, .f32⟩
  | .hbm, ⟨22, _⟩ => ⟨S8x96, .f32⟩
  | .hbm, ⟨23, _⟩ => ⟨S8x96x1x1, .f32⟩
  | .hbm, ⟨24, _⟩ => ⟨S8x96x1, .f32⟩
  | .hbm, ⟨25, _⟩ => ⟨S8x96, .f32⟩
  | .hbm, ⟨26, _⟩ => ⟨S8x96x1x1, .f32⟩
  | .hbm, ⟨27, _⟩ => ⟨S_, .i32⟩
  | .hbm, ⟨28, _⟩ => ⟨S8x96x256x1, .f32⟩
  | .hbm, ⟨29, _⟩ => ⟨S8x96x256x1, .f32⟩
  | .hbm, ⟨30, _⟩ => ⟨S8x96x256x1, .f32⟩
  | .hbm, ⟨31, _⟩ => ⟨S8x96x256x257, .f32⟩
  | .hbm, ⟨32, _⟩ => ⟨S8x96x256x1, .f32⟩
  | .hbm, ⟨33, _⟩ => ⟨S8x96x256x1, .f32⟩
  | .hbm, ⟨34, _⟩ => ⟨S8x96x256x1, .f32⟩
  | .hbm, ⟨35, _⟩ => ⟨S8x96x256x258, .f32⟩
  | .hbm, ⟨36, _⟩ => ⟨S96x1x1, .f32⟩
  | .hbm, ⟨37, _⟩ => ⟨S96x1x1, .f32⟩
  | .hbm, ⟨38, _⟩ => ⟨S8x96x256x256, .f32⟩
  | .local _ .vmem, ⟨0, _⟩ => ⟨S1x96x64x256, .f32⟩
  | .local _ .vmem, ⟨1, _⟩ => ⟨S1x96x64x256, .f32⟩
  | .local _ .vmem, ⟨2, _⟩ => ⟨S1x96x64x1, .f32⟩
  | .local _ .vmem, ⟨3, _⟩ => ⟨S1x96x64x1, .f32⟩
  | .local _ .vmem, ⟨4, _⟩ => ⟨S1x96x32x258, .f32⟩
  | .local _ .vmem, ⟨5, _⟩ => ⟨S1x96x32x258, .f32⟩
  | .local _ .vmem, ⟨6, _⟩ => ⟨S1x96x32x1, .f32⟩
  | .local _ .vmem, ⟨7, _⟩ => ⟨S1x96x32x1, .f32⟩
  | .local _ .vmem, ⟨8, _⟩ => ⟨S1x96x1x1, .f32⟩
  | .local _ .vmem, ⟨9, _⟩ => ⟨S1x96x1x1, .f32⟩
  | .local _ .vmem, ⟨10, _⟩ => ⟨S1x96x1x1, .f32⟩
  | .local _ .vmem, ⟨11, _⟩ => ⟨S1x96x1x1, .f32⟩
  | .local _ .vmem, ⟨12, _⟩ => ⟨S1x96x1x1, .f32⟩
  | .local _ .vmem, ⟨13, _⟩ => ⟨S1x96x1x1, .f32⟩
  | .local _ .vmem, ⟨14, _⟩ => ⟨S96x1x1, .f32⟩
  | .local _ .vmem, ⟨15, _⟩ => ⟨S96x1x1, .f32⟩
  | .local _ .vmem, ⟨16, _⟩ => ⟨S96x1x1, .f32⟩
  | .local _ .vmem, ⟨17, _⟩ => ⟨S1x96x32x256, .f32⟩
  | .local _ .vmem, ⟨18, _⟩ => ⟨S1x96x32x256, .f32⟩
  | _, _ => ⟨S8x96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x96x32x258 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x96x32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x96x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x96x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x96x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S96x1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S96x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S96x1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x96x32x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  inb_S1x96x64x256_S1x96x64x256_0_0_0_0 : ∀ a, (![0, 0, 0, 0] : Fin 4 → Nat) a + S1x96x64x256.size a ≤ S1x96x64x256.size a
  h_S1x96x64x256 : 0 < S1x96x64x256.numel
  shapeCasts_S1x96x64x256_S96x64x256 : S1x96x64x256.ShapeCasts S96x64x256
  reduces_S96x64x256_S96x64 : S96x64x256.Reduces [2] S96x64
  shapeCasts_S96x64_S96x64x1 : S96x64.ShapeCasts S96x64x1
  inb_S1x96x64x1_S1x96x64x1_0_0_0_0 : ∀ a, (![0, 0, 0, 0] : Fin 4 → Nat) a + S1x96x64x1.size a ≤ S1x96x64x1.size a
  h_S1x96x64x1 : 0 < S1x96x64x1.numel
  shapeCasts_S1x96x64x1_S96x64x1 : S1x96x64x1.ShapeCasts S96x64x1
  shapeCasts_S96x64x1_S1x96x64x1 : S96x64x1.ShapeCasts S1x96x64x1
  shapeCasts_S8x96x256x1_S8x96x256 : S8x96x256x1.ShapeCasts S8x96x256
  reducesTo_S8x96x256_S8x96_d2 : S8x96x256.ReducesTo [2] S8x96
  h_S_ : 0 < S_.numel
  bcast_S_S8x96 : S_.BroadcastsInDim S8x96 (![] : Fin 0 → Fin S8x96.rank)
  transposes_S6x96_S96x6_1_0 : S6x96.Transposes [1, 0] S96x6
  shapeCasts_S8x6_S8x2x3 : S8x6.ShapeCasts S8x2x3
  bcast_S8x2x3_S8x2x48x3_0_1_3 : S8x2x3.BroadcastsInDim S8x2x48x3 (![0, 1, 3] : Fin 3 → Fin S8x2x48x3.rank)
  shapeCasts_S8x2x48x3_S8x96x3 : S8x2x48x3.ShapeCasts S8x96x3
  slices_S8x96x3_S8x96x1_0_0_0 : S8x96x3.Slices ![0, 0, 0] S8x96x1
  shapeCasts_S8x96x1_S8x96 : S8x96x1.ShapeCasts S8x96
  shapeCasts_S8x96_S8x96x1x1 : S8x96.ShapeCasts S8x96x1x1
  slices_S8x96x3_S8x96x1_0_0_1 : S8x96x3.Slices ![0, 0, 1] S8x96x1
  slices_S8x96x3_S8x96x1_0_0_2 : S8x96x3.Slices ![0, 0, 2] S8x96x1
  slices_S8x96x256x256_S8x96x256x1_0_0_0_0 : S8x96x256x256.Slices ![0, 0, 0, 0] S8x96x256x1
  slices_S8x96x256x256_S8x96x256x1_0_0_0_1 : S8x96x256x256.Slices ![0, 0, 0, 1] S8x96x256x1
  concatenates_S8x96x256x1_S8x96x256x256_S8x96x256x257_d3 : Shape.Concatenates [S8x96x256x1, S8x96x256x256] S8x96x256x257 3
  slices_S8x96x256x257_S8x96x256x1_0_0_0_256 : S8x96x256x257.Slices ![0, 0, 0, 256] S8x96x256x1
  slices_S8x96x256x257_S8x96x256x1_0_0_0_255 : S8x96x256x257.Slices ![0, 0, 0, 255] S8x96x256x1
  concatenates_S8x96x256x257_S8x96x256x1_S8x96x256x258_d3 : Shape.Concatenates [S8x96x256x257, S8x96x256x1] S8x96x256x258 3
  shapeCasts_S96_S96x1x1 : S96.ShapeCasts S96x1x1
  inb_S1x96x32x258_S1x96x32x258_0_0_0_0 : ∀ a, (![0, 0, 0, 0] : Fin 4 → Nat) a + S1x96x32x258.size a ≤ S1x96x32x258.size a
  h_S1x96x32x258 : 0 < S1x96x32x258.numel
  shapeCasts_S1x96x32x258_S96x32x258 : S1x96x32x258.ShapeCasts S96x32x258
  slices_S96x32x258_o0_0_0_S96x32x256 : S96x32x258.Slices ![0, 0, 0] S96x32x256
  slices_S96x32x258_o0_0_1_S96x32x256 : S96x32x258.Slices ![0, 0, 1] S96x32x256
  slices_S96x32x258_o0_0_2_S96x32x256 : S96x32x258.Slices ![0, 0, 2] S96x32x256
  inb_S1x96x1x1_S1x96x1x1_0_0_0_0 : ∀ a, (![0, 0, 0, 0] : Fin 4 → Nat) a + S1x96x1x1.size a ≤ S1x96x1x1.size a
  h_S1x96x1x1 : 0 < S1x96x1x1.numel
  shapeCasts_S1x96x1x1_S96x1x1 : S1x96x1x1.ShapeCasts S96x1x1
  broadcasts_S96x1x1_S96x32x256 : S96x1x1.Broadcasts S96x32x256
  inb_S96x1x1_S96x1x1_0_0_0 : ∀ a, (![0, 0, 0] : Fin 3 → Nat) a + S96x1x1.size a ≤ S96x1x1.size a
  h_S96x1x1 : 0 < S96x1x1.numel
  inb_S1x96x32x1_S1x96x32x1_0_0_0_0 : ∀ a, (![0, 0, 0, 0] : Fin 4 → Nat) a + S1x96x32x1.size a ≤ S1x96x32x1.size a
  h_S1x96x32x1 : 0 < S1x96x32x1.numel
  shapeCasts_S1x96x32x1_S96x32x1 : S1x96x32x1.ShapeCasts S96x32x1
  shapeCasts_S96x1x1_S96x1x1 : S96x1x1.ShapeCasts S96x1x1
  broadcasts_S96x1x1_S96x32x1 : S96x1x1.Broadcasts S96x32x1
  broadcasts_S96x32x1_S96x32x256 : S96x32x1.Broadcasts S96x32x256
  inb_S1x96x32x256_S1x96x32x256_0_0_0_0 : ∀ a, (![0, 0, 0, 0] : Fin 4 → Nat) a + S1x96x32x256.size a ≤ S1x96x32x256.size a
  h_S1x96x32x256 : 0 < S1x96x32x256.numel
  shapeCasts_S1x96x32x256_S96x32x256 : S1x96x32x256.ShapeCasts S96x32x256
  shapeCasts_S96x32x256_S1x96x32x256 : S96x32x256.ShapeCasts S1x96x32x256
  dot_S8x96_S96x6_S8x6_1_0_0_1_n_n_wf : DotDims.WF S8x96 S96x6 S8x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x64x256.size a ≤ S8x96x256x256.size a
  hwx0_0 : ∀ i : grid0.Coords, EltTy.bits .f32 = 32 ∨ (Rect.block (s := S8x96x256x256) S1x96x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x64x1.size a ≤ S8x96x256x1.size a
  hwx0_1 : ∀ i : grid0.Coords, EltTy.bits .f32 = 32 ∨ (Rect.block (s := S8x96x256x1) S1x96x64x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x96x32x258.size a ≤ S8x96x256x258.size a
  hwx1_0 : ∀ i : grid1.Coords, EltTy.bits .f32 = 32 ∨ (Rect.block (s := S8x96x256x258) S1x96x32x258.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x96x32x1.size a ≤ S8x96x256x1.size a
  hwx1_1 : ∀ i : grid1.Coords, EltTy.bits .f32 = 32 ∨ (Rect.block (s := S8x96x256x1) S1x96x32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x96x1x1.size a ≤ S8x96x1x1.size a
  hwx1_2 : ∀ i : grid1.Coords, EltTy.bits .f32 = 32 ∨ (Rect.block (s := S8x96x1x1) S1x96x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x96x1x1.size a ≤ S8x96x1x1.size a
  hwx1_3 : ∀ i : grid1.Coords, EltTy.bits .f32 = 32 ∨ (Rect.block (s := S8x96x1x1) S1x96x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x96x1x1.size a ≤ S8x96x1x1.size a
  hwx1_4 : ∀ i : grid1.Coords, EltTy.bits .f32 = 32 ∨ (Rect.block (s := S8x96x1x1) S1x96x1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x1x1.size a ≤ S96x1x1.size a
  hwx1_5 : ∀ i : grid1.Coords, EltTy.bits .f32 = 32 ∨ (Rect.block (s := S96x1x1) S96x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96x1x1.size a ≤ S96x1x1.size a
  hwx1_6 : ∀ i : grid1.Coords, EltTy.bits .f32 = 32 ∨ (Rect.block (s := S96x1x1) S96x1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x1x1.size a ≤ S96x1x1.size a
  hwx1_7 : ∀ i : grid1.Coords, EltTy.bits .f32 = 32 ∨ (Rect.block (s := S96x1x1) S96x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x96x32x256.size a ≤ S8x96x256x256.size a
  hwx1_8 : ∀ i : grid1.Coords, EltTy.bits .f32 = 32 ∨ (Rect.block (s := S8x96x256x256) S1x96x32x256.size (cc1_transform_8 i) (hinb1_8 i)).WholeWords (EltTy.packing .f32)

variable [Facts₀]

def dot_S8x96_S96x6_S8x6_1_0_0_1_n_n : DotDims S8x96 S96x6 S8x6 where
  lhsContracting := [1]
  rhsContracting := [0]
  lhsNonContracting := [0]
  rhsNonContracting := [1]
  lhsBatch := []
  rhsBatch := []
  wf := dot_S8x96_S96x6_S8x6_1_0_0_1_n_n_wf

abbrev win0_0 : Pipeline.Window sig grid0 :=
  Pipeline.Window.ofSpec (Memref.whole main_arg0) S1x96x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x96x64x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v20) S1x96x32x258.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x96x32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x96x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x96x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x96x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S96x1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S96x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S96x1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x96x32x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x96x256x256 : Shape := ⟨4, ![8, 96, 256, 256]⟩
abbrev S6x96 : Shape := ⟨2, ![6, 96]⟩
abbrev S96x1x1 : Shape := ⟨3, ![96, 1, 1]⟩
abbrev S96 : Shape := ⟨1, ![96]⟩
abbrev S_ : Shape := ⟨0, ![]⟩
abbrev S8x96 : Shape := ⟨2, ![8, 96]⟩
abbrev S96x6 : Shape := ⟨2, ![96, 6]⟩
abbrev S8x6 : Shape := ⟨2, ![8, 6]⟩
abbrev S8x2x3 : Shape := ⟨3, ![8, 2, 3]⟩
abbrev S8x96x256x1 : Shape := ⟨4, ![8, 96, 256, 1]⟩
abbrev S8x96x256x257 : Shape := ⟨4, ![8, 96, 256, 257]⟩
abbrev S8x96x256x258 : Shape := ⟨4, ![8, 96, 256, 258]⟩
abbrev S8x2x48x256x258 : Shape := ⟨5, ![8, 2, 48, 256, 258]⟩
abbrev S8x2x48x256x256 : Shape := ⟨5, ![8, 2, 48, 256, 256]⟩
abbrev S8x2x1 : Shape := ⟨3, ![8, 2, 1]⟩
abbrev S8x2 : Shape := ⟨2, ![8, 2]⟩
abbrev S8x2x1x1x1 : Shape := ⟨5, ![8, 2, 1, 1, 1]⟩
abbrev S8x96x256 : Shape := ⟨3, ![8, 96, 256]⟩
abbrev S1x96x1x1 : Shape := ⟨4, ![1, 96, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S8x96x256x256, .f32⟩
  | .hbm, ⟨1, _⟩ => ⟨S6x96, .f32⟩
  | .hbm, ⟨2, _⟩ => ⟨S96x1x1, .f32⟩
  | .hbm, ⟨3, _⟩ => ⟨S96, .f32⟩
  | .hbm, ⟨4, _⟩ => ⟨S96, .f32⟩
  | .hbm, ⟨5, _⟩ => ⟨S_, .f32⟩
  | .hbm, ⟨6, _⟩ => ⟨S8x96, .f32⟩
  | .hbm, ⟨7, _⟩ => ⟨S_, .f32⟩
  | .hbm, ⟨8, _⟩ => ⟨S8x96, .f32⟩
  | .hbm, ⟨9, _⟩ => ⟨S8x96, .f32⟩
  | .hbm, ⟨10, _⟩ => ⟨S96x6, .f32⟩
  | .hbm, ⟨11, _⟩ => ⟨S8x6, .f32⟩
  | .hbm, ⟨12, _⟩ => ⟨S8x6, .f32⟩
  | .hbm, ⟨13, _⟩ => ⟨S8x2x3, .f32⟩
  | .hbm, ⟨14, _⟩ => ⟨S_, .i32⟩
  | .hbm, ⟨15, _⟩ => ⟨S8x96x256x1, .f32⟩
  | .hbm, ⟨16, _⟩ => ⟨S8x96x256x1, .f32⟩
  | .hbm, ⟨17, _⟩ => ⟨S8x96x256x1, .f32⟩
  | .hbm, ⟨18, _⟩ => ⟨S8x96x256x257, .f32⟩
  | .hbm, ⟨19, _⟩ => ⟨S8x96x256x1, .f32⟩
  | .hbm, ⟨20, _⟩ => ⟨S8x96x256x1, .f32⟩
  | .hbm, ⟨21, _⟩ => ⟨S8x96x256x1, .f32⟩
  | .hbm, ⟨22, _⟩ => ⟨S8x96x256x258, .f32⟩
  | .hbm, ⟨23, _⟩ => ⟨S8x2x48x256x258, .f32⟩
  | .hbm, ⟨24, _⟩ => ⟨S8x2x48x256x256, .f32⟩
  | .hbm, ⟨25, _⟩ => ⟨S8x2x1, .f32⟩
  | .hbm, ⟨26, _⟩ => ⟨S8x2, .f32⟩
  | .hbm, ⟨27, _⟩ => ⟨S8x2x1x1x1, .f32⟩
  | .hbm, ⟨28, _⟩ => ⟨S8x2x48x256x256, .f32⟩
  | .hbm, ⟨29, _⟩ => ⟨S8x2x48x256x256, .f32⟩
  | .hbm, ⟨30, _⟩ => ⟨S8x2x48x256x256, .f32⟩
  | .hbm, ⟨31, _⟩ => ⟨S8x2x1, .f32⟩
  | .hbm, ⟨32, _⟩ => ⟨S8x2, .f32⟩
  | .hbm, ⟨33, _⟩ => ⟨S8x2x1x1x1, .f32⟩
  | .hbm, ⟨34, _⟩ => ⟨S8x2x48x256x256, .f32⟩
  | .hbm, ⟨35, _⟩ => ⟨S8x2x48x256x256, .f32⟩
  | .hbm, ⟨36, _⟩ => ⟨S8x2x48x256x256, .f32⟩
  | .hbm, ⟨37, _⟩ => ⟨S8x2x48x256x256, .f32⟩
  | .hbm, ⟨38, _⟩ => ⟨S8x2x1, .f32⟩
  | .hbm, ⟨39, _⟩ => ⟨S8x2, .f32⟩
  | .hbm, ⟨40, _⟩ => ⟨S8x2x1x1x1, .f32⟩
  | .hbm, ⟨41, _⟩ => ⟨S8x2x48x256x256, .f32⟩
  | .hbm, ⟨42, _⟩ => ⟨S8x2x48x256x256, .f32⟩
  | .hbm, ⟨43, _⟩ => ⟨S8x2x48x256x256, .f32⟩
  | .hbm, ⟨44, _⟩ => ⟨S8x96x256x256, .f32⟩
  | .hbm, ⟨45, _⟩ => ⟨S_, .f32⟩
  | .hbm, ⟨46, _⟩ => ⟨S8x96x256, .f32⟩
  | .hbm, ⟨47, _⟩ => ⟨S8x96x256x1, .f32⟩
  | .hbm, ⟨48, _⟩ => ⟨S_, .f32⟩
  | .hbm, ⟨49, _⟩ => ⟨S8x96x256x1, .f32⟩
  | .hbm, ⟨50, _⟩ => ⟨S8x96x256x1, .f32⟩
  | .hbm, ⟨51, _⟩ => ⟨S_, .f32⟩
  | .hbm, ⟨52, _⟩ => ⟨S96x1x1, .f32⟩
  | .hbm, ⟨53, _⟩ => ⟨S96x1x1, .f32⟩
  | .hbm, ⟨54, _⟩ => ⟨S1x96x1x1, .f32⟩
  | .hbm, ⟨55, _⟩ => ⟨S8x96x256x256, .f32⟩
  | .hbm, ⟨56, _⟩ => ⟨S8x96x256x256, .f32⟩
  | .hbm, ⟨57, _⟩ => ⟨S1x96x1x1, .f32⟩
  | .hbm, ⟨58, _⟩ => ⟨S8x96x256x1, .f32⟩
  | .hbm, ⟨59, _⟩ => ⟨S8x96x256x1, .f32⟩
  | .hbm, ⟨60, _⟩ => ⟨S8x96x256x256, .f32⟩
  | .hbm, ⟨61, _⟩ => ⟨S8x96x256x256, .f32⟩
  | .hbm, ⟨62, _⟩ => ⟨S1x96x1x1, .f32⟩
  | .hbm, ⟨63, _⟩ => ⟨S8x96x256x256, .f32⟩
  | .hbm, ⟨64, _⟩ => ⟨S8x96x256x256, .f32⟩
  | .hbm, ⟨65, _⟩ => ⟨S1x96x1x1, .f32⟩
  | .hbm, ⟨66, _⟩ => ⟨S_, .f32⟩
  | .hbm, ⟨67, _⟩ => ⟨S1x96x1x1, .f32⟩
  | .hbm, ⟨68, _⟩ => ⟨S1x96x1x1, .f32⟩
  | .hbm, ⟨69, _⟩ => ⟨S8x96x256x256, .f32⟩
  | .hbm, ⟨70, _⟩ => ⟨S8x96x256x256, .f32⟩
  | .hbm, ⟨71, _⟩ => ⟨S8x96x256x256, .f32⟩
  | _, _ => ⟨S8x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  reducesTo_S8x96x256x256_S8x96_d2_3 : S8x96x256x256.ReducesTo [2, 3] S8x96
  h_S_ : 0 < S_.numel
  bcast_S_S8x96 : S_.BroadcastsInDim S8x96 (![] : Fin 0 → Fin S8x96.rank)
  transposes_S6x96_S96x6_1_0 : S6x96.Transposes [1, 0] S96x6
  shapeCasts_S8x6_S8x2x3 : S8x6.ShapeCasts S8x2x3
  slices_S8x96x256x256_S8x96x256x1_0_0_0_0 : S8x96x256x256.Slices ![0, 0, 0, 0] S8x96x256x1
  slices_S8x96x256x256_S8x96x256x1_0_0_0_1 : S8x96x256x256.Slices ![0, 0, 0, 1] S8x96x256x1
  concatenates_S8x96x256x1_S8x96x256x256_S8x96x256x257_d3 : Shape.Concatenates [S8x96x256x1, S8x96x256x256] S8x96x256x257 3
  slices_S8x96x256x257_S8x96x256x1_0_0_0_256 : S8x96x256x257.Slices ![0, 0, 0, 256] S8x96x256x1
  slices_S8x96x256x257_S8x96x256x1_0_0_0_255 : S8x96x256x257.Slices ![0, 0, 0, 255] S8x96x256x1
  concatenates_S8x96x256x257_S8x96x256x1_S8x96x256x258_d3 : Shape.Concatenates [S8x96x256x257, S8x96x256x1] S8x96x256x258 3
  shapeCasts_S8x96x256x258_S8x2x48x256x258 : S8x96x256x258.ShapeCasts S8x2x48x256x258
  slices_S8x2x48x256x258_S8x2x48x256x256_0_0_0_0_0 : S8x2x48x256x258.Slices ![0, 0, 0, 0, 0] S8x2x48x256x256
  slices_S8x2x3_S8x2x1_0_0_0 : S8x2x3.Slices ![0, 0, 0] S8x2x1
  shapeCasts_S8x2x1_S8x2 : S8x2x1.ShapeCasts S8x2
  bcast_S8x2_S8x2x1x1x1_0_1 : S8x2.BroadcastsInDim S8x2x1x1x1 (![0, 1] : Fin 2 → Fin S8x2x1x1x1.rank)
  bcast_S8x2x1x1x1_S8x2x48x256x256_0_1_2_3_4 : S8x2x1x1x1.BroadcastsInDim S8x2x48x256x256 (![0, 1, 2, 3, 4] : Fin 5 → Fin S8x2x48x256x256.rank)
  slices_S8x2x48x256x258_S8x2x48x256x256_0_0_0_0_1 : S8x2x48x256x258.Slices ![0, 0, 0, 0, 1] S8x2x48x256x256
  slices_S8x2x3_S8x2x1_0_0_1 : S8x2x3.Slices ![0, 0, 1] S8x2x1
  slices_S8x2x48x256x258_S8x2x48x256x256_0_0_0_0_2 : S8x2x48x256x258.Slices ![0, 0, 0, 0, 2] S8x2x48x256x256
  slices_S8x2x3_S8x2x1_0_0_2 : S8x2x3.Slices ![0, 0, 2] S8x2x1
  shapeCasts_S8x2x48x256x256_S8x96x256x256 : S8x2x48x256x256.ShapeCasts S8x96x256x256
  reducesTo_S8x96x256x256_S8x96x256_d3 : S8x96x256x256.ReducesTo [3] S8x96x256
  bcast_S8x96x256_S8x96x256x1_0_1_2 : S8x96x256.BroadcastsInDim S8x96x256x1 (![0, 1, 2] : Fin 3 → Fin S8x96x256x1.rank)
  bcast_S_S8x96x256x1 : S_.BroadcastsInDim S8x96x256x1 (![] : Fin 0 → Fin S8x96x256x1.rank)
  bcast_S_S96x1x1 : S_.BroadcastsInDim S96x1x1 (![] : Fin 0 → Fin S96x1x1.rank)
  bcast_S96x1x1_S1x96x1x1_1_2_3 : S96x1x1.BroadcastsInDim S1x96x1x1 (![1, 2, 3] : Fin 3 → Fin S1x96x1x1.rank)
  bcast_S1x96x1x1_S8x96x256x256_0_1_2_3 : S1x96x1x1.BroadcastsInDim S8x96x256x256 (![0, 1, 2, 3] : Fin 4 → Fin S8x96x256x256.rank)
  bcast_S1x96x1x1_S8x96x256x1_0_1_2_3 : S1x96x1x1.BroadcastsInDim S8x96x256x1 (![0, 1, 2, 3] : Fin 4 → Fin S8x96x256x1.rank)
  bcast_S8x96x256x1_S8x96x256x256_0_1_2_3 : S8x96x256x1.BroadcastsInDim S8x96x256x256 (![0, 1, 2, 3] : Fin 4 → Fin S8x96x256x256.rank)
  bcast_S96_S1x96x1x1_1 : S96.BroadcastsInDim S1x96x1x1 (![1] : Fin 1 → Fin S1x96x1x1.rank)
  bcast_S_S1x96x1x1 : S_.BroadcastsInDim S1x96x1x1 (![] : Fin 0 → Fin S1x96x1x1.rank)
  dot_S8x96_S96x6_S8x6_1_0_0_1_n_n_wf : DotDims.WF S8x96 S96x6 S8x6 [1] [0] [0] [1] [] []

variable [Facts₀]

def dot_S8x96_S96x6_S8x6_1_0_0_1_n_n : DotDims S8x96 S96x6 S8x6 where
  lhsContracting := [1]
  rhsContracting := [0]
  lhsNonContracting := [0]
  rhsNonContracting := [1]
  lhsBatch := []
  rhsBatch := []
  wf := dot_S8x96_S96x6_S8x6_1_0_0_1_n_n_wf

class Facts : Prop extends Facts₀ where

variable [Facts]
-- ==== Proof.KernRun.lean ====
/-
  The idealized kernel program's run with its result kept.

  The program is two grid regions among three stretches of host operations. Its generated frame certificate runs
  the five segments from the launch memory and reads the last boundary's contents (W5) back against the final state,
  keeping only the five arguments. The same run, read at one more buffer, says where the result array ends: at the
  contents the second region's write-backs leave in its output window's array.
-/
import proofs.«175004_j75453985457454_2_alg».proof.Proof.Gen.KernelIdeal.Frame

set_option maxRecDepth 16384

noncomputable section

namespace Cert.KernelIdeal.KernRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second region's output window, so the last boundary holds in it what that
    region's write-backs leave. -/
theorem W5_result (c : Dev nD) :
    W5 m ρ c (Proc.devRef .tc main_v23) = (dat1 (V4 m ρ) c).arrAt 8 cfg1.N :=
  W5_arr m ρ c 8

set_option backward.isDefEq.respectTransparency.types false in
/-- From any memory with zero counters every weakly fair execution of the program terminates, nothing faulting, with
    the result buffer at the last boundary's contents and the five arguments as launched. -/
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KernRun

end
-- ==== Proof.Spec.lean ====
/-
  The function both programs compute, index by index, over the extended reals.

  The input x has shape [8, 96, 256, 256] (sample, channel, row, column). Per sample and channel a three-tap filter is
  made from the plane's mean: tap n j = tanh (sum over c of planeMean n c * W j c) for the six pairs
  j = 3 * group + tap position, the 96 channels falling into two groups of 48. Each row is padded by reflection to 258
  columns (reflCol: padded column 0 is column 1, padded column 257 is column 254, padded column v in between is
  column v - 1), convolved with its channel's three taps along the columns, and mixed with the row's own mean and the
  unpadded entry:

    G n c h w = (conv n c h w * (ins c + 1) - ins c * rowMean n c h) * ll c + x n c h w * (lh c + 1).

  The two means are plain quotients of plain sums (no starting zero): rowMean of a row's 256 entries by 256,
  planeMean of a plane's 256 row sums by 65536. The word of 1.0 is kept as a word: it is the same on both sides.
-/
import Idealize.ShloMosaic.PureOps.Ideal
import Idealize.ShloMosaic.Lib.ValueIdx

noncomputable section

open scoped BigOperators

namespace Cert.StripMix

open Idealize.ShloMosaic Idealize.ShloMosaic.ValueIdx

/-- The five arguments' shapes. -/
abbrev SX : Shape := ⟨4, ![8, 96, 256, 256]⟩
abbrev SW : Shape := ⟨2, ![6, 96]⟩
abbrev SI : Shape := ⟨3, ![96, 1, 1]⟩
abbrev SL : Shape := ⟨1, ![96]⟩

/-- The sum of the 256 entries of row h of plane (n, c). -/
def rowSum (x : SX.Idx → EReal) (n : Fin 8) (c : Fin 96) (h : Fin 256) : EReal :=
  ∑ w : Fin 256, x (ix4 n c h w)

/-- The mean of a row. -/
def rowMean (x : SX.Idx → EReal) (n : Fin 8) (c : Fin 96) (h : Fin 256) : EReal :=
  Ideal.div (rowSum x n c h) ((256 : ℝ) : EReal)

/-- The mean of a plane: its 256 row sums added and divided by the number of its entries. -/
def planeMean (x : SX.Idx → EReal) (n : Fin 8) (c : Fin 96) : EReal :=
  Ideal.div (∑ h : Fin 256, rowSum x n c h) ((65536 : ℝ) : EReal)

/-- Tap j of sample n's filter: the hyperbolic tangent of the plane means' inner product with row j of W. -/
def tap (x : SX.Idx → EReal) (W : SW.Idx → EReal) (n : Fin 8) (j : Fin 6) : EReal :=
  Ideal.tanh (∑ c : Fin 96, planeMean x n c * W (ix2 j c))

/-- The tap of channel c at position i: channels 0-47 form group 0, channels 48-95 group 1, and a group's three
    taps are consecutive. -/
def tapOf (c : Fin 96) (i : Fin 3) : Fin 6 :=
  ⟨3 * (c.val / 48) + i.val, by have := c.isLt; have := i.isLt; omega⟩

/-- The column a padded column reads: reflection about the first and the last column, without repeating them. -/
def reflCol (v : Fin 258) : Fin 256 :=
  if h0 : v.val = 0 then ⟨1, by omega⟩
  else if h1 : v.val = 257 then ⟨254, by omega⟩
  else ⟨v.val - 1, by have := v.isLt; omega⟩

/-- The reflection-padded row at padded column v. -/
def padded (x : SX.Idx → EReal) (n : Fin 8) (c : Fin 96) (h : Fin 256) (v : Fin 258) : EReal :=
  x (ix4 n c h (reflCol v))

/-- The three-tap convolution along the columns of the padded row, the taps added left to right. -/
def conv (x : SX.Idx → EReal) (W : SW.Idx → EReal) (n : Fin 8) (c : Fin 96) (h : Fin 256) (w : Fin 256) : EReal :=
  padded x n c h ⟨w.val, by have := w.isLt; omega⟩ * tap x W n (tapOf c 0)
    + padded x n c h ⟨w.val + 1, by have := w.isLt; omega⟩ * tap x W n (tapOf c 1)
    + padded x n c h ⟨w.val + 2, by have := w.isLt; omega⟩ * tap x W n (tapOf c 2)

/-- The number one as both programs spell it. -/
abbrev one : EReal := Ideal.ofBits .f32 0x3F800000#32

/-- The result at coordinates (n, c, h, w). -/
def mixAt (x : SX.Idx → EReal) (W : SW.Idx → EReal) (ins : SI.Idx → EReal) (ll lh : SL.Idx → EReal)
    (n : Fin 8) (c : Fin 96) (h : Fin 256) (w : Fin 256) : EReal :=
  (conv x W n c h w * (ins (ix3 c 0 0) + one) - ins (ix3 c 0 0) * rowMean x n c h) * ll (ix1 c)
    + x (ix4 n c h w) * (lh (ix1 c) + one)

/-- The result array. -/
def G (x : SX.Idx → EReal) (W : SW.Idx → EReal) (ins : SI.Idx → EReal) (ll lh : SL.Idx → EReal) : SX.Idx → EReal :=
  fun i => mixAt x W ins ll lh (i 0) (i 1) (i 2) (i 3)

theorem G_apply (x : SX.Idx → EReal) (W : SW.Idx → EReal) (ins : SI.Idx → EReal) (ll lh : SL.Idx → EReal)
    (n : Fin 8) (c : Fin 96) (h : Fin 256) (w : Fin 256) :
    G x W ins ll lh (ix4 n c h w) = mixAt x W ins ll lh n c h w := rfl

end Cert.StripMix

end
-- ==== Proof.HostStages.lean ====
/-
  The host operations between the two grid regions, as named functions of the arrays they read, each read at an entry.

  From the row-mean array the program sums each plane's 256 row means from the zero word and divides by the word of 256
  (meansOf); multiplies the [8, 96] table of means by the transposed [6, 96] weights and applies tanh, giving six taps per
  sample viewed as [8, 2, 3] (filtOf); repeats each group's three taps over the group's 48 channels, [8, 96, 3]
  (filtFull); and cuts that into three [8, 96, 1, 1] arrays, one per tap position (tapArr0, tapArr1, tapArr2). Beside
  that it pads x by reflection along the columns (padOf): column 1 in front, then x, then column 254 behind. The
  reversals in the pad act on an axis of extent one, where they change nothing.
-/
import proofs.«175004_j75453985457454_2_alg».proof.Proof.Gen.KernelIdeal
import proofs.«175004_j75453985457454_2_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HostStages

open Cert.KernelIdeal Cert.KernelIdeal.Gen Idealize.ShloMosaic Idealize.ShloMosaic.ValueIdx
open Cert.StripMix (reflCol tapOf)

/-! ## The reflection pad -/

/-- Reversing an axis of extent one changes nothing. -/
theorem reverse_unit (x : FVec Ideal S8x96x256x1 .f32) : Host.reverse [3] x = x := by
  funext j
  unfold Host.reverse
  refine congrArg x (funext fun a => ?_)
  split
  · next hm =>
    have ha : a = 3 := by simpa using hm
    subst ha
    apply Fin.ext
    have h3 : (j 3).val < 1 := (j 3).isLt
    rw [Fin.val_rev]
    show 1 - ((j 3).val + 1) = (j 3).val
    omega
  · rfl

/-- Column 1 of x set in front of x: [8, 96, 256, 257]. -/
def frontOf (x : FVec Ideal S8x96x256x256 .f32) : FVec Ideal S8x96x256x257 .f32 :=
  concatenate S8x96x256x257 3
    [⟨S8x96x256x1, Host.reverse [3] (extractStridedSlice S8x96x256x1 ![0, 0, 0, 1] x slices_S8x96x256x256_S8x96x256x1_0_0_0_1)⟩,
     ⟨S8x96x256x256, x⟩] concatenates_S8x96x256x1_S8x96x256x256_S8x96x256x257_d3

/-- The padded array: the front-padded one with its own column 255 (column 254 of x) set behind it. -/
def padOf (x : FVec Ideal S8x96x256x256 .f32) : FVec Ideal S8x96x256x258 .f32 :=
  concatenate S8x96x256x258 3
    [⟨S8x96x256x257, frontOf x⟩,
     ⟨S8x96x256x1, Host.reverse [3] (extractStridedSlice S8x96x256x1 ![0, 0, 0, 255] (frontOf x) slices_S8x96x256x257_S8x96x256x1_0_0_0_255)⟩]
    concatenates_S8x96x256x257_S8x96x256x1_S8x96x256x258_d3

/-- The front-padded row: column 0 is x's column 1, column u > 0 is x's column u - 1. -/
theorem frontOf_apply (x : FVec Ideal S8x96x256x256 .f32) (n : Fin 8) (c : Fin 96) (h : Fin 256) (u : Fin 257) :
    frontOf x (ix4 n c h u)
      = x (ix4 n c h (if h0 : u.val = 0 then ⟨1, by omega⟩ else ⟨u.val - 1, by have := u.isLt; omega⟩)) := by
  unfold frontOf
  by_cases h0 : u.val = 0
  · rw [dif_pos h0]
    refine (concatenate_pair_apply_left (t := S8x96x256x257) (s₁ := S8x96x256x1) (s₂ := S8x96x256x256) (3 : Fin 4) _ _
      concatenates_S8x96x256x1_S8x96x256x256_S8x96x256x257_d3 (ix4 n c h u) rfl (ix4 n c h 0) ?_).trans ?_
    · intro b
      match b with
      | ⟨0, _⟩ => rfl
      | ⟨1, _⟩ => rfl
      | ⟨2, _⟩ => rfl
      | ⟨3, _⟩ => show (0 : Nat) = u.val; omega
    rw [reverse_unit]
    refine extractStridedSlice_apply _ _ _ _ (ix4 n c h ⟨1, by omega⟩) ?_
    intro a
    match a with
    | ⟨0, _⟩ => show n.val = 0 + n.val; omega
    | ⟨1, _⟩ => show c.val = 0 + c.val; omega
    | ⟨2, _⟩ => show h.val = 0 + h.val; omega
    | ⟨3, _⟩ => show (1 : Nat) = 1 + 0; omega
  · rw [dif_neg h0]
    refine concatenate_pair_apply_right (t := S8x96x256x257) (s₁ := S8x96x256x1) (s₂ := S8x96x256x256) (3 : Fin 4) _ _
      concatenates_S8x96x256x1_S8x96x256x256_S8x96x256x257_d3 (ix4 n c h u) rfl rfl
      (ix4 n c h ⟨u.val - 1, by have := u.isLt; omega⟩) ?_ ?_
    · intro b hb
      match b with
      | ⟨0, _⟩ => rfl
      | ⟨1, _⟩ => rfl
      | ⟨2, _⟩ => rfl
      | ⟨3, _⟩ => exact absurd rfl hb
    · show (u.val - 1) + 1 = u.val
      omega

/-- The padded row at padded column v is x at the reflected column. -/
theorem padOf_apply (x : FVec Ideal S8x96x256x256 .f32) (n : Fin 8) (c : Fin 96) (h : Fin 256) (v : Fin 258) :
    padOf x (ix4 n c h v) = x (ix4 n c h (reflCol v)) := by
  unfold padOf
  by_cases h1 : v.val = 257
  · have hne : ¬ v.val = 0 := by omega
    refine (concatenate_pair_apply_right (t := S8x96x256x258) (s₁ := S8x96x256x257) (s₂ := S8x96x256x1) (3 : Fin 4) _ _
      concatenates_S8x96x256x257_S8x96x256x1_S8x96x256x258_d3 (ix4 n c h v) rfl rfl (ix4 n c h 0) ?_ ?_).trans ?_
    · intro b hb
      match b with
      | ⟨0, _⟩ => rfl
      | ⟨1, _⟩ => rfl
      | ⟨2, _⟩ => rfl
      | ⟨3, _⟩ => exact absurd rfl hb
    · show (0 : Nat) + 257 = v.val
      omega
    rw [reverse_unit]
    refine (extractStridedSlice_apply _ _ _ _ (ix4 n c h ⟨255, by omega⟩) ?_).trans ?_
    · intro a
      match a with
      | ⟨0, _⟩ => show n.val = 0 + n.val; omega
      | ⟨1, _⟩ => show c.val = 0 + c.val; omega
      | ⟨2, _⟩ => show h.val = 0 + h.val; omega
      | ⟨3, _⟩ => show (255 : Nat) = 255 + 0; omega
    rw [frontOf_apply, dif_neg (by show ¬ (255 : Nat) = 0; omega)]
    refine congrArg x (congrArg (ix4 n c h) ?_)
    unfold reflCol
    rw [dif_neg hne, dif_pos h1]
    exact Fin.ext rfl
  · have hlt : v.val < 257 := by have := v.isLt; omega
    refine (concatenate_pair_apply_left (t := S8x96x256x258) (s₁ := S8x96x256x257) (s₂ := S8x96x256x1) (3 : Fin 4) _ _
      concatenates_S8x96x256x257_S8x96x256x1_S8x96x256x258_d3 (ix4 n c h v) rfl (ix4 n c h (⟨v.val, hlt⟩ : Fin 257)) ?_).trans ?_
    · intro b
      match b with
      | ⟨0, _⟩ => rfl
      | ⟨1, _⟩ => rfl
      | ⟨2, _⟩ => rfl
      | ⟨3, _⟩ => rfl
    rw [frontOf_apply]
    refine congrArg x (congrArg (ix4 n c h) ?_)
    unfold reflCol
    by_cases h0 : v.val = 0
    · rw [dif_pos h0, dif_pos (show (⟨v.val, hlt⟩ : Fin 257).val = 0 from h0)]
    · rw [dif_neg h0, dif_neg h1, dif_neg (show ¬ (⟨v.val, hlt⟩ : Fin 257).val = 0 from h0)]

/-! ## The plane means -/

/-- The plane means from the row-mean array. -/
def meansOf (gap : FVec Ideal S8x96x256x1 .f32) : FVec Ideal S8x96 .f32 :=
  Host.divf
    (Host.reduceAdd (shapeCast S8x96x256 gap shapeCasts_S8x96x256x1_S8x96x256) (constant S_ .f32 0x00000000#32)
      reducesTo_S8x96x256_S8x96_d2 h_S_)
    (broadcastInDim S8x96 ![] bcast_S_S8x96 (constant S_ .f32 0x43800000#32))

/-- At (n, c): the plane's row means added from the zero word, divided by the word of 256. -/
theorem meansOf_apply (gap : FVec Ideal S8x96x256x1 .f32) (n : Fin 8) (c : Fin 96) :
    meansOf gap (ix2 n c)
      = Ideal.div (Ideal.ofBits .f32 0x00000000#32 + ∑ h : Fin 256, gap (ix4 n c h 0)) (Ideal.ofBits .f32 0x43800000#32) := by
  unfold meansOf
  show Ideal.div _ _ = Ideal.div _ _
  refine congrArg₂ Ideal.div ?_ ?_
  · refine (Ideal.hostReduceAdd_single reducesTo_S8x96x256_S8x96_d2 (by decide) _ _ (ix2 n c)).trans ?_
    refine congrArg₂ (· + ·) rfl ?_
    show (∑ h : Fin 256, _) = _
    refine Finset.sum_congr rfl fun h _ => ?_
    refine shapeCast_apply _ _ _ (ix4 n c h 0) ?_
    rw [Shape.rowMajor_val_three, Shape.rowMajor_val_four]
    show ((n.val * 96 + c.val) * 256 + h.val) * 1 + 0 = (n.val * 96 + c.val) * 256 + h.val
    omega
  · exact broadcastInDim_apply _ _ _ (ix2 n c) ix0 (fun a => a.elim0)

/-! ## The taps -/

/-- The tap table [8, 2, 3]: tanh of the means' product with the transposed weights. -/
def filtOf (gap : FVec Ideal S8x96x256x1 .f32) (Wc : FVec Ideal S6x96 .f32) : FVec Ideal S8x2x3 .f32 :=
  shapeCast S8x2x3
    (Host.tanh (Host.dotGeneral dot_S8x96_S96x6_S8x6_1_0_0_1_n_n none (meansOf gap)
      (transpose S96x6 [1, 0] Wc transposes_S6x96_S96x6_1_0)))
    shapeCasts_S8x6_S8x2x3

theorem lhs_0 (i : S8x6.Idx) (q : dot_S8x96_S96x6_S8x6_1_0_0_1_n_n.contr.Idx) :
    (dot_S8x96_S96x6_S8x6_1_0_0_1_n_n.lhsIdx i q 0).val = (i 0).val := by
  unfold DotDims.lhsIdx
  rw [dif_neg (show ¬(0 : Fin S8x96.rank) ∈ dot_S8x96_S96x6_S8x6_1_0_0_1_n_n.lhsBatch by decide),
    dif_pos (show (0 : Fin S8x96.rank) ∈ dot_S8x96_S96x6_S8x6_1_0_0_1_n_n.lhsNonContracting by decide)]
  rfl
theorem lhs_1 (i : S8x6.Idx) (q : dot_S8x96_S96x6_S8x6_1_0_0_1_n_n.contr.Idx) :
    (dot_S8x96_S96x6_S8x6_1_0_0_1_n_n.lhsIdx i q 1).val = (q ⟨0, by decide⟩).val :=
  dot_S8x96_S96x6_S8x6_1_0_0_1_n_n.lhsIdx_val_of_single rfl i q
theorem rhs_0 (i : S8x6.Idx) (q : dot_S8x96_S96x6_S8x6_1_0_0_1_n_n.contr.Idx) :
    (dot_S8x96_S96x6_S8x6_1_0_0_1_n_n.rhsIdx i q 0).val = (q ⟨0, by decide⟩).val :=
  dot_S8x96_S96x6_S8x6_1_0_0_1_n_n.rhsIdx_val_of_single rfl i q
theorem rhs_1 (i : S8x6.Idx) (q : dot_S8x96_S96x6_S8x6_1_0_0_1_n_n.contr.Idx) :
    (dot_S8x96_S96x6_S8x6_1_0_0_1_n_n.rhsIdx i q 1).val = (i 1).val := by
  unfold DotDims.rhsIdx
  rw [dif_neg (show ¬(1 : Fin S96x6.rank) ∈ dot_S8x96_S96x6_S8x6_1_0_0_1_n_n.rhsBatch by decide),
    dif_pos (show (1 : Fin S96x6.rank) ∈ dot_S8x96_S96x6_S8x6_1_0_0_1_n_n.rhsNonContracting by decide)]
  rfl

/-- The product of an [8, 96] table with a [96, 6] one at (n, j): the sum over the 96 shared coordinates. -/
theorem dot_apply (l : FVec Ideal S8x96 .f32) (r : FVec Ideal S96x6 .f32) (n : Fin 8) (j : Fin 6) :
    Host.dotGeneral dot_S8x96_S96x6_S8x6_1_0_0_1_n_n none l r (ix2 n j) = ∑ k : Fin 96, l (ix2 n k) * r (ix2 k j) := by
  simp only [Host.dotGeneral]
  rw [Ideal.dotGeneral_apply, ← Equiv.sum_comp (contrEquiv1 dot_S8x96_S96x6_S8x6_1_0_0_1_n_n 96 rfl rfl).symm]
  refine Finset.sum_congr rfl fun k _ => ?_
  have hk := contrEquiv1_symm_val dot_S8x96_S96x6_S8x6_1_0_0_1_n_n 96 rfl rfl k
  have el : dot_S8x96_S96x6_S8x6_1_0_0_1_n_n.lhsIdx (ix2 n j) ((contrEquiv1 dot_S8x96_S96x6_S8x6_1_0_0_1_n_n 96 rfl rfl).symm k)
      = ix2 n k := funext fun a => Fin.ext (by
    match a with
    | ⟨0, _⟩ => exact lhs_0 _ _
    | ⟨1, _⟩ => exact (lhs_1 _ _).trans hk)
  have er : dot_S8x96_S96x6_S8x6_1_0_0_1_n_n.rhsIdx (ix2 n j) ((contrEquiv1 dot_S8x96_S96x6_S8x6_1_0_0_1_n_n 96 rfl rfl).symm k)
      = ix2 k j := funext fun a => Fin.ext (by
    match a with
    | ⟨0, _⟩ => exact (rhs_0 _ _).trans hk
    | ⟨1, _⟩ => exact rhs_1 _ _)
  rw [el, er]

/-- Tap (n, g, i) of the table: tanh of the inner product of sample n's plane means with row 3 g + i of the weights. -/
theorem filtOf_apply (gap : FVec Ideal S8x96x256x1 .f32) (Wc : FVec Ideal S6x96 .f32) (n : Fin 8) (g : Fin 2) (i : Fin 3) :
    filtOf gap Wc (ix3 n g i)
      = Ideal.tanh (∑ k : Fin 96, meansOf gap (ix2 n k)
          * Wc (ix2 (⟨3 * g.val + i.val, by have := g.isLt; have := i.isLt; omega⟩ : Fin 6) k)) := by
  unfold filtOf
  refine (shapeCast_apply _ _ (ix3 n g i)
    (ix2 n (⟨3 * g.val + i.val, by have := g.isLt; have := i.isLt; omega⟩ : Fin 6)) ?_).trans ?_
  · rw [Shape.rowMajor_val_two, Shape.rowMajor_val_three]
    show n.val * 6 + (3 * g.val + i.val) = (n.val * 2 + g.val) * 3 + i.val
    omega
  show Ideal.tanh _ = Ideal.tanh _
  refine congrArg Ideal.tanh ?_
  rw [dot_apply]
  refine Finset.sum_congr rfl fun k _ => congrArg (fun z => meansOf gap (ix2 n k) * z) ?_
  refine transpose_apply _ _ _ _ (ix2 _ k) ?_
  intro b
  match b with
  | ⟨0, _⟩ => rfl
  | ⟨1, _⟩ => rfl

/-- Each group's three taps repeated over the group's 48 channels: [8, 96, 3]. -/
def filtFull (gap : FVec Ideal S8x96x256x1 .f32) (Wc : FVec Ideal S6x96 .f32) : FVec Ideal S8x96x3 .f32 :=
  shapeCast S8x96x3 (broadcastInDim S8x2x48x3 ![0, 1, 3] bcast_S8x2x3_S8x2x48x3_0_1_3 (filtOf gap Wc))
    shapeCasts_S8x2x48x3_S8x96x3

/-- Channel c reads its group's tap: group c / 48. -/
theorem filtFull_apply (gap : FVec Ideal S8x96x256x1 .f32) (Wc : FVec Ideal S6x96 .f32) (n : Fin 8) (c : Fin 96) (i : Fin 3) :
    filtFull gap Wc (ix3 n c i)
      = filtOf gap Wc (ix3 n (⟨c.val / 48, by have := c.isLt; omega⟩ : Fin 2) i) := by
  unfold filtFull
  refine (shapeCast_apply _ _ (ix3 n c i)
    (ix4 n (⟨c.val / 48, by have := c.isLt; omega⟩ : Fin 2) (⟨c.val % 48, by omega⟩ : Fin 48) i) ?_).trans ?_
  · rw [Shape.rowMajor_val_four, Shape.rowMajor_val_three]
    show ((n.val * 2 + c.val / 48) * 48 + c.val % 48) * 3 + i.val = (n.val * 96 + c.val) * 3 + i.val
    omega
  refine broadcastInDim_apply _ _ _ _ (ix3 n _ i) ?_
  intro a
  match a with
  | ⟨0, _⟩ => rfl
  | ⟨1, _⟩ => rfl
  | ⟨2, _⟩ => rfl

/-- Tap position 0 of every (sample, channel), as an [8, 96, 1, 1] array. -/
def tapArr0 (gap : FVec Ideal S8x96x256x1 .f32) (Wc : FVec Ideal S6x96 .f32) : FVec Ideal S8x96x1x1 .f32 :=
  shapeCast S8x96x1x1
    (shapeCast S8x96 (extractStridedSlice S8x96x1 ![0, 0, 0] (filtFull gap Wc) slices_S8x96x3_S8x96x1_0_0_0)
      shapeCasts_S8x96x1_S8x96) shapeCasts_S8x96_S8x96x1x1
/-- Tap position 1. -/
def tapArr1 (gap : FVec Ideal S8x96x256x1 .f32) (Wc : FVec Ideal S6x96 .f32) : FVec Ideal S8x96x1x1 .f32 :=
  shapeCast S8x96x1x1
    (shapeCast S8x96 (extractStridedSlice S8x96x1 ![0, 0, 1] (filtFull gap Wc) slices_S8x96x3_S8x96x1_0_0_1)
      shapeCasts_S8x96x1_S8x96) shapeCasts_S8x96_S8x96x1x1
/-- Tap position 2. -/
def tapArr2 (gap : FVec Ideal S8x96x256x1 .f32) (Wc : FVec Ideal S6x96 .f32) : FVec Ideal S8x96x1x1 .f32 :=
  shapeCast S8x96x1x1
    (shapeCast S8x96 (extractStridedSlice S8x96x1 ![0, 0, 2] (filtFull gap Wc) slices_S8x96x3_S8x96x1_0_0_2)
      shapeCasts_S8x96x1_S8x96) shapeCasts_S8x96_S8x96x1x1

/-- The two shape casts and the slice around a tap array keep (n, c) and pick the tap position. -/
theorem tap_cut (y : FVec Ideal S8x96x3 .f32) (off : Fin 3 → Nat) (hs : S8x96x3.Slices off S8x96x1) (p : Fin 3)
    (h0 : off 0 = 0) (h1 : off 1 = 0) (h2 : off 2 = p.val) (n : Fin 8) (c : Fin 96) :
    shapeCast S8x96x1x1 (shapeCast S8x96 (extractStridedSlice S8x96x1 off y hs) shapeCasts_S8x96x1_S8x96)
      shapeCasts_S8x96_S8x96x1x1 (ix4 n c 0 0) = y (ix3 n c p) := by
  refine (shapeCast_apply _ _ (ix4 n c 0 0) (ix2 n c) ?_).trans ?_
  · rw [Shape.rowMajor_val_two, Shape.rowMajor_val_four]
    show n.val * 96 + c.val = ((n.val * 96 + c.val) * 1 + 0) * 1 + 0
    omega
  refine (shapeCast_apply _ _ (ix2 n c) (ix3 n c 0) ?_).trans ?_
  · rw [Shape.rowMajor_val_three, Shape.rowMajor_val_two]
    show (n.val * 96 + c.val) * 1 + 0 = n.val * 96 + c.val
    omega
  refine extractStridedSlice_apply _ _ _ _ (ix3 n c p) ?_
  intro a
  match a with
  | ⟨0, _⟩ => show n.val = off 0 + n.val; omega
  | ⟨1, _⟩ => show c.val = off 1 + c.val; omega
  | ⟨2, _⟩ => show p.val = off 2 + 0; omega

/-- A tap array at (n, c, 0, 0): tanh of the inner product of sample n's plane means with the weights' row for
    channel c's group and the tap position. -/
theorem tap_value (gap : FVec Ideal S8x96x256x1 .f32) (Wc : FVec Ideal S6x96 .f32) (n : Fin 8) (c : Fin 96) (p : Fin 3) :
    filtFull gap Wc (ix3 n c p) = Ideal.tanh (∑ k : Fin 96, meansOf gap (ix2 n k) * Wc (ix2 (tapOf c p) k)) := by
  rw [filtFull_apply, filtOf_apply]
  rfl

theorem tapArr0_apply (gap : FVec Ideal S8x96x256x1 .f32) (Wc : FVec Ideal S6x96 .f32) (n : Fin 8) (c : Fin 96) :
    tapArr0 gap Wc (ix4 n c 0 0) = Ideal.tanh (∑ k : Fin 96, meansOf gap (ix2 n k) * Wc (ix2 (tapOf c 0) k)) := by
  unfold tapArr0
  exact (tap_cut (filtFull gap Wc) ![0, 0, 0] slices_S8x96x3_S8x96x1_0_0_0 0 rfl rfl rfl n c).trans (tap_value gap Wc n c 0)
theorem tapArr1_apply (gap : FVec Ideal S8x96x256x1 .f32) (Wc : FVec Ideal S6x96 .f32) (n : Fin 8) (c : Fin 96) :
    tapArr1 gap Wc (ix4 n c 0 0) = Ideal.tanh (∑ k : Fin 96, meansOf gap (ix2 n k) * Wc (ix2 (tapOf c 1) k)) := by
  unfold tapArr1
  exact (tap_cut (filtFull gap Wc) ![0, 0, 1] slices_S8x96x3_S8x96x1_0_0_1 1 rfl rfl rfl n c).trans (tap_value gap Wc n c 1)
theorem tapArr2_apply (gap : FVec Ideal S8x96x256x1 .f32) (Wc : FVec Ideal S6x96 .f32) (n : Fin 8) (c : Fin 96) :
    tapArr2 gap Wc (ix4 n c 0 0) = Ideal.tanh (∑ k : Fin 96, meansOf gap (ix2 n k) * Wc (ix2 (tapOf c 2) k)) := by
  unfold tapArr2
  exact (tap_cut (filtFull gap Wc) ![0, 0, 2] slices_S8x96x3_S8x96x1_0_0_2 2 rfl rfl rfl n c).trans (tap_value gap Wc n c 2)

end Cert.KernelIdeal.HostStages

end
-- ==== Proof.RowMeans.lean ====
/-
  What the first grid region leaves in its output array: every row's mean.

  The region's 32 points are indexed by (sample, row block): point (a, b) loads the [1, 96, 64, 256] block of x holding
  sample a's rows 64 b .. 64 b + 63 of every channel, sums each row along its 256 columns and multiplies the sum by the
  word of 2^-8, and writes the [1, 96, 64, 1] block back at the same place of the [8, 96, 256, 1] output. The blocks tile
  the output, so the array ends holding, at (n, c, h, 0), the sum of row (n, c, h) times that word.
-/
import proofs.«175004_j75453985457454_2_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.RowMeans

open Cert.KernelIdeal Cert.KernelIdeal.Gen Idealize.ShloMosaic Idealize.ShloMosaic.TcCoe Idealize.ShloMosaic.ValueIdx
open Idealize.SL.Sem
open Idealize.ShloMosaic.Pipeline (Dat)

/-- The word of 2^-8 the body multiplies a row's sum by. -/
abbrev invW : EReal := Ideal.ofBits .f32 0x3B800000#32

/-- The array of row means as the region computes them: at (n, c, h, 0) the sum of the row's entries times 2^-8. -/
def rowMeansK (X : S8x96x256x256.Idx → EReal) : S8x96x256x1.Idx → EReal := fun i =>
  (∑ w : Fin 256, X (ix4 (i 0) (i 1) (i 2) w)) * invW

theorem rowMeansK_apply (X : S8x96x256x256.Idx → EReal) (n : Fin 8) (c : Fin 96) (h : Fin 256) :
    rowMeansK X (ix4 n c h 0) = (∑ w : Fin 256, X (ix4 n c h w)) * invW := rfl

/-- The body's stored value at entry (0, c, r, 0) of its block: the block's row (c, r) summed along the columns (a lane
    sum from the zero word is the plain sum), times the word of 2^-8; the shape casts around it keep the position. -/
theorem pay_apply (v0 : Vec Ideal S1x96x64x256 .f32) (c : Fin 96) (r : Fin 64) :
    k0_pay1 (F := Ideal) v0 (ix4 0 c r 0) = (∑ w : Fin 256, v0 (ix4 0 c r w)) * invW := by
  unfold k0_pay1
  refine (shapeCast_apply _ _ (ix4 0 c r 0) (ix3 c r 0) ?_).trans ?_
  · rw [Shape.rowMajor_val_three, Shape.rowMajor_val_four]
    show (c.val * 64 + r.val) * 1 + 0 = ((0 * 96 + c.val) * 64 + r.val) * 1 + 0
    omega
  rw [mulf_apply, broadcast_apply]
  refine congrArg (· * _) ?_
  refine (shapeCast_apply _ _ (ix3 c r 0) (ix2 c r) ?_).trans ?_
  · rw [Shape.rowMajor_val_three, Shape.rowMajor_val_two]
    show c.val * 64 + r.val = (c.val * 64 + r.val) * 1 + 0
    omega
  refine (Ideal.multiReduction_add_single (shapeCast S96x64x256 v0 shapeCasts_S1x96x64x256_S96x64x256) 0x00000000#32
    reduces_S96x64x256_S96x64 _ _ (ix2 c r)).trans ?_
  show (∑ w : Fin 256, _) = _
  refine Finset.sum_congr rfl fun w _ => ?_
  refine shapeCast_apply _ _ _ (ix4 0 c r w) ?_
  rw [Shape.rowMajor_val_three, Shape.rowMajor_val_four]
  show ((0 * 96 + c.val) * 64 + r.val) * 256 + w.val = (c.val * 64 + r.val) * 256 + w.val
  omega

theorem hz4 : (![0, 0, 0, 0] : Fin 4 → Nat) = fun _ => 0 := funext fun a => by fin_cases a <;> rfl

/-- The two windows' block positions, decided over the grid: the input block and the output block sit at the same
    (sample, row block), at 0 on the channel and column axes. -/
theorem idx_facts : ∀ t : Fin cfg0.N,
      win0_0.index t (0 : Fin 4) = win0_1.index t (0 : Fin 4) ∧ win0_0.index t (1 : Fin 4) = 0
    ∧ win0_1.index t (1 : Fin 4) = 0 ∧ win0_0.index t (2 : Fin 4) = win0_1.index t (2 : Fin 4)
    ∧ win0_0.index t (3 : Fin 4) = 0 ∧ win0_1.index t (3 : Fin 4) = 0
    ∧ win0_1.index t (0 : Fin 4) ≤ 7 ∧ win0_1.index t (2 : Fin 4) ≤ 3 :=
  (by decide +kernel : ∀ t : Fin grid0.N, _)

/-- Every (sample, row block) is some point's. -/
theorem idx_onto : ∀ (q0 : Fin 8) (q2 : Fin 4), ∃ t : Fin cfg0.N, win0_1.index t = ![q0.val, 0, q2.val, 0] :=
  (by decide +kernel : ∀ (q0 : Fin 8) (q2 : Fin 4), ∃ t : Fin grid0.N, win0_1.index t = ![q0.val, 0, q2.val, 0])

section
variable (V : (c : Dev nD) → (b : Ref sig .tc) → Buf (Elt Ideal) ((c : Thread nD τ).loc b))

/-- What point t writes back is block t of the row means of x as the region finds it. -/
theorem flushed_eq (c : Dev nD) (t : Fin cfg0.N) :
    (dat0 (F := Ideal) V c).flushed 1 t = ((cfg0.win 1).blk t).view.read (Elt Ideal) (rowMeansK (V c main_arg0)) := by
  show (cfg0.win 1).cut (grid0.coords t) ((dat0 V c).after 1 t) = _
  rw [after0_1]
  unfold out0_1
  rw [View.canon_unit_zero hz4]
  simp only [View.ld_unit_zero (S := S1x96x64x256) hz4]
  obtain ⟨e0, e1, e2, e3, e4, e5, e6, e7⟩ := idx_facts t
  funext j
  obtain ⟨j0, cc, r, j3, rfl⟩ : ∃ (j0 : Fin 1) (cc : Fin 96) (r : Fin 64) (j3 : Fin 1), j = ix4 j0 cc r j3 :=
    ⟨j 0, j 1, j 2, j 3, eq_ix4 j⟩
  obtain rfl : j0 = 0 := Subsingleton.elim _ _
  obtain rfl : j3 = 0 := Subsingleton.elim _ _
  refine (pay_apply _ cc r).trans ?_
  rw [View.read_apply]
  unfold rowMeansK
  refine congrArg (· * invW) (Finset.sum_congr rfl fun w _ => ?_)
  show V c main_arg0 (((cfg0.win 0).blk t).view.emb (ix4 0 cc r w)) = _
  refine congrArg _ ?_
  funext a; apply Fin.ext
  match a with
  | ⟨0, _⟩ => show win0_0.index t (0 : Fin 4) * 1 + 1 * 0 = win0_1.index t (0 : Fin 4) * 1 + 1 * 0; omega
  | ⟨1, _⟩ => show win0_0.index t (1 : Fin 4) * 96 + 1 * cc.val = win0_1.index t (1 : Fin 4) * 96 + 1 * cc.val; omega
  | ⟨2, _⟩ => show win0_0.index t (2 : Fin 4) * 64 + 1 * r.val = win0_1.index t (2 : Fin 4) * 64 + 1 * r.val; omega
  | ⟨3, _⟩ => show win0_0.index t (3 : Fin 4) * 256 + 1 * w.val = w.val; omega

/-- An index of the output array is in point t's block iff each coordinate is in the block's range on its axis. -/
theorem mem_blk (t : Fin cfg0.N) (i : S8x96x256x1.Idx) :
    i ∈ ((cfg0.win 1).blk t).view.set ↔ ∀ a : Fin 4, win0_1.index t a * S1x96x64x1.size a ≤ (i a).val
      ∧ (i a).val < win0_1.index t a * S1x96x64x1.size a + S1x96x64x1.size a := by
  show i ∈ ((View.whole main_v0).slice (win0_1.rect t)).set ↔ _
  rw [View.set_slice_whole, Rect.mem_set_unit]
  exact Iff.rfl

/-- The blocks tile the output array: the point of sample (i 0) and row block (i 2) / 64 covers index i. -/
theorem cover (i : S8x96x256x1.Idx) :
    ∃ t : Fin cfg0.N, (cfg0.win 1).flush t = true ∧ i ∈ ((cfg0.win 1).blk t).view.set := by
  have hi0 : (i 0).val < 8 := (i 0).isLt
  have hi1 : (i 1).val < 96 := (i 1).isLt
  have hi2 : (i 2).val < 256 := (i 2).isLt
  have hi3 : (i 3).val < 1 := (i 3).isLt
  obtain ⟨t, ht⟩ := idx_onto ⟨(i 0).val, hi0⟩ ⟨(i 2).val / 64, by omega⟩
  have q0 : win0_1.index t (0 : Fin 4) = (i 0).val := congrFun ht 0
  have q1 : win0_1.index t (1 : Fin 4) = 0 := congrFun ht 1
  have q2 : win0_1.index t (2 : Fin 4) = (i 2).val / 64 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 96 ≤ (i 1).val ∧ (i 1).val < win0_1.index t (1 : Fin 4) * 96 + 96; omega
  | ⟨2, _⟩ => show win0_1.index t (2 : Fin 4) * 64 ≤ (i 2).val ∧ (i 2).val < win0_1.index t (2 : Fin 4) * 64 + 64; omega
  | ⟨3, _⟩ => show win0_1.index t (3 : Fin 4) * 1 ≤ (i 3).val ∧ (i 3).val < win0_1.index t (3 : Fin 4) * 1 + 1; omega

/-- The output array after the region: the row means of x as the region finds it. -/
theorem final (c : Dev nD) : (dat0 (F := Ideal) V c).arrAt 1 cfg0.N = rowMeansK (V c main_arg0) :=
  (dat0 (F := Ideal) V c).arrAt_eq_of_cover 1 (rowMeansK (V c main_arg0)) (fun t _ => flushed_eq V c t) (cover)

end

end Cert.KernelIdeal.RowMeans

end
-- ==== Proof.HostVals.lean ====
/-
  The arrays the second grid region is entered with, from the launch memory.

  Between the regions the program runs three stretches of host operations. Read through them, the second region's
  eight input arrays are: the reflection pad of x; the first region's row means; the three tap arrays made from those
  row means and the weights; the per-channel array ins as launched; and the two per-channel vectors ll and lh viewed
  as [96, 1, 1]. The first region leaves x and the other arguments as launched and the row means in its output.
-/
import proofs.«175004_j75453985457454_2_alg».proof.Proof.Gen.KernelIdeal.Frame
import proofs.«175004_j75453985457454_2_alg».proof.Proof.HostStages
import proofs.«175004_j75453985457454_2_alg».proof.Proof.RowMeans
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.ShloMosaic.StableHlo
open Idealize.SL.Sem
open Cert.KernelIdeal.HostStages (padOf tapArr0 tapArr1 tapArr2)
open Cert.KernelIdeal.RowMeans (rowMeansK)

/-! ## The three stretches over any contents they start from -/

section Stretches
variable (X : Valuation τ sig (Elt Ideal))

theorem after_v20 : after hostOps1_2 (after hostOps1_1 (after hostOps1 X)) (Proc.devRef .tc main_v20)
    = padOf (X (Proc.devRef .tc main_arg0)) := by
  after_results
  rfl

theorem after_v0 : after hostOps1_2 (after hostOps1_1 (after hostOps1 X)) (Proc.devRef .tc main_v0)
    = X (Proc.devRef .tc main_v0) := by
  after_results

theorem after_v13 : after hostOps1_2 (after hostOps1_1 (after hostOps1 X)) (Proc.devRef .tc main_v13)
    = tapArr0 (X (Proc.devRef .tc main_v0)) (X (Proc.devRef .tc main_arg1)) := by
  after_results
  rfl

theorem after_v16 : after hostOps1_2 (after hostOps1_1 (after hostOps1 X)) (Proc.devRef .tc main_v16)
    = tapArr1 (X (Proc.devRef .tc main_v0)) (X (Proc.devRef .tc main_arg1)) := by
  after_results
  rfl

theorem after_v19 : after hostOps1_2 (after hostOps1_1 (after hostOps1 X)) (Proc.devRef .tc main_v19)
    = tapArr2 (X (Proc.devRef .tc main_v0)) (X (Proc.devRef .tc main_arg1)) := by
  after_results
  rfl

theorem after_arg2 : after hostOps1_2 (after hostOps1_1 (after hostOps1 X)) (Proc.devRef .tc main_arg2)
    = X (Proc.devRef .tc main_arg2) := by
  after_results

theorem after_v21 : after hostOps1_2 (after hostOps1_1 (after hostOps1 X)) (Proc.devRef .tc main_v21)
    = shapeCast S96x1x1 (X (Proc.devRef .tc main_arg3)) shapeCasts_S96_S96x1x1 := by
  after_results
  rfl

theorem after_v22 : after hostOps1_2 (after hostOps1_1 (after hostOps1 X)) (Proc.devRef .tc main_v22)
    = shapeCast S96x1x1 (X (Proc.devRef .tc main_arg4)) shapeCasts_S96_S96x1x1 := by
  after_results
  rfl

end Stretches

/-! ## The first region's exit contents -/

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
/-- The first region's output array holds the row means of x as launched. -/
theorem W1_v0 (c : Dev nD) : W1 m ρ c (Proc.devRef .tc main_v0) = rowMeansK (m ((c : Thread nD τ).loc main_arg0)) :=
  (W1_arr m ρ c 1).trans (RowMeans.final (V0 m ρ) c)

/-! ## The second region's entry contents -/

theorem V4_v20 (c : Dev nD) : V4 m ρ c main_v20 = padOf (m ((c : Thread nD τ).loc main_arg0)) := by
  show after hostOps1_2 (after hostOps1_1 (after hostOps1 (W1 m ρ c))) (Proc.devRef .tc main_v20) = _
  rw [after_v20, W1_arg0]
theorem V4_v0 (c : Dev nD) : V4 m ρ c main_v0 = rowMeansK (m ((c : Thread nD τ).loc main_arg0)) := by
  show after hostOps1_2 (after hostOps1_1 (after hostOps1 (W1 m ρ c))) (Proc.devRef .tc main_v0) = _
  rw [after_v0, W1_v0]
theorem V4_v13 (c : Dev nD) : V4 m ρ c main_v13
    = tapArr0 (rowMeansK (m ((c : Thread nD τ).loc main_arg0))) (m ((c : Thread nD τ).loc main_arg1)) := by
  show after hostOps1_2 (after hostOps1_1 (after hostOps1 (W1 m ρ c))) (Proc.devRef .tc main_v13) = _
  rw [after_v13, W1_v0, W1_arg1]
theorem V4_v16 (c : Dev nD) : V4 m ρ c main_v16
    = tapArr1 (rowMeansK (m ((c : Thread nD τ).loc main_arg0))) (m ((c : Thread nD τ).loc main_arg1)) := by
  show after hostOps1_2 (after hostOps1_1 (after hostOps1 (W1 m ρ c))) (Proc.devRef .tc main_v16) = _
  rw [after_v16, W1_v0, W1_arg1]
theorem V4_v19 (c : Dev nD) : V4 m ρ c main_v19
    = tapArr2 (rowMeansK (m ((c : Thread nD τ).loc main_arg0))) (m ((c : Thread nD τ).loc main_arg1)) := by
  show after hostOps1_2 (after hostOps1_1 (after hostOps1 (W1 m ρ c))) (Proc.devRef .tc main_v19) = _
  rw [after_v19, W1_v0, W1_arg1]
theorem V4_arg2 (c : Dev nD) : V4 m ρ c main_arg2 = m ((c : Thread nD τ).loc main_arg2) := by
  show after hostOps1_2 (after hostOps1_1 (after hostOps1 (W1 m ρ c))) (Proc.devRef .tc main_arg2) = _
  rw [after_arg2, W1_arg2]
theorem V4_v21 (c : Dev nD) : V4 m ρ c main_v21
    = shapeCast S96x1x1 (m ((c : Thread nD τ).loc main_arg3)) shapeCasts_S96_S96x1x1 := by
  show after hostOps1_2 (after hostOps1_1 (after hostOps1 (W1 m ρ c))) (Proc.devRef .tc main_v21) = _
  rw [after_v21, W1_arg3]
theorem V4_v22 (c : Dev nD) : V4 m ρ c main_v22
    = shapeCast S96x1x1 (m ((c : Thread nD τ).loc main_arg4)) shapeCasts_S96_S96x1x1 := by
  show after hostOps1_2 (after hostOps1_1 (after hostOps1 (W1 m ρ c))) (Proc.devRef .tc main_v22) = _
  rw [after_v22, W1_arg4]

end Cert.KernelIdeal.HostVals

end
-- ==== Proof.Body.lean ====
/-
  The second grid region's body at one entry of its output block.

  The body loads a [1, 96, 32, 258] block of the padded array, the matching [1, 96, 32, 1] block of row means, the
  sample's three [1, 96, 1, 1] tap arrays and the three per-channel [96, 1, 1] arrays, and stores, at (0, c, r, w),

    ((p w * f0 + p (w+1) * f1 + p (w+2) * f2) * (ins c + 1) - ins c * mean (c, r)) * ll c + p (w+1) * (lh c + 1),

  p the padded row (c, r) of the block. Every operation is pointwise once the per-channel and per-row arrays are
  spread over the block, so the entry is read straight off the operands' entries.
-/
import proofs.«175004_j75453985457454_2_alg».proof.Proof.Gen.KernelIdeal.Skeleton
import Idealize.ShloMosaic.Lib.ValueIdx
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx

/-- The number one as the body spells it. -/
abbrev one : EReal := Ideal.ofBits .f32 0x3F800000#32

/-- A per-channel array spread over a [96, 32, 256] block reads its channel's entry. -/
theorem spread_chan (v : FVec Ideal S96x1x1 .f32) (h : S96x1x1.Broadcasts S96x32x256) (c : Fin 96) (r : Fin 32) (w : Fin 256) :
    broadcastTo S96x32x256 v h (ix3 c r w) = v (ix3 c 0 0) :=
  broadcastTo_apply v h (ix3 c r w) (ix3 c 0 0) (fun a => by
    match a with
    | ⟨0, _⟩ => rfl
    | ⟨1, _⟩ => rfl
    | ⟨2, _⟩ => rfl)

/-- A per-channel array spread over a [96, 32, 1] column block reads its channel's entry. -/
theorem spread_chan_col (v : FVec Ideal S96x1x1 .f32) (h : S96x1x1.Broadcasts S96x32x1) (c : Fin 96) (r : Fin 32) :
    broadcastTo S96x32x1 v h (ix3 c r 0) = v (ix3 c 0 0) :=
  broadcastTo_apply v h (ix3 c r 0) (ix3 c 0 0) (fun a => by
    match a with
    | ⟨0, _⟩ => rfl
    | ⟨1, _⟩ => rfl
    | ⟨2, _⟩ => rfl)

/-- A per-row column spread along the 256 columns reads its row's entry. -/
theorem spread_row (v : FVec Ideal S96x32x1 .f32) (h : S96x32x1.Broadcasts S96x32x256) (c : Fin 96) (r : Fin 32) (w : Fin 256) :
    broadcastTo S96x32x256 v h (ix3 c r w) = v (ix3 c r 0) :=
  broadcastTo_apply v h (ix3 c r w) (ix3 c r 0) (fun a => by
    match a with
    | ⟨0, _⟩ => rfl
    | ⟨1, _⟩ => rfl
    | ⟨2, _⟩ => rfl)

/-- The padded block without its leading unit axis. -/
theorem pay2_apply (x0 : Vec Ideal S1x96x32x258 .f32) (c : Fin 96) (r : Fin 32) (v : Fin 258) :
    k1_pay2 (F := Ideal) x0 (ix3 c r v) = x0 (ix4 0 c r v) := by
  unfold k1_pay2
  refine shapeCast_apply _ _ _ (ix4 0 c r v) ?_
  rw [Shape.rowMajor_val_four, Shape.rowMajor_val_three]
  show ((0 * 96 + c.val) * 32 + r.val) * 258 + v.val = (c.val * 32 + r.val) * 258 + v.val
  omega

/-- The middle window of the padded row: columns 1 .. 256. -/
theorem pay3_apply (x0 : Vec Ideal S1x96x32x258 .f32) (c : Fin 96) (r : Fin 32) (w : Fin 256) :
    k1_pay3 (F := Ideal) x0 (ix3 c r w) = x0 (ix4 0 c r ⟨w.val + 1, by have := w.isLt; omega⟩) := by
  unfold k1_pay3
  refine (extractStridedSlice_apply _ _ _ _ (ix3 c r ⟨w.val + 1, by have := w.isLt; omega⟩) ?_).trans (pay2_apply x0 c r _)
  intro a
  match a with
  | ⟨0, _⟩ => show c.val = 0 + c.val; omega
  | ⟨1, _⟩ => show r.val = 0 + r.val; omega
  | ⟨2, _⟩ => show w.val + 1 = 1 + w.val; omega

/-- A tap array without its leading unit axis, at its channel. -/
theorem tap_cast (x : Vec Ideal S1x96x1x1 .f32) (h : S1x96x1x1.ShapeCasts S96x1x1) (c : Fin 96) :
    shapeCast S96x1x1 x h (ix3 c 0 0) = x (ix4 0 c 0 0) := by
  refine shapeCast_apply _ _ _ (ix4 0 c 0 0) ?_
  rw [Shape.rowMajor_val_four, Shape.rowMajor_val_three]
  show ((0 * 96 + c.val) * 1 + 0) * 1 + 0 = (c.val * 1 + 0) * 1 + 0
  omega

/-- The three-tap convolution of the padded row, the taps added left to right. -/
theorem pay4_apply (x0 : Vec Ideal S1x96x32x258 .f32) (x2 x3 x4 : Vec Ideal S1x96x1x1 .f32) (c : Fin 96) (r : Fin 32) (w : Fin 256) :
    k1_pay4 (F := Ideal) x0 x2 x3 x4 (ix3 c r w)
      = x0 (ix4 0 c r ⟨w.val, by have := w.isLt; omega⟩) * x2 (ix4 0 c 0 0)
        + x0 (ix4 0 c r ⟨w.val + 1, by have := w.isLt; omega⟩) * x3 (ix4 0 c 0 0)
        + x0 (ix4 0 c r ⟨w.val + 2, by have := w.isLt; omega⟩) * x4 (ix4 0 c 0 0) := by
  unfold k1_pay4
  rw [addf_apply, addf_apply, mulf_apply, mulf_apply, mulf_apply, spread_chan, spread_chan, spread_chan,
    tap_cast, tap_cast, tap_cast, pay3_apply]
  refine congrArg₂ (· + ·) (congrArg₂ (· + ·) (congrArg (· * _) ?_) rfl) (congrArg (· * _) ?_)
  · refine (extractStridedSlice_apply _ _ _ _ (ix3 c r ⟨w.val, by have := w.isLt; omega⟩) ?_).trans (pay2_apply x0 c r _)
    intro a
    match a with
    | ⟨0, _⟩ => show c.val = 0 + c.val; omega
    | ⟨1, _⟩ => show r.val = 0 + r.val; omega
    | ⟨2, _⟩ => show w.val = 0 + w.val; omega
  · refine (extractStridedSlice_apply _ _ _ _ (ix3 c r ⟨w.val + 2, by have := w.isLt; omega⟩) ?_).trans (pay2_apply x0 c r _)
    intro a
    match a with
    | ⟨0, _⟩ => show c.val = 0 + c.val; omega
    | ⟨1, _⟩ => show r.val = 0 + r.val; omega
    | ⟨2, _⟩ => show w.val + 2 = 2 + w.val; omega

/-- The row-mean block without its leading unit axis. -/
theorem pay5_apply (x1 : Vec Ideal S1x96x32x1 .f32) (c : Fin 96) (r : Fin 32) :
    k1_pay5 (F := Ideal) x1 (ix3 c r 0) = x1 (ix4 0 c r 0) := by
  unfold k1_pay5
  refine shapeCast_apply _ _ _ (ix4 0 c r 0) ?_
  rw [Shape.rowMajor_val_four, Shape.rowMajor_val_three]
  show ((0 * 96 + c.val) * 32 + r.val) * 1 + 0 = (c.val * 32 + r.val) * 1 + 0
  omega

theorem pay6_apply (x6 : Vec Ideal S96x1x1 .f32) (i : S96x1x1.Idx) : k1_pay6 (F := Ideal) x6 i = x6 i := by
  unfold k1_pay6
  rw [shapeCast_self]

theorem pay7_apply (x7 : Vec Ideal S96x1x1 .f32) (i : S96x1x1.Idx) : k1_pay7 (F := Ideal) x7 i = x7 i := by
  unfold k1_pay7
  rw [shapeCast_self]

theorem pay8_apply (x5 : Vec Ideal S96x1x1 .f32) (i : S96x1x1.Idx) : k1_pay8 (F := Ideal) x5 i = x5 i + one := by
  unfold k1_pay8
  rfl

/-- The stored value at (0, c, r, w) from the seven values it is computed from. -/
theorem pay1_apply (v3 v18 : FVec Ideal S96x32x256 .f32) (v19 : Vec Ideal S96x1x1 .f32) (v21 : FVec Ideal S96x32x1 .f32)
    (v23 v25 v27 : FVec Ideal S96x1x1 .f32) (c : Fin 96) (r : Fin 32) (w : Fin 256) :
    k1_pay1 (F := Ideal) v3 v18 v19 v21 v23 v25 v27 (ix4 0 c r w)
      = (v18 (ix3 c r w) * v27 (ix3 c 0 0) - v19 (ix3 c 0 0) * v21 (ix3 c r 0)) * v23 (ix3 c 0 0)
        + v3 (ix3 c r w) * (v25 (ix3 c 0 0) + one) := by
  unfold k1_pay1
  refine (shapeCast_apply _ _ (ix4 0 c r w) (ix3 c r w) ?_).trans ?_
  · rw [Shape.rowMajor_val_three, Shape.rowMajor_val_four]
    show (c.val * 32 + r.val) * 256 + w.val = ((0 * 96 + c.val) * 32 + r.val) * 256 + w.val
    omega
  rw [addf_apply, mulf_apply, mulf_apply, subf_apply, mulf_apply, spread_chan, spread_chan, spread_chan, spread_row,
    mulf_apply, spread_chan_col, addf_apply]
  rfl

/-- The body's stored value at (0, c, r, w), from the loaded blocks' entries. -/
theorem body_apply (x0 : Vec Ideal S1x96x32x258 .f32) (x1 : Vec Ideal S1x96x32x1 .f32) (x2 x3 x4 : Vec Ideal S1x96x1x1 .f32)
    (x5 x6 x7 : Vec Ideal S96x1x1 .f32) (c : Fin 96) (r : Fin 32) (w : Fin 256) :
    k1_pay1 (F := Ideal) (k1_pay3 x0) (k1_pay4 x0 x2 x3 x4) x5 (k1_pay5 x1) (k1_pay6 x6) (k1_pay7 x7) (k1_pay8 x5) (ix4 0 c r w)
      = ((x0 (ix4 0 c r ⟨w.val, by have := w.isLt; omega⟩) * x2 (ix4 0 c 0 0)
            + x0 (ix4 0 c r ⟨w.val + 1, by have := w.isLt; omega⟩) * x3 (ix4 0 c 0 0)
            + x0 (ix4 0 c r ⟨w.val + 2, by have := w.isLt; omega⟩) * x4 (ix4 0 c 0 0)) * (x5 (ix3 c 0 0) + one)
          - x5 (ix3 c 0 0) * x1 (ix4 0 c r 0)) * x6 (ix3 c 0 0)
        + x0 (ix4 0 c r ⟨w.val + 1, by have := w.isLt; omega⟩) * (x7 (ix3 c 0 0) + one) := by
  rw [pay1_apply, pay4_apply, pay8_apply, pay5_apply, pay6_apply, pay7_apply, pay3_apply]

end Cert.KernelIdeal.Body

end
-- ==== Proof.Region1.lean ====
/-
  What the second grid region leaves in its output array, as one function of the eight arrays it reads.

  The region's 64 points are indexed by (sample, row block of 32 rows). Point (a, b) reads the padded array's block of
  sample a's rows 32 b .. 32 b + 31 (all channels, all 258 padded columns), the row means' block at the same place, the
  sample's three tap arrays whole, and the three per-channel arrays whole, and writes the [1, 96, 32, 256] block of the
  result at (a, 0, b, 0). The output blocks tile the [8, 96, 256, 256] result, so the result at (n, c, h, w) is the
  body's formula over the arrays' entries at (n, c, h, .), (n, c, 0, 0) and (c, 0, 0).
-/
import proofs.«175004_j75453985457454_2_alg».proof.Proof.Gen.KernelIdeal.Frame
import proofs.«175004_j75453985457454_2_alg».proof.Proof.Body
import Idealize.ShloMosaic.Lib.ValueIdx
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.Body (one body_apply)

/-- The result at (n, c, h, w) from the padded array, the row means, the three tap arrays and the three per-channel
    arrays. -/
def outAt (xp : S8x96x256x258.Idx → EReal) (gap : S8x96x256x1.Idx → EReal) (f0 f1 f2 : S8x96x1x1.Idx → EReal)
    (ins ll lh : S96x1x1.Idx → EReal) (n : Fin 8) (c : Fin 96) (h : Fin 256) (w : Fin 256) : EReal :=
  ((xp (ix4 n c h ⟨w.val, by have := w.isLt; omega⟩) * f0 (ix4 n c 0 0)
        + xp (ix4 n c h ⟨w.val + 1, by have := w.isLt; omega⟩) * f1 (ix4 n c 0 0)
        + xp (ix4 n c h ⟨w.val + 2, by have := w.isLt; omega⟩) * f2 (ix4 n c 0 0)) * (ins (ix3 c 0 0) + one)
      - ins (ix3 c 0 0) * gap (ix4 n c h 0)) * ll (ix3 c 0 0)
    + xp (ix4 n c h ⟨w.val + 1, by have := w.isLt; omega⟩) * (lh (ix3 c 0 0) + one)

/-- The result array. -/
def outK (xp : S8x96x256x258.Idx → EReal) (gap : S8x96x256x1.Idx → EReal) (f0 f1 f2 : S8x96x1x1.Idx → EReal)
    (ins ll lh : S96x1x1.Idx → EReal) : S8x96x256x256.Idx → EReal :=
  fun i => outAt xp gap f0 f1 f2 ins ll lh (i 0) (i 1) (i 2) (i 3)

theorem outK_apply (xp : S8x96x256x258.Idx → EReal) (gap : S8x96x256x1.Idx → EReal) (f0 f1 f2 : S8x96x1x1.Idx → EReal)
    (ins ll lh : S96x1x1.Idx → EReal) (n : Fin 8) (c : Fin 96) (h : Fin 256) (w : Fin 256) :
    outK xp gap f0 f1 f2 ins ll lh (ix4 n c h w) = outAt xp gap f0 f1 f2 ins ll lh n c h w := rfl

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ## The windows' block positions, decided over the 64 points -/

/-- The output block sits at (sample, 0, row block, 0). -/
theorem facts_out : ∀ t : Fin cfg1.N, win1_8.index t (1 : Fin 4) = 0 ∧ win1_8.index t (3 : Fin 4) = 0
    ∧ win1_8.index t (0 : Fin 4) ≤ 7 ∧ win1_8.index t (2 : Fin 4) ≤ 7 :=
  (by decide +kernel : ∀ t : Fin grid1.N, _)
/-- The padded block and the row-mean block sit where the output block does. -/
theorem facts_rows : ∀ t : Fin cfg1.N,
      win1_0.index t (0 : Fin 4) = win1_8.index t (0 : Fin 4) ∧ win1_0.index t (1 : Fin 4) = 0
    ∧ win1_0.index t (2 : Fin 4) = win1_8.index t (2 : Fin 4) ∧ win1_0.index t (3 : Fin 4) = 0
    ∧ win1_1.index t (0 : Fin 4) = win1_8.index t (0 : Fin 4) ∧ win1_1.index t (1 : Fin 4) = 0
    ∧ win1_1.index t (2 : Fin 4) = win1_8.index t (2 : Fin 4) ∧ win1_1.index t (3 : Fin 4) = 0 :=
  (by decide +kernel : ∀ t : Fin grid1.N, _)
/-- The three tap blocks are the output block's sample's. -/
theorem facts_taps : ∀ t : Fin cfg1.N,
      win1_2.index t (0 : Fin 4) = win1_8.index t (0 : Fin 4) ∧ win1_2.index t (1 : Fin 4) = 0
    ∧ win1_2.index t (2 : Fin 4) = 0 ∧ win1_2.index t (3 : Fin 4) = 0
    ∧ win1_3.index t (0 : Fin 4) = win1_8.index t (0 : Fin 4) ∧ win1_3.index t (1 : Fin 4) = 0
    ∧ win1_3.index t (2 : Fin 4) = 0 ∧ win1_3.index t (3 : Fin 4) = 0
    ∧ win1_4.index t (0 : Fin 4) = win1_8.index t (0 : Fin 4) ∧ win1_4.index t (1 : Fin 4) = 0
    ∧ win1_4.index t (2 : Fin 4) = 0 ∧ win1_4.index t (3 : Fin 4) = 0 :=
  (by decide +kernel : ∀ t : Fin grid1.N, _)
/-- The three per-channel arrays are read whole. -/
theorem facts_chan : ∀ t : Fin cfg1.N,
      win1_5.index t (0 : Fin 3) = 0 ∧ win1_5.index t (1 : Fin 3) = 0 ∧ win1_5.index t (2 : Fin 3) = 0
    ∧ win1_6.index t (0 : Fin 3) = 0 ∧ win1_6.index t (1 : Fin 3) = 0 ∧ win1_6.index t (2 : Fin 3) = 0
    ∧ win1_7.index t (0 : Fin 3) = 0 ∧ win1_7.index t (1 : Fin 3) = 0 ∧ win1_7.index t (2 : Fin 3) = 0 :=
  (by decide +kernel : ∀ t : Fin grid1.N, _)
/-- Every (sample, row block) is some point's. -/
theorem idx_onto : ∀ (q0 : Fin 8) (q2 : Fin 8), ∃ t : Fin cfg1.N, win1_8.index t = ![q0.val, 0, q2.val, 0] :=
  (by decide +kernel : ∀ (q0 : Fin 8) (q2 : Fin 8), ∃ t : Fin grid1.N, win1_8.index t = ![q0.val, 0, q2.val, 0])

section
variable (V : (c : Dev nD) → (b : Ref sig .tc) → Buf (Elt Ideal) ((c : Thread nD τ).loc b))

/-- What point t writes back is block t of the result function of the arrays as the region finds them. -/
theorem flushed_eq (c : Dev nD) (t : Fin cfg1.N) :
    (dat1 (F := Ideal) V c).flushed 8 t = ((cfg1.win 8).blk t).view.read (Elt Ideal)
      (outK (V c main_v20) (V c main_v0) (V c main_v13) (V c main_v16) (V c main_v19) (V c main_arg2) (V c main_v21) (V c main_v22)) := by
  show (cfg1.win 8).cut (grid1.coords t) ((dat1 V c).after 8 t) = _
  rw [after1_8]
  unfold out1_8
  rw [View.canon_unit_zero hz4]
  simp only [View.ld_unit_zero (S := S1x96x32x258) hz4, View.ld_unit_zero (S := S1x96x32x1) hz4,
    View.ld_unit_zero (S := S1x96x1x1) hz4, View.ld_unit_zero (S := S96x1x1) hz3]
  obtain ⟨o1, o3, o0, o2⟩ := facts_out t
  obtain ⟨a0, a1, a2, a3, b0, b1, b2, b3⟩ := facts_rows t
  obtain ⟨p0, p1, p2, p3, q0, q1, q2, q3, s0, s1, s2, s3⟩ := facts_taps t
  obtain ⟨u0, u1, u2, v0, v1, v2, y0, y1, y2⟩ := facts_chan t
  funext j
  obtain ⟨j0, cc, r, w, rfl⟩ : ∃ (j0 : Fin 1) (cc : Fin 96) (r : Fin 32) (w : Fin 256), j = ix4 j0 cc r w :=
    ⟨j 0, j 1, j 2, j 3, eq_ix4 j⟩
  obtain rfl : j0 = 0 := Subsingleton.elim _ _
  refine (body_apply _ _ _ _ _ _ _ _ cc r w).trans ?_
  have hr : r.val < 32 := r.isLt
  have hE : ((cfg1.win 8).blk t).view.emb (ix4 0 cc r w)
      = ix4 (⟨win1_8.index t (0 : Fin 4), by omega⟩ : Fin 8) cc (⟨win1_8.index t (2 : Fin 4) * 32 + r.val, by omega⟩ : Fin 256) w := by
    funext a; apply Fin.ext
    match a with
    | ⟨0, _⟩ => show win1_8.index t (0 : Fin 4) * 1 + 1 * 0 = win1_8.index t (0 : Fin 4); omega
    | ⟨1, _⟩ => show win1_8.index t (1 : Fin 4) * 96 + 1 * cc.val = cc.val; omega
    | ⟨2, _⟩ => show win1_8.index t (2 : Fin 4) * 32 + 1 * r.val = win1_8.index t (2 : Fin 4) * 32 + r.val; omega
    | ⟨3, _⟩ => show win1_8.index t (3 : Fin 4) * 256 + 1 * w.val = w.val; omega
  rw [View.read_apply, hE, outK_apply]
  unfold outAt
  have r0 : ∀ v : Fin 258, iblk1 V c 0 t (ix4 0 cc r v)
      = V c main_v20 (ix4 (⟨win1_8.index t (0 : Fin 4), by omega⟩ : Fin 8) cc (⟨win1_8.index t (2 : Fin 4) * 32 + r.val, by omega⟩ : Fin 256) v) := fun v => by
    show V c main_v20 (((cfg1.win 0).blk t).view.emb (ix4 0 cc r v)) = _
    refine congrArg _ ?_
    funext a; apply Fin.ext
    match a with
    | ⟨0, _⟩ => show win1_0.index t (0 : Fin 4) * 1 + 1 * 0 = win1_8.index t (0 : Fin 4); omega
    | ⟨1, _⟩ => show win1_0.index t (1 : Fin 4) * 96 + 1 * cc.val = cc.val; omega
    | ⟨2, _⟩ => show win1_0.index t (2 : Fin 4) * 32 + 1 * r.val = win1_8.index t (2 : Fin 4) * 32 + r.val; omega
    | ⟨3, _⟩ => show win1_0.index t (3 : Fin 4) * 258 + 1 * v.val = v.val; omega
  have r1 : iblk1 V c 1 t (ix4 0 cc r 0)
      = V c main_v0 (ix4 (⟨win1_8.index t (0 : Fin 4), by omega⟩ : Fin 8) cc (⟨win1_8.index t (2 : Fin 4) * 32 + r.val, by omega⟩ : Fin 256) 0) := by
    show V c main_v0 (((cfg1.win 1).blk t).view.emb (ix4 0 cc r 0)) = _
    refine congrArg _ ?_
    funext a; apply Fin.ext
    match a with
    | ⟨0, _⟩ => show win1_1.index t (0 : Fin 4) * 1 + 1 * 0 = win1_8.index t (0 : Fin 4); omega
    | ⟨1, _⟩ => show win1_1.index t (1 : Fin 4) * 96 + 1 * cc.val = cc.val; omega
    | ⟨2, _⟩ => show win1_1.index t (2 : Fin 4) * 32 + 1 * r.val = win1_8.index t (2 : Fin 4) * 32 + r.val; omega
    | ⟨3, _⟩ => show win1_1.index t (3 : Fin 4) * 1 + 1 * 0 = 0; omega
  have r2 : iblk1 V c 2 t (ix4 0 cc 0 0) = V c main_v13 (ix4 (⟨win1_8.index t (0 : Fin 4), by omega⟩ : Fin 8) cc 0 0) := by
    show V c main_v13 (((cfg1.win 2).blk t).view.emb (ix4 0 cc 0 0)) = _
    refine congrArg _ ?_
    funext a; apply Fin.ext
    match a with
    | ⟨0, _⟩ => show win1_2.index t (0 : Fin 4) * 1 + 1 * 0 = win1_8.index t (0 : Fin 4); omega
    | ⟨1, _⟩ => show win1_2.index t (1 : Fin 4) * 96 + 1 * cc.val = cc.val; omega
    | ⟨2, _⟩ => show win1_2.index t (2 : Fin 4) * 1 + 1 * 0 = 0; omega
    | ⟨3, _⟩ => show win1_2.index t (3 : Fin 4) * 1 + 1 * 0 = 0; omega
  have r3 : iblk1 V c 3 t (ix4 0 cc 0 0) = V c main_v16 (ix4 (⟨win1_8.index t (0 : Fin 4), by omega⟩ : Fin 8) cc 0 0) := by
    show V c main_v16 (((cfg1.win 3).blk t).view.emb (ix4 0 cc 0 0)) = _
    refine congrArg _ ?_
    funext a; apply Fin.ext
    match a with
    | ⟨0, _⟩ => show win1_3.index t (0 : Fin 4) * 1 + 1 * 0 = win1_8.index t (0 : Fin 4); omega
    | ⟨1, _⟩ => show win1_3.index t (1 : Fin 4) * 96 + 1 * cc.val = cc.val; omega
    | ⟨2, _⟩ => show win1_3.index t (2 : Fin 4) * 1 + 1 * 0 = 0; omega
    | ⟨3, _⟩ => show win1_3.index t (3 : Fin 4) * 1 + 1 * 0 = 0; omega
  have r4 : iblk1 V c 4 t (ix4 0 cc 0 0) = V c main_v19 (ix4 (⟨win1_8.index t (0 : Fin 4), by omega⟩ : Fin 8) cc 0 0) := by
    show V c main_v19 (((cfg1.win 4).blk t).view.emb (ix4 0 cc 0 0)) = _
    refine congrArg _ ?_
    funext a; apply Fin.ext
    match a with
    | ⟨0, _⟩ => show win1_4.index t (0 : Fin 4) * 1 + 1 * 0 = win1_8.index t (0 : Fin 4); omega
    | ⟨1, _⟩ => show win1_4.index t (1 : Fin 4) * 96 + 1 * cc.val = cc.val; omega
    | ⟨2, _⟩ => show win1_4.index t (2 : Fin 4) * 1 + 1 * 0 = 0; omega
    | ⟨3, _⟩ => show win1_4.index t (3 : Fin 4) * 1 + 1 * 0 = 0; omega
  have r5 : iblk1 V c 5 t (ix3 cc 0 0) = V c main_arg2 (ix3 cc 0 0) := by
    show V c main_arg2 (((cfg1.win 5).blk t).view.emb (ix3 cc 0 0)) = _
    refine congrArg _ ?_
    funext a; apply Fin.ext
    match a with
    | ⟨0, _⟩ => show win1_5.index t (0 : Fin 3) * 96 + 1 * cc.val = cc.val; omega
    | ⟨1, _⟩ => show win1_5.index t (1 : Fin 3) * 1 + 1 * 0 = 0; omega
    | ⟨2, _⟩ => show win1_5.index t (2 : Fin 3) * 1 + 1 * 0 = 0; omega
  have r6 : iblk1 V c 6 t (ix3 cc 0 0) = V c main_v21 (ix3 cc 0 0) := by
    show V c main_v21 (((cfg1.win 6).blk t).view.emb (ix3 cc 0 0)) = _
    refine congrArg _ ?_
    funext a; apply Fin.ext
    match a with
    | ⟨0, _⟩ => show win1_6.index t (0 : Fin 3) * 96 + 1 * cc.val = cc.val; omega
    | ⟨1, _⟩ => show win1_6.index t (1 : Fin 3) * 1 + 1 * 0 = 0; omega
    | ⟨2, _⟩ => show win1_6.index t (2 : Fin 3) * 1 + 1 * 0 = 0; omega
  have r7 : iblk1 V c 7 t (ix3 cc 0 0) = V c main_v22 (ix3 cc 0 0) := by
    show V c main_v22 (((cfg1.win 7).blk t).view.emb (ix3 cc 0 0)) = _
    refine congrArg _ ?_
    funext a; apply Fin.ext
    match a with
    | ⟨0, _⟩ => show win1_7.index t (0 : Fin 3) * 96 + 1 * cc.val = cc.val; omega
    | ⟨1, _⟩ => show win1_7.index t (1 : Fin 3) * 1 + 1 * 0 = 0; omega
    | ⟨2, _⟩ => show win1_7.index t (2 : Fin 3) * 1 + 1 * 0 = 0; omega
  rw [r0, r0, r0, r1, r2, r3, r4, r5, r6, r7]
  rfl

/-- An index of the result is in point t's block iff each coordinate is in the block's range on its axis. -/
theorem mem_blk (t : Fin cfg1.N) (i : S8x96x256x256.Idx) :
    i ∈ ((cfg1.win 8).blk t).view.set ↔ ∀ a : Fin 4, win1_8.index t a * S1x96x32x256.size a ≤ (i a).val
      ∧ (i a).val < win1_8.index t a * S1x96x32x256.size a + S1x96x32x256.size a := by
  show i ∈ ((View.whole main_v23).slice (win1_8.rect t)).set ↔ _
  rw [View.set_slice_whole, Rect.mem_set_unit]
  exact Iff.rfl

/-- The blocks tile the result: the point of sample (i 0) and row block (i 2) / 32 covers index i. -/
theorem cover (i : S8x96x256x256.Idx) :
    ∃ t : Fin cfg1.N, (cfg1.win 8).flush t = true ∧ i ∈ ((cfg1.win 8).blk t).view.set := by
  have hi0 : (i 0).val < 8 := (i 0).isLt
  have hi1 : (i 1).val < 96 := (i 1).isLt
  have hi2 : (i 2).val < 256 := (i 2).isLt
  have hi3 : (i 3).val < 256 := (i 3).isLt
  obtain ⟨t, ht⟩ := idx_onto ⟨(i 0).val, hi0⟩ ⟨(i 2).val / 32, by omega⟩
  have q0 : win1_8.index t (0 : Fin 4) = (i 0).val := congrFun ht 0
  have q1 : win1_8.index t (1 : Fin 4) = 0 := congrFun ht 1
  have q2 : win1_8.index t (2 : Fin 4) = (i 2).val / 32 := congrFun ht 2
  have q3 : win1_8.index t (3 : Fin 4) = 0 := congrFun ht 3
  refine ⟨t, flush1_8 t, ?_⟩
  rw [mem_blk]
  intro a
  match a with
  | ⟨0, _⟩ => show win1_8.index t (0 : Fin 4) * 1 ≤ (i 0).val ∧ (i 0).val < win1_8.index t (0 : Fin 4) * 1 + 1; omega
  | ⟨1, _⟩ => show win1_8.index t (1 : Fin 4) * 96 ≤ (i 1).val ∧ (i 1).val < win1_8.index t (1 : Fin 4) * 96 + 96; omega
  | ⟨2, _⟩ => show win1_8.index t (2 : Fin 4) * 32 ≤ (i 2).val ∧ (i 2).val < win1_8.index t (2 : Fin 4) * 32 + 32; omega
  | ⟨3, _⟩ => show win1_8.index t (3 : Fin 4) * 256 ≤ (i 3).val ∧ (i 3).val < win1_8.index t (3 : Fin 4) * 256 + 256; omega

/-- The result array after the region. -/
theorem final (c : Dev nD) : (dat1 (F := Ideal) V c).arrAt 8 cfg1.N
    = outK (V c main_v20) (V c main_v0) (V c main_v13) (V c main_v16) (V c main_v19) (V c main_arg2) (V c main_v21) (V c main_v22) :=
  (dat1 (F := Ideal) V c).arrAt_eq_of_cover 8 _ (fun t _ => flushed_eq V c t) (cover)

end

end Cert.KernelIdeal.Region1

end
-- ==== Proof.MeanAlgebra.lean ====
/-
  The two identities that join the kernel's means to the specification's.

  The kernel multiplies a row's sum by the word of 2^-8 where the specification divides it by 256, and takes the plane's
  mean in two steps - the 256 row means added from the zero word, the total divided by the word of 256 - where the
  specification divides the plane's total by 65536. Division by a nonzero real is the product with its reciprocal on
  every extended real, and a nonnegative real factor moves across a finite sum of extended reals, infinite summands
  included; with 2^-8 * 2^-8 = 2^-16 that is all there is to it, and no entry has to be finite.
-/
import proofs.«175004_j75453985457454_2_alg».proof.Proof.Spec

noncomputable section

open scoped BigOperators

namespace Cert.StripMix

open Idealize.ShloMosaic Idealize.ShloMosaic.ValueIdx

/-- The zero word is 0. -/
theorem ofBits_zero : Ideal.ofBits .f32 0x00000000#32 = 0 := by
  simp [Ideal.ofBits, Ideal.ieee]

/-- The word of 256.0 is the real 256. -/
theorem ofBits_256 : Ideal.ofBits .f32 0x43800000#32 = ((256 : ℝ) : EReal) := by
  simp [Ideal.ofBits, Ideal.ieee, -EReal.coe_mul]; norm_num

/-- The word of 0.00390625 is the real 1/256. -/
theorem ofBits_inv256 : Ideal.ofBits .f32 0x3B800000#32 = ((1 / 256 : ℝ) : EReal) := by
  simp [Ideal.ofBits, Ideal.ieee, -EReal.coe_mul]; norm_num

/-- A nonnegative real factor moves across a finite sum of extended reals. -/
theorem sum_mul_coe {ι : Type} (s : Finset ι) (f : ι → EReal) {a : ℝ} (ha : 0 ≤ a) :
    ∑ i ∈ s, f i * (a : EReal) = (∑ i ∈ s, f i) * (a : EReal) := by
  classical
  refine Finset.induction_on s ?_ ?_
  · simp
  · intro i s hi ih
    rw [Finset.sum_insert hi, Finset.sum_insert hi, ih,
      EReal.right_distrib_of_nonneg_of_ne_top (by exact_mod_cast ha) (EReal.coe_ne_top a)]

/-- A row's sum times the word of 2^-8 is the row's mean. -/
theorem rowSum_mul_invW (x : SX.Idx → EReal) (n : Fin 8) (c : Fin 96) (h : Fin 256) :
    rowSum x n c h * Ideal.ofBits .f32 0x3B800000#32 = rowMean x n c h := by
  rw [rowMean, Ideal.div_coe (by norm_num : (256 : ℝ) ≠ 0), ofBits_inv256]

/-- The row means added from the zero word and divided by the word of 256 are the plane's mean. -/
theorem planeMean_of_rowMeans (x : SX.Idx → EReal) (n : Fin 8) (c : Fin 96) :
    Ideal.div (Ideal.ofBits .f32 0x00000000#32 + ∑ h : Fin 256, rowSum x n c h * Ideal.ofBits .f32 0x3B800000#32)
        (Ideal.ofBits .f32 0x43800000#32) = planeMean x n c := by
  rw [ofBits_zero, zero_add, ofBits_inv256, ofBits_256, planeMean,
    Ideal.div_coe (by norm_num : (256 : ℝ) ≠ 0), Ideal.div_coe (by norm_num : (65536 : ℝ) ≠ 0),
    sum_mul_coe _ _ (by norm_num : (0 : ℝ) ≤ 1 / 256), mul_assoc, ← EReal.coe_mul]
  norm_num

end Cert.StripMix

end
-- ==== Proof.KernValue.lean ====
/-
  The kernel's result function is the specification.

  With the second region's eight entry arrays read back to the launch memory, the result at (n, c, h, w) is the body's
  formula over: the reflection pad of x, which is the specification's padded row; the tap arrays, whose plane means are
  taken in two steps from the first region's row means - the specification's plane mean by the two mean identities;
  the first region's row mean itself, a row sum times 2^-8 - the specification's row mean; and the per-channel
  vectors viewed as [96, 1, 1]. The last term reads the padded row at column w + 1, which is x's own column w.
-/
import proofs.«175004_j75453985457454_2_alg».proof.Proof.Spec
import proofs.«175004_j75453985457454_2_alg».proof.Proof.MeanAlgebra
import proofs.«175004_j75453985457454_2_alg».proof.Proof.HostStages
import proofs.«175004_j75453985457454_2_alg».proof.Proof.RowMeans
import proofs.«175004_j75453985457454_2_alg».proof.Proof.Region1

set_option maxRecDepth 16384

noncomputable section

open scoped BigOperators

namespace Cert.KernelIdeal.KernValue

open Cert.KernelIdeal Cert.KernelIdeal.Gen Idealize.ShloMosaic Idealize.ShloMosaic.ValueIdx
open Cert.StripMix (G G_apply mixAt conv padded tap tapOf reflCol rowMean rowSum planeMean rowSum_mul_invW planeMean_of_rowMeans)
open Cert.KernelIdeal.HostStages (padOf padOf_apply tapArr0 tapArr1 tapArr2 tapArr0_apply tapArr1_apply tapArr2_apply meansOf meansOf_apply)
open Cert.KernelIdeal.RowMeans (rowMeansK rowMeansK_apply)
open Cert.KernelIdeal.Region1 (outK outK_apply outAt)

/-- A length-96 vector viewed as [96, 1, 1] reads its entry c at (c, 0, 0). -/
theorem col_cast (v : FVec Ideal S96 .f32) (h : S96.ShapeCasts S96x1x1) (c : Fin 96) :
    shapeCast S96x1x1 v h (ix3 c 0 0) = v (ix1 c) := by
  refine shapeCast_apply _ _ _ (ix1 c) ?_
  rw [Shape.rowMajor_val_one, Shape.rowMajor_val_three]
  show c.val = (c.val * 1 + 0) * 1 + 0
  omega

/-- Padded column w + 1 is column w. -/
theorem reflCol_succ (w : Fin 256) (hw : w.val + 1 < 258) : reflCol ⟨w.val + 1, hw⟩ = w := by
  unfold reflCol
  have hlt := w.isLt
  rw [dif_neg (show ¬ w.val + 1 = 0 by omega), dif_neg (show ¬ w.val + 1 = 257 by omega)]
  exact Fin.ext (by show w.val + 1 - 1 = w.val; omega)

/-- The plane means taken from the first region's row means are the specification's. -/
theorem meansOf_rowMeansK (x : FVec Ideal S8x96x256x256 .f32) (n : Fin 8) (k : Fin 96) :
    meansOf (rowMeansK x) (ix2 n k) = planeMean x n k := by
  rw [meansOf_apply]
  simp only [rowMeansK_apply]
  exact planeMean_of_rowMeans x n k

/-- The kernel's result function of the launch arrays is the specification, index by index. -/
theorem outK_eq_G (x : FVec Ideal S8x96x256x256 .f32) (W : FVec Ideal S6x96 .f32) (ins : FVec Ideal S96x1x1 .f32)
    (ll lh : FVec Ideal S96 .f32) :
    outK (padOf x) (rowMeansK x) (tapArr0 (rowMeansK x) W) (tapArr1 (rowMeansK x) W) (tapArr2 (rowMeansK x) W) ins
        (shapeCast S96x1x1 ll shapeCasts_S96_S96x1x1) (shapeCast S96x1x1 lh shapeCasts_S96_S96x1x1)
      = G x W ins ll lh := by
  funext i
  obtain ⟨n, c, h, w, rfl⟩ : ∃ (n : Fin 8) (c : Fin 96) (h : Fin 256) (w : Fin 256), i = ix4 n c h w :=
    ⟨i 0, i 1, i 2, i 3, eq_ix4 i⟩
  rw [outK_apply, G_apply]
  unfold outAt mixAt conv padded tap
  rw [padOf_apply, padOf_apply, padOf_apply, tapArr0_apply, tapArr1_apply, tapArr2_apply, rowMeansK_apply, col_cast, col_cast]
  simp only [meansOf_rowMeansK, reflCol_succ]
  rw [← rowSum_mul_invW x n c h]
  rfl

end Cert.KernelIdeal.KernValue

end
-- ==== Proof.KernFinal.lean ====
/-
  The idealized kernel program ends with its result array at the specification of its arguments.

  The run names the result buffer at the last boundary's contents; that is the second region's output array after its
  write-backs, the region's result function of its entry arrays; those read back to the launch memory through the
  host stretches and the first region; and that function of the launch arrays is the specification.
-/
import proofs.«175004_j75453985457454_2_alg».proof.Proof.KernRun
import proofs.«175004_j75453985457454_2_alg».proof.Proof.HostVals
import proofs.«175004_j75453985457454_2_alg».proof.Proof.Region1
import proofs.«175004_j75453985457454_2_alg».proof.Proof.KernValue

set_option maxRecDepth 16384

noncomputable section

namespace Cert.KernelIdeal.KernFinal

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents of the result buffer: the specification of the launch arrays. -/
theorem result_eq (c : Dev nD) : W5 m ρ c (Proc.devRef .tc main_v23)
    = Cert.StripMix.G (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  rw [KernRun.W5_result, Region1.final (V4 m ρ) c, HostVals.V4_v20, HostVals.V4_v0, HostVals.V4_v13, HostVals.V4_v16,
    HostVals.V4_v19, HostVals.V4_arg2, HostVals.V4_v21, HostVals.V4_v22]
  exact KernValue.outK_eq_G _ _ _ _ _

/-- From any memory with zero counters every weakly fair execution of the program terminates, nothing faulting, with
    the result buffer at the specification of the arguments and the five arguments as launched. -/
theorem run_G : θ_run (defs (F := Ideal)) (onTc (τ := τ) (main (F := Ideal))) ⟨m, fun _ => 0, ρ⟩ (fun r => ∀ c : Dev nD,
      r.2.mem ((c.tc : Thread nD τ).loc main_v23)
        = Cert.StripMix.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (KernRun.run_result m ρ)

end Cert.KernelIdeal.KernFinal

end
-- ==== Proof.RefStages.lean ====
/-
  The reference program's result written as a composition of named stages: each stage is one stretch of the
  program's own operations, over the program's own shape facts, for any float values.
-/
import proofs.«175004_j75453985457454_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The mean of every plane: the sum over rows and columns from zero, divided by the splat of the word of 65536. -/
def planeMeanTab (x : FVec F S8x96x256x256 .f32) : FVec F S8x96 .f32 :=
  Host.divf (Host.reduceAdd x (constant S_ .f32 0x00000000#32) reducesTo_S8x96x256x256_S8x96_d2_3 h_S_)
    (broadcastInDim S8x96 ![] bcast_S_S8x96 (constant S_ .f32 0x47800000#32))

/-- The filter taps as an 8 x 2 x 3 table: the plane means times the transposed weights, through the hyperbolic
    tangent, regrouped. -/
def tapTab (x : FVec F S8x96x256x256 .f32) (W : FVec F S6x96 .f32) : FVec F S8x2x3 .f32 :=
  shapeCast S8x2x3
    (Host.tanh (Host.dotGeneral dot_S8x96_S96x6_S8x6_1_0_0_1_n_n none (planeMeanTab x)
      (transpose S96x6 [1, 0] W transposes_S6x96_S96x6_1_0)))
    shapeCasts_S8x6_S8x2x3

/-- The input with its second column, reversed along an axis of extent one, put in front. -/
def padLeft (x : FVec F S8x96x256x256 .f32) : FVec F S8x96x256x257 .f32 :=
  concatenate S8x96x256x257 3
    [⟨S8x96x256x1, Host.reverse [3] (extractStridedSlice S8x96x256x1 ![0, 0, 0, 1] x slices_S8x96x256x256_S8x96x256x1_0_0_0_1)⟩,
     ⟨S8x96x256x256, x⟩]
    concatenates_S8x96x256x1_S8x96x256x256_S8x96x256x257_d3

/-- The reflection-padded input: the above with its last column but one, reversed likewise, put behind. -/
def padTab (x : FVec F S8x96x256x256 .f32) : FVec F S8x96x256x258 .f32 :=
  concatenate S8x96x256x258 3
    [⟨S8x96x256x257, padLeft x⟩,
     ⟨S8x96x256x1, Host.reverse [3] (extractStridedSlice S8x96x256x1 ![0, 0, 0, 255] (padLeft x) slices_S8x96x256x257_S8x96x256x1_0_0_0_255)⟩]
    concatenates_S8x96x256x257_S8x96x256x1_S8x96x256x258_d3

/-- The padded input with its channels split into two groups of 48. -/
def padGrouped (x : FVec F S8x96x256x256 .f32) : FVec F S8x2x48x256x258 .f32 :=
  shapeCast S8x2x48x256x258 (padTab x) shapeCasts_S8x96x256x258_S8x2x48x256x258

/-- One tap position of the table spread over a group's channels, rows and columns. -/
def tapSpread (t : FVec F S8x2x3 .f32) (off : Fin 3 → Nat) (h : S8x2x3.Slices off S8x2x1) : FVec F S8x2x48x256x256 .f32 :=
  broadcastInDim S8x2x48x256x256 ![0, 1, 2, 3, 4] bcast_S8x2x1x1x1_S8x2x48x256x256_0_1_2_3_4
    (broadcastInDim S8x2x1x1x1 ![0, 1] bcast_S8x2_S8x2x1x1x1_0_1
      (shapeCast S8x2 (extractStridedSlice S8x2x1 off t h) shapeCasts_S8x2x1_S8x2))

/-- One term of the convolution: a 256-column window of the padded rows times one tap position. -/
def convTerm (p : FVec F S8x2x48x256x258 .f32) (t : FVec F S8x2x3 .f32) (off5 : Fin 5 → Nat)
    (h5 : S8x2x48x256x258.Slices off5 S8x2x48x256x256) (off3 : Fin 3 → Nat) (h3 : S8x2x3.Slices off3 S8x2x1) :
    FVec F S8x2x48x256x256 .f32 :=
  mulf (extractStridedSlice S8x2x48x256x256 off5 p h5) (tapSpread t off3 h3)

/-- The three-tap convolution, the terms added left to right, with the channels put back on one axis. -/
def convTab (x : FVec F S8x96x256x256 .f32) (W : FVec F S6x96 .f32) : FVec F S8x96x256x256 .f32 :=
  shapeCast S8x96x256x256
    (addf (addf
      (convTerm (padGrouped x) (tapTab x W) ![0, 0, 0, 0, 0] slices_S8x2x48x256x258_S8x2x48x256x256_0_0_0_0_0 ![0, 0, 0] slices_S8x2x3_S8x2x1_0_0_0)
      (convTerm (padGrouped x) (tapTab x W) ![0, 0, 0, 0, 1] slices_S8x2x48x256x258_S8x2x48x256x256_0_0_0_0_1 ![0, 0, 1] slices_S8x2x3_S8x2x1_0_0_1))
      (convTerm (padGrouped x) (tapTab x W) ![0, 0, 0, 0, 2] slices_S8x2x48x256x258_S8x2x48x256x256_0_0_0_0_2 ![0, 0, 2] slices_S8x2x3_S8x2x1_0_0_2))
    shapeCasts_S8x2x48x256x256_S8x96x256x256

/-- The mean of every row, kept with a column axis of extent one: the sum over the columns from zero, divided by the
    splat of the word of 256. -/
def rowMeanTab (x : FVec F S8x96x256x256 .f32) : FVec F S8x96x256x1 .f32 :=
  Host.divf
    (broadcastInDim S8x96x256x1 ![0, 1, 2] bcast_S8x96x256_S8x96x256x1_0_1_2
      (Host.reduceAdd x (constant S_ .f32 0x00000000#32) reducesTo_S8x96x256x256_S8x96x256_d3 h_S_))
    (broadcastInDim S8x96x256x1 ![] bcast_S_S8x96x256x1 (constant S_ .f32 0x43800000#32))

/-- The per-channel gate plus one, spread over samples, rows and columns. -/
def gateP1 (ins : FVec F S96x1x1 .f32) : FVec F S8x96x256x256 .f32 :=
  broadcastInDim S8x96x256x256 ![0, 1, 2, 3] bcast_S1x96x1x1_S8x96x256x256_0_1_2_3
    (broadcastInDim S1x96x1x1 ![1, 2, 3] bcast_S96x1x1_S1x96x1x1_1_2_3
      (addf ins (broadcastInDim S96x1x1 ![] bcast_S_S96x1x1 (constant S_ .f32 0x3F800000#32))))

/-- The per-channel gate times the row mean, spread over the columns. -/
def gateMean (x : FVec F S8x96x256x256 .f32) (ins : FVec F S96x1x1 .f32) : FVec F S8x96x256x256 .f32 :=
  broadcastInDim S8x96x256x256 ![0, 1, 2, 3] bcast_S8x96x256x1_S8x96x256x256_0_1_2_3
    (mulf
      (broadcastInDim S8x96x256x1 ![0, 1, 2, 3] bcast_S1x96x1x1_S8x96x256x1_0_1_2_3
        (broadcastInDim S1x96x1x1 ![1, 2, 3] bcast_S96x1x1_S1x96x1x1_1_2_3 ins))
      (rowMeanTab x))

/-- The low-pass weight spread over samples, rows and columns. -/
def lowW (ll : FVec F S96 .f32) : FVec F S8x96x256x256 .f32 :=
  broadcastInDim S8x96x256x256 ![0, 1, 2, 3] bcast_S1x96x1x1_S8x96x256x256_0_1_2_3
    (broadcastInDim S1x96x1x1 ![1] bcast_S96_S1x96x1x1_1 ll)

/-- The high-pass weight plus one, spread likewise. -/
def highW (lh : FVec F S96 .f32) : FVec F S8x96x256x256 .f32 :=
  broadcastInDim S8x96x256x256 ![0, 1, 2, 3] bcast_S1x96x1x1_S8x96x256x256_0_1_2_3
    (addf (broadcastInDim S1x96x1x1 ![1] bcast_S96_S1x96x1x1_1 lh)
      (broadcastInDim S1x96x1x1 ![] bcast_S_S1x96x1x1 (constant S_ .f32 0x3F800000#32)))

/-- The program's result as a function of its five arguments. -/
def refOut (x : FVec F S8x96x256x256 .f32) (W : FVec F S6x96 .f32) (ins : FVec F S96x1x1 .f32)
    (ll lh : FVec F S96 .f32) : FVec F S8x96x256x256 .f32 :=
  addf (mulf (subf (mulf (convTab x W) (gateP1 ins)) (gateMean x ins)) (lowW ll)) (mulf x (highW lh))

end Cert.ReferenceIdeal.RefRun

end
-- ==== Proof.RefSums.lean ====
/-
  The two host sums of the reference program read at an index over the extended reals, and the two means built
  on them.

  A host sum is the initial value plus the sum of the entries that reduce to the result index. The initial value
  is the zero word, which denotes 0. The entries of an [8, 96, 256, 256] array that a reduction over the last
  axis sends to (n, c, h) are the 256 entries (n, c, h, w); the entries a reduction over the last two axes sends
  to (n, c) are the 256 * 256 entries (n, c, h, w), summed here row by row. The divisors' words denote 256 and
  65536.
-/
import proofs.«175004_j75453985457454_2_alg».proof.Proof.RefStages
import proofs.«175004_j75453985457454_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

/-! ## The divisors' words -/

/-- The word 0x43800000 denotes 256. -/
theorem ofBits_256 : Ideal.ofBits .f32 0x43800000#32 = ((256 : ℝ) : EReal) := by
  simp [Ideal.ofBits, Ideal.ieee, -EReal.coe_mul]; norm_num

/-- The word 0x47800000 denotes 65536. -/
theorem ofBits_65536 : Ideal.ofBits .f32 0x47800000#32 = ((65536 : ℝ) : EReal) := by
  simp [Ideal.ofBits, Ideal.ieee, -EReal.coe_mul]; norm_num

/-! ## Host operations at an index -/

/-- A host quotient at an index is the quotient of the entries. -/
theorem hostDivf_apply {s : Shape} {φ : FTy} (a b : FVec Ideal s φ) (i : s.Idx) :
    Host.divf a b i = Ideal.div (a i) (b i) := rfl

/-- A host hyperbolic tangent at an index is that of the entry. -/
theorem hostTanh_apply {s : Shape} {φ : FTy} (a : FVec Ideal s φ) (i : s.Idx) :
    Host.tanh a i = Ideal.tanh (a i) := rfl

/-- A scalar constant spread over any shape reads the extended real its word denotes. -/
theorem bcast_const_apply {t : Shape} (h : S_.BroadcastsInDim t (![] : Fin 0 → Fin t.rank)) (w : BitVec 32) (j : t.Idx) :
    broadcastInDim t ![] h (constant (F := Ideal) S_ .f32 w) j = Ideal.ofBits .f32 w := rfl

/-! ## The entries a reduction sends to one result index -/

/-- The entries of the input that dropping the last axis sends to (n, c, h), summed, are the sum over the
    column. -/
theorem sum_filter_drop3 {M : Type} [AddCommMonoid M] (hr : SX.ReducesTo [3] ⟨3, ![8, 96, 256]⟩) (x : SX.Idx → M)
    (n : Fin 8) (c : Fin 96) (h : Fin 256) :
    ∑ i ∈ Finset.univ.filter (fun i => hr.drop i = ix3 n c h), x i = ∑ w : Fin 256, x (ix4 n c h w) := by
  have key : ∀ i : SX.Idx, hr.drop i = ix3 n c h → ix4 n c h (i 3 : Fin 256) = i := by
    intro i hd
    have h0 : (i 0).val = n.val :=
      (hr.drop_apply_val_of_eq i (0 : Fin 3) (0 : Fin 4)).symm.trans (congrArg (fun f => (f (0 : Fin 3)).val) hd)
    have h1 : (i 1).val = c.val :=
      (hr.drop_apply_val_of_eq i (1 : Fin 3) (1 : Fin 4)).symm.trans (congrArg (fun f => (f (1 : Fin 3)).val) hd)
    have h2 : (i 2).val = h.val :=
      (hr.drop_apply_val_of_eq i (2 : Fin 3) (2 : Fin 4)).symm.trans (congrArg (fun f => (f (2 : Fin 3)).val) hd)
    funext e
    match e with
    | ⟨0, _⟩ => exact Fin.ext h0.symm
    | ⟨1, _⟩ => exact Fin.ext h1.symm
    | ⟨2, _⟩ => exact Fin.ext h2.symm
    | ⟨3, _⟩ => rfl
  refine Finset.sum_nbij' (fun i => (i 3 : Fin 256)) (fun w => ix4 n c h w) ?_ ?_ ?_ ?_ ?_
  · intro i _; exact Finset.mem_univ _
  · intro w _
    refine Finset.mem_filter.2 ⟨Finset.mem_univ _, funext fun b => ?_⟩
    match b with
    | ⟨0, _⟩ => exact Fin.ext (hr.drop_apply_val_of_eq (ix4 n c h w) (0 : Fin 3) (0 : Fin 4))
    | ⟨1, _⟩ => exact Fin.ext (hr.drop_apply_val_of_eq (ix4 n c h w) (1 : Fin 3) (1 : Fin 4))
    | ⟨2, _⟩ => exact Fin.ext (hr.drop_apply_val_of_eq (ix4 n c h w) (2 : Fin 3) (2 : Fin 4))
  · intro i hi; exact key i (Finset.mem_filter.1 hi).2
  · intro w _; rfl
  · intro i hi; exact congrArg x (key i (Finset.mem_filter.1 hi).2).symm

/-- The entries of the input that dropping the last two axes sends to (n, c), summed, are the sum over the rows of
    the sums over the columns. -/
theorem sum_filter_drop23 {M : Type} [AddCommMonoid M] (hr : SX.ReducesTo [2, 3] ⟨2, ![8, 96]⟩) (x : SX.Idx → M)
    (n : Fin 8) (c : Fin 96) :
    ∑ i ∈ Finset.univ.filter (fun i => hr.drop i = ix2 n c), x i
      = ∑ h : Fin 256, ∑ w : Fin 256, x (ix4 n c h w) := by
  have key : ∀ i : SX.Idx, hr.drop i = ix2 n c → ix4 n c (i 2 : Fin 256) (i 3 : Fin 256) = i := by
    intro i hd
    have h0 : (i 0).val = n.val :=
      (hr.drop_apply_val_of_eq i (0 : Fin 2) (0 : Fin 4)).symm.trans (congrArg (fun f => (f (0 : Fin 2)).val) hd)
    have h1 : (i 1).val = c.val :=
      (hr.drop_apply_val_of_eq i (1 : Fin 2) (1 : Fin 4)).symm.trans (congrArg (fun f => (f (1 : Fin 2)).val) hd)
    funext e
    match e with
    | ⟨0, _⟩ => exact Fin.ext h0.symm
    | ⟨1, _⟩ => exact Fin.ext h1.symm
    | ⟨2, _⟩ => rfl
    | ⟨3, _⟩ => rfl
  refine Eq.trans ?_ (Fintype.sum_prod_type' (fun (h w : Fin 256) => x (ix4 n c h w)))
  refine Finset.sum_nbij' (fun i => ((i 2 : Fin 256), (i 3 : Fin 256))) (fun p => ix4 n c p.1 p.2) ?_ ?_ ?_ ?_ ?_
  · intro i _; exact Finset.mem_univ _
  · intro p _
    refine Finset.mem_filter.2 ⟨Finset.mem_univ _, funext fun b => ?_⟩
    match b with
    | ⟨0, _⟩ => exact Fin.ext (hr.drop_apply_val_of_eq (ix4 n c p.1 p.2) (0 : Fin 2) (0 : Fin 4))
    | ⟨1, _⟩ => exact Fin.ext (hr.drop_apply_val_of_eq (ix4 n c p.1 p.2) (1 : Fin 2) (1 : Fin 4))
  · intro i hi; exact key i (Finset.mem_filter.1 hi).2
  · intro p _; rfl
  · intro i hi; exact congrArg x (key i (Finset.mem_filter.1 hi).2).symm

/-! ## The two sums and the two means -/

/-- The host sum over the columns from the zero word, at (n, c, h): the row's sum. -/
theorem hostSum_row (x : SX.Idx → EReal) (n : Fin 8) (c : Fin 96) (h : Fin 256) :
    Host.reduceAdd (F := Ideal) x (constant S_ .f32 0x00000000#32) reducesTo_S8x96x256x256_S8x96x256_d3 h_S_ (ix3 n c h)
      = rowSum x n c h := by
  show Ideal.ofBits .f32 0x00000000#32
      + ∑ i ∈ Finset.univ.filter (fun i => (reducesTo_S8x96x256x256_S8x96x256_d3).drop i = ix3 n c h), x i = _
  rw [Ideal.ofBits_zero_f32, zero_add, sum_filter_drop3]
  rfl

/-- The host sum over rows and columns from the zero word, at (n, c): the sum of the plane's row sums. -/
theorem hostSum_plane (x : SX.Idx → EReal) (n : Fin 8) (c : Fin 96) :
    Host.reduceAdd (F := Ideal) x (constant S_ .f32 0x00000000#32) reducesTo_S8x96x256x256_S8x96_d2_3 h_S_ (ix2 n c)
      = ∑ h : Fin 256, rowSum x n c h := by
  show Ideal.ofBits .f32 0x00000000#32
      + ∑ i ∈ Finset.univ.filter (fun i => (reducesTo_S8x96x256x256_S8x96_d2_3).drop i = ix2 n c), x i = _
  rw [Ideal.ofBits_zero_f32, zero_add, sum_filter_drop23]
  rfl

/-- The table of plane means at (n, c). -/
theorem planeMeanTab_apply (x : SX.Idx → EReal) (n : Fin 8) (c : Fin 96) :
    planeMeanTab (F := Ideal) x (ix2 n c) = planeMean x n c := by
  unfold planeMeanTab planeMean
  rw [hostDivf_apply, hostSum_plane, bcast_const_apply, ofBits_65536]

/-- The table of row means at (n, c, h, 0). -/
theorem rowMeanTab_apply (x : SX.Idx → EReal) (n : Fin 8) (c : Fin 96) (h : Fin 256) (u : Fin 1) :
    rowMeanTab (F := Ideal) x (ix4 n c h u) = rowMean x n c h := by
  unfold rowMeanTab rowMean
  rw [hostDivf_apply, bcast_const_apply, ofBits_256]
  refine congrArg (fun t => Ideal.div t _) ?_
  refine (broadcastInDim_apply _ _ _ _ (ix3 n c h) (fun a => match a with
    | ⟨0, _⟩ => rfl
    | ⟨1, _⟩ => rfl
    | ⟨2, _⟩ => rfl)).trans ?_
  exact hostSum_row x n c h

end Cert.ReferenceIdeal.RefValue

end
-- ==== Proof.RefTaps.lean ====
/-
  The filter taps of the reference program read at an index over the extended reals.

  The 8 x 6 product of the plane means with the transposed weights, at (n, j), is the sum over the 96 channels of
  planeMean n c * W j c; its hyperbolic tangent regrouped as 8 x 2 x 3 reads, at (n, g, k), entry (n, 3 g + k).
  One tap position k of that table, cut out, flattened to 8 x 2 and spread over 48 channels, 256 rows and 256
  columns, reads the table at (n, g, k) everywhere.
-/
import proofs.«175004_j75453985457454_2_alg».proof.Proof.RefSums
import Idealize.ShloMosaic.Lib.ValueLayout
import Idealize.ShloMosaic.Lib.StackMember

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

/-- The program's dimension numbers are those of the plain product of an 8 x 96 by a 96 x 6 matrix. -/
theorem dot_eq_plain : dot_S8x96_S96x6_S8x6_1_0_0_1_n_n = DotDims.plain 8 96 6 := rfl

/-- The tap table at (n, g, k) is tap 3 g + k of sample n. -/
theorem tapTab_apply (x : SX.Idx → EReal) (W : SW.Idx → EReal) (n : Fin 8) (g : Fin 2) (k : Fin 3)
    (j : Fin 6) (hj : j.val = 3 * g.val + k.val) :
    tapTab (F := Ideal) x W (ix3 n g k) = tap x W n j := by
  unfold tapTab tap
  refine (shapeCast_apply _ _ (ix3 n g k) (ix2 n j) (by
    rw [Shape.rowMajor_val_two, Shape.rowMajor_val_three]
    show n.val * 6 + j.val = (n.val * 2 + g.val) * 3 + k.val
    omega)).trans ?_
  rw [hostTanh_apply, dot_eq_plain, StackMember.dotGeneral_plain_apply]
  refine congrArg Ideal.tanh (Finset.sum_congr rfl fun c _ => ?_)
  rw [planeMeanTab_apply, transpose_ix2_apply]

/-- Tap position o of a table, spread over a group's channels, rows and columns, reads the table at (n, g, o). -/
theorem tapSpread_apply (t : FVec Ideal S8x2x3 .f32) (o : Nat) (ho : o < 3) (hs : S8x2x3.Slices ![0, 0, o] S8x2x1)
    (n : Fin 8) (g : Fin 2) (cc : Fin 48) (h : Fin 256) (w : Fin 256) :
    tapSpread t ![0, 0, o] hs (ix5 n g cc h w) = t (ix3 n g ⟨o, ho⟩) := by
  unfold tapSpread
  refine (broadcastInDim_apply _ _ _ (ix5 n g cc h w) (ix5 n g (0 : Fin 1) (0 : Fin 1) (0 : Fin 1)) (fun a => match a with
    | ⟨0, _⟩ => rfl
    | ⟨1, _⟩ => rfl
    | ⟨2, _⟩ => rfl
    | ⟨3, _⟩ => rfl
    | ⟨4, _⟩ => rfl)).trans ?_
  refine (broadcastInDim_apply _ _ _ _ (ix2 n g) (fun a => match a with
    | ⟨0, _⟩ => rfl
    | ⟨1, _⟩ => rfl)).trans ?_
  refine (shapeCast_apply _ _ (ix2 n g) (ix3 n g (0 : Fin 1)) (by
    rw [Shape.rowMajor_val_three, Shape.rowMajor_val_two]
    show (n.val * 2 + g.val) * 1 + 0 = n.val * 2 + g.val
    omega)).trans ?_
  exact extractStridedSlice_apply _ _ _ _ (ix3 n g ⟨o, ho⟩) (fun a => match a with
    | ⟨0, _⟩ => (Nat.zero_add _).symm
    | ⟨1, _⟩ => (Nat.zero_add _).symm
    | ⟨2, _⟩ => (Nat.add_zero _).symm)

end Cert.ReferenceIdeal.RefValue

end
-- ==== Proof.RefPad.lean ====
/-
  The reference program's reflection padding read at an index.

  Reversing an array along an axis of extent one changes nothing, so the two reversed one-column slices are the
  slices themselves. The input with its second column put in front reads, at padded column 0, column 1, and at
  padded column v from 1 to 256, column v - 1. With the last column but one of that array (its column 255, the
  input's column 254) put behind, the 258-column array reads the input at the reflected column. Splitting the 96
  channels into two groups of 48 leaves the entries where they are.
-/
import proofs.«175004_j75453985457454_2_alg».proof.Proof.RefSums

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

/-- Reversal along an axis of extent one changes nothing. -/
theorem reverse_unit_apply {α : Type} (y : S8x96x256x1.Idx → α) (j : S8x96x256x1.Idx) :
    Host.reverse (s := S8x96x256x1) [3] y j = y j := by
  unfold Host.reverse
  refine congrArg y (funext fun a => ?_)
  split
  · next ha =>
    obtain rfl : a = 3 := List.mem_singleton.1 ha
    have h3 : (j 3).val < 1 := (j 3).isLt
    apply Fin.ext
    rw [Fin.val_rev]
    show 1 - ((j 3).val + 1) = (j 3).val
    omega
  · rfl

/-- The input with its second column in front, at padded column 0: the input's column 1. -/
theorem padLeft_first (x : SX.Idx → EReal) (n : Fin 8) (c : Fin 96) (h : Fin 256) (v : Fin 257) (hv : v.val = 0)
    (w : Fin 256) (hw : w.val = 1) :
    padLeft (F := Ideal) x (ix4 n c h v) = x (ix4 n c h w) := by
  unfold padLeft
  refine (concatenate_pair_apply_left (t := S8x96x256x257) (s₁ := S8x96x256x1) (s₂ := S8x96x256x256) (3 : Fin 4) _ _ _ (ix4 n c h v) rfl (ix4 n c h (0 : Fin 1)) (fun b => by
    match b with
    | ⟨0, _⟩ => rfl
    | ⟨1, _⟩ => rfl
    | ⟨2, _⟩ => rfl
    | ⟨3, _⟩ => exact hv.symm)).trans ?_
  rw [reverse_unit_apply]
  exact extractStridedSlice_apply _ _ _ _ (ix4 n c h w) (fun a => by
    match a with
    | ⟨0, _⟩ => exact (Nat.zero_add _).symm
    | ⟨1, _⟩ => exact (Nat.zero_add _).symm
    | ⟨2, _⟩ => exact (Nat.zero_add _).symm
    | ⟨3, _⟩ => show w.val = 1 + 0; omega)

/-- The same array at padded column v from 1 on: the input's column v - 1. -/
theorem padLeft_rest (x : SX.Idx → EReal) (n : Fin 8) (c : Fin 96) (h : Fin 256) (v : Fin 257)
    (w : Fin 256) (hw : w.val + 1 = v.val) :
    padLeft (F := Ideal) x (ix4 n c h v) = x (ix4 n c h w) := by
  unfold padLeft
  exact concatenate_pair_apply_right (t := S8x96x256x257) (s₁ := S8x96x256x1) (s₂ := S8x96x256x256) (3 : Fin 4) _ _ _ (ix4 n c h v) rfl rfl (ix4 n c h w)
    (fun b hb => by
      match b with
      | ⟨0, _⟩ => rfl
      | ⟨1, _⟩ => rfl
      | ⟨2, _⟩ => rfl
      | ⟨3, _⟩ => exact absurd rfl hb)
    hw

/-- The padded array at padded column v: the input at the reflected column. -/
theorem padTab_apply (x : SX.Idx → EReal) (n : Fin 8) (c : Fin 96) (h : Fin 256) (v : Fin 258) :
    padTab (F := Ideal) x (ix4 n c h v) = padded x n c h v := by
  have hv := v.isLt
  unfold padTab padded reflCol
  by_cases h257 : v.val = 257
  · -- the last padded column: the one-column piece behind
    rw [dif_neg (by omega), dif_pos h257]
    refine (concatenate_pair_apply_right (t := S8x96x256x258) (s₁ := S8x96x256x257) (s₂ := S8x96x256x1) (3 : Fin 4) _ _ _ (ix4 n c h v) rfl rfl (ix4 n c h (0 : Fin 1))
      (fun b hb => by
        match b with
        | ⟨0, _⟩ => rfl
        | ⟨1, _⟩ => rfl
        | ⟨2, _⟩ => rfl
        | ⟨3, _⟩ => exact absurd rfl hb)
      (by show 0 + 257 = v.val; omega)).trans ?_
    rw [reverse_unit_apply]
    refine (extractStridedSlice_apply _ _ _ _ (ix4 n c h (⟨255, by omega⟩ : Fin 257)) (fun a => by
      match a with
      | ⟨0, _⟩ => exact (Nat.zero_add _).symm
      | ⟨1, _⟩ => exact (Nat.zero_add _).symm
      | ⟨2, _⟩ => exact (Nat.zero_add _).symm
      | ⟨3, _⟩ => rfl)).trans ?_
    exact padLeft_rest x n c h _ _ rfl
  · -- a padded column of the 257-column piece in front
    refine (concatenate_pair_apply_left (t := S8x96x256x258) (s₁ := S8x96x256x257) (s₂ := S8x96x256x1) (3 : Fin 4) _ _ _ (ix4 n c h v) rfl (ix4 n c h (⟨v.val, by omega⟩ : Fin 257)) (fun b => by
      match b with
      | ⟨0, _⟩ => rfl
      | ⟨1, _⟩ => rfl
      | ⟨2, _⟩ => rfl
      | ⟨3, _⟩ => rfl)).trans ?_
    by_cases h0 : v.val = 0
    · rw [dif_pos h0]
      exact padLeft_first x n c h _ h0 _ rfl
    · rw [dif_neg h0, dif_neg h257]
      exact padLeft_rest x n c h _ _ (by show v.val - 1 + 1 = v.val; omega)

/-- The padded array with its channels in two groups of 48, at (n, g, k, h, v): the padded array at channel
    48 g + k. -/
theorem padGrouped_apply (x : SX.Idx → EReal) (n : Fin 8) (g : Fin 2) (k : Fin 48) (h : Fin 256) (v : Fin 258)
    (c : Fin 96) (hc : c.val = 48 * g.val + k.val) :
    padGrouped (F := Ideal) x (ix5 n g k h v) = padTab (F := Ideal) x (ix4 n c h v) := by
  unfold padGrouped
  exact shapeCast_apply _ _ (ix5 n g k h v) (ix4 n c h v) (by
    rw [Shape.rowMajor_val_four, Shape.rowMajor_val_five]
    show ((n.val * 96 + c.val) * 256 + h.val) * 258 + v.val
      = (((n.val * 2 + g.val) * 48 + k.val) * 256 + h.val) * 258 + v.val
    omega)

end Cert.ReferenceIdeal.RefValue

end
-- ==== Proof.RefConv.lean ====
/-
  The reference program's three-tap convolution read at an index over the extended reals.

  One term is a 256-column window of the grouped padded array, starting at column o, times tap position o of the
  table spread over the group: at (n, g, k, h, w) it is the padded entry at column w + o times the table's entry
  (n, g, o). The three terms are added left to right and the two channel axes put back on one: entry (n, c, h, w)
  of the result is read at group c / 48, channel c mod 48 of the group.
-/
import proofs.«175004_j75453985457454_2_alg».proof.Proof.RefTaps
import proofs.«175004_j75453985457454_2_alg».proof.Proof.RefPad

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

/-- One term of the convolution at (n, g, k, h, w). -/
theorem convTerm_apply (p : FVec Ideal S8x2x48x256x258 .f32) (t : FVec Ideal S8x2x3 .f32) (o : Nat) (ho : o < 3)
    (h5 : S8x2x48x256x258.Slices ![0, 0, 0, 0, o] S8x2x48x256x256) (h3 : S8x2x3.Slices ![0, 0, o] S8x2x1)
    (n : Fin 8) (g : Fin 2) (k : Fin 48) (h : Fin 256) (w : Fin 256) (v : Fin 258) (hv : v.val = o + w.val) :
    convTerm p t ![0, 0, 0, 0, o] h5 ![0, 0, o] h3 (ix5 n g k h w) = p (ix5 n g k h v) * t (ix3 n g ⟨o, ho⟩) := by
  unfold convTerm
  rw [mulf_apply, slice5_axis4_apply o p h5 n g k h w v hv, tapSpread_apply t o ho h3]

/-- The convolution at (n, c, h, w). -/
theorem convTab_apply (x : SX.Idx → EReal) (W : SW.Idx → EReal) (n : Fin 8) (c : Fin 96) (h : Fin 256) (w : Fin 256) :
    convTab (F := Ideal) x W (ix4 n c h w) = conv x W n c h w := by
  have hc := c.isLt
  have hw := w.isLt
  obtain ⟨g, k, hgk⟩ : ∃ (g : Fin 2) (k : Fin 48), c.val = 48 * g.val + k.val :=
    ⟨⟨c.val / 48, by omega⟩, ⟨c.val % 48, by omega⟩, by show c.val = 48 * (c.val / 48) + c.val % 48; omega⟩
  have hg := g.isLt
  have hk := k.isLt
  unfold convTab conv
  refine (shapeCast_apply _ _ (ix4 n c h w) (ix5 n g k h w) (by
    rw [Shape.rowMajor_val_five, Shape.rowMajor_val_four]
    show (((n.val * 2 + g.val) * 48 + k.val) * 256 + h.val) * 256 + w.val
      = ((n.val * 96 + c.val) * 256 + h.val) * 256 + w.val
    omega)).trans ?_
  rw [addf_apply, addf_apply,
    convTerm_apply (padGrouped x) (tapTab x W) 0 (by omega) _ _ n g k h w ⟨w.val, by omega⟩ (by show w.val = 0 + w.val; omega),
    convTerm_apply (padGrouped x) (tapTab x W) 1 (by omega) _ _ n g k h w ⟨w.val + 1, by omega⟩ (by show w.val + 1 = 1 + w.val; omega),
    convTerm_apply (padGrouped x) (tapTab x W) 2 (by omega) _ _ n g k h w ⟨w.val + 2, by omega⟩ (by show w.val + 2 = 2 + w.val; omega),
    padGrouped_apply x n g k h _ c hgk, padGrouped_apply x n g k h _ c hgk, padGrouped_apply x n g k h _ c hgk,
    padTab_apply, padTab_apply, padTab_apply,
    tapTab_apply x W n g ⟨0, by omega⟩ (tapOf c 0) (by show 3 * (c.val / 48) + 0 = 3 * g.val + 0; omega),
    tapTab_apply x W n g ⟨1, by omega⟩ (tapOf c 1) (by show 3 * (c.val / 48) + 1 = 3 * g.val + 1; omega),
    tapTab_apply x W n g ⟨2, by omega⟩ (tapOf c 2) (by show 3 * (c.val / 48) + 2 = 3 * g.val + 2; omega)]

end Cert.ReferenceIdeal.RefValue

end
-- ==== Proof.RefMix.lean ====
/-
  The reference program's result over the extended reals is the specification function of its five arguments,
  entry by entry.

  At (n, c, h, w) the result is (conv * (gate c + 1) - gate c * rowMean) * low c + x * (high c + 1), in the
  program's own operand order: the per-channel arrays are spread over samples, rows and columns through an array
  with three axes of extent one, and the word of 1.0 stays a word.
-/
import proofs.«175004_j75453985457454_2_alg».proof.Proof.RefConv

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

/-- The gate plus one, spread, at (n, c, h, w). -/
theorem gateP1_apply (ins : SI.Idx → EReal) (n : Fin 8) (c : Fin 96) (h : Fin 256) (w : Fin 256) :
    gateP1 (F := Ideal) ins (ix4 n c h w) = ins (ix3 c 0 0) + one := by
  unfold gateP1
  refine (broadcastInDim_apply _ _ _ (ix4 n c h w) (ix4 (0 : Fin 1) c (0 : Fin 1) (0 : Fin 1)) (fun a => match a with
    | ⟨0, _⟩ => rfl
    | ⟨1, _⟩ => rfl
    | ⟨2, _⟩ => rfl
    | ⟨3, _⟩ => rfl)).trans ?_
  refine (broadcastInDim_apply _ _ _ _ (ix3 c (0 : Fin 1) (0 : Fin 1)) (fun a => match a with
    | ⟨0, _⟩ => rfl
    | ⟨1, _⟩ => rfl
    | ⟨2, _⟩ => rfl)).trans ?_
  rw [addf_apply, bcast_const_apply]

/-- The gate times the row mean, spread over the columns, at (n, c, h, w). -/
theorem gateMean_apply (x : SX.Idx → EReal) (ins : SI.Idx → EReal) (n : Fin 8) (c : Fin 96) (h : Fin 256) (w : Fin 256) :
    gateMean (F := Ideal) x ins (ix4 n c h w) = ins (ix3 c 0 0) * rowMean x n c h := by
  unfold gateMean
  refine (broadcastInDim_apply _ _ _ (ix4 n c h w) (ix4 n c h (0 : Fin 1)) (fun a => match a with
    | ⟨0, _⟩ => rfl
    | ⟨1, _⟩ => rfl
    | ⟨2, _⟩ => rfl
    | ⟨3, _⟩ => rfl)).trans ?_
  rw [mulf_apply, rowMeanTab_apply]
  refine congrArg (· * rowMean x n c h) ?_
  refine (broadcastInDim_apply _ _ _ _ (ix4 (0 : Fin 1) c (0 : Fin 1) (0 : Fin 1)) (fun a => match a with
    | ⟨0, _⟩ => rfl
    | ⟨1, _⟩ => rfl
    | ⟨2, _⟩ => rfl
    | ⟨3, _⟩ => rfl)).trans ?_
  exact broadcastInDim_apply _ _ _ _ (ix3 c (0 : Fin 1) (0 : Fin 1)) (fun a => match a with
    | ⟨0, _⟩ => rfl
    | ⟨1, _⟩ => rfl
    | ⟨2, _⟩ => rfl)

/-- The low-pass weight, spread, at (n, c, h, w). -/
theorem lowW_apply (ll : SL.Idx → EReal) (n : Fin 8) (c : Fin 96) (h : Fin 256) (w : Fin 256) :
    lowW (F := Ideal) ll (ix4 n c h w) = ll (ix1 c) := by
  unfold lowW
  refine (broadcastInDim_apply _ _ _ (ix4 n c h w) (ix4 (0 : Fin 1) c (0 : Fin 1) (0 : Fin 1)) (fun a => match a with
    | ⟨0, _⟩ => rfl
    | ⟨1, _⟩ => rfl
    | ⟨2, _⟩ => rfl
    | ⟨3, _⟩ => rfl)).trans ?_
  exact broadcastInDim_apply _ _ _ _ (ix1 c) (fun a => match a with
    | ⟨0, _⟩ => rfl)

/-- The high-pass weight plus one, spread, at (n, c, h, w). -/
theorem highW_apply (lh : SL.Idx → EReal) (n : Fin 8) (c : Fin 96) (h : Fin 256) (w : Fin 256) :
    highW (F := Ideal) lh (ix4 n c h w) = lh (ix1 c) + one := by
  unfold highW
  refine (broadcastInDim_apply _ _ _ (ix4 n c h w) (ix4 (0 : Fin 1) c (0 : Fin 1) (0 : Fin 1)) (fun a => match a with
    | ⟨0, _⟩ => rfl
    | ⟨1, _⟩ => rfl
    | ⟨2, _⟩ => rfl
    | ⟨3, _⟩ => rfl)).trans ?_
  rw [addf_apply, bcast_const_apply]
  refine congrArg (· + one) ?_
  exact broadcastInDim_apply _ _ _ _ (ix1 c) (fun a => match a with
    | ⟨0, _⟩ => rfl)

/-- The composition of the program's stages, over the extended reals, is the specification function. -/
theorem refOut_eq_G (x : SX.Idx → EReal) (W : SW.Idx → EReal) (ins : SI.Idx → EReal) (ll lh : SL.Idx → EReal) :
    refOut (F := Ideal) x W ins ll lh = G x W ins ll lh := by
  funext i
  obtain ⟨n, c, h, w, rfl⟩ : ∃ (n : Fin 8) (c : Fin 96) (h : Fin 256) (w : Fin 256), i = ix4 n c h w :=
    ⟨i 0, i 1, i 2, i 3, eq_ix4 i⟩
  rw [G_apply]
  unfold refOut mixAt
  rw [addf_apply, mulf_apply, subf_apply, mulf_apply, mulf_apply]
  rw [convTab_apply, gateP1_apply, gateMean_apply, lowW_apply, highW_apply]

end Cert.ReferenceIdeal.RefValue

end
-- ==== Proof.RefRun.lean ====
/-
  The reference program's run.

  The program's host operations are listed as one straight line, the outlined padding function's eight operations
  written at the place of its call, and the program is shown to be that line. The line is cut into eight stretches,
  one per stage of the result's composition; each stretch leaves its result buffer at its stage of the buffers it
  reads and leaves the buffers it does not write alone. Put end to end: every execution ends with the result buffer
  at the composition of the stages of the five arguments' launch contents, the arguments unchanged.
-/
import proofs.«175004_j75453985457454_2_alg».proof.Proof.RefStages
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The straight line -/

/-- The 67 host operations in program order: the main function's own fifty-nine, and in the place of its one call
    the padding function's eight (two one-column slices, a reversal of a one-column array, a concatenation, two more
    slices, a second reversal, a second concatenation). -/
abbrev ops : List (HloOp τ sig (Elt F)) :=
  [ nullary main_cst (constant S_ .f32 0x00000000#32),
    binary main_arg0 main_cst main_v0 ((fun x v => Host.reduceAdd x v reducesTo_S8x96x256x256_S8x96_d2_3 h_S_) : (⟨S8x96x256x256, .f32⟩ : BufTy).Contents (Elt F) → (⟨S_, .f32⟩ : BufTy).Contents (Elt F) → (⟨S8x96, .f32⟩ : BufTy).Contents (Elt F)),
    nullary main_cst_0 (constant S_ .f32 0x47800000#32),
    unary main_cst_0 main_v1 (broadcastInDim S8x96 ![] bcast_S_S8x96 : (⟨S_, .f32⟩ : BufTy).Contents (Elt F) → (⟨S8x96, .f32⟩ : BufTy).Contents (Elt F)),
    binary main_v0 main_v1 main_v2 (Host.divf : (⟨S8x96, .f32⟩ : BufTy).Contents (Elt F) → (⟨S8x96, .f32⟩ : BufTy).Contents (Elt F) → (⟨S8x96, .f32⟩ : BufTy).Contents (Elt F)),
    unary main_arg1 main_v3 ((transpose S96x6 [1, 0] · transposes_S6x96_S96x6_1_0) : (⟨S6x96, .f32⟩ : BufTy).Contents (Elt F) → (⟨S96x6, .f32⟩ : BufTy).Contents (Elt F)),
    binary main_v2 main_v3 main_v4 ((fun l r => Host.dotGeneral dot_S8x96_S96x6_S8x6_1_0_0_1_n_n none l r) : (⟨S8x96, .f32⟩ : BufTy).Contents (Elt F) → (⟨S96x6, .f32⟩ : BufTy).Contents (Elt F) → (⟨S8x6, .f32⟩ : BufTy).Contents (Elt F)),
    unary main_v4 main_v5 (Host.tanh : (⟨S8x6, .f32⟩ : BufTy).Contents (Elt F) → (⟨S8x6, .f32⟩ : BufTy).Contents (Elt F)),
    reshape main_v5 main_v6 rfl shapeCasts_S8x6_S8x2x3,
    nullary main_c (constantI S_ 32 0#32),
    TRef.unary (.of main_arg0 : TRef sig ⟨S8x96x256x256, .f32⟩) (.of main_call0_v0 : TRef sig ⟨S8x96x256x1, .f32⟩) (extractStridedSlice S8x96x256x1 ![0, 0, 0, 0] · slices_S8x96x256x256_S8x96x256x1_0_0_0_0),
    TRef.unary (.of main_arg0 : TRef sig ⟨S8x96x256x256, .f32⟩) (.of main_call0_v1 : TRef sig ⟨S8x96x256x1, .f32⟩) (extractStridedSlice S8x96x256x1 ![0, 0, 0, 1] · slices_S8x96x256x256_S8x96x256x1_0_0_0_1),
    TRef.unary (.of main_call0_v1 : TRef sig ⟨S8x96x256x1, .f32⟩) (.of main_call0_v2 : TRef sig ⟨S8x96x256x1, .f32⟩) (Host.reverse [3]),
    TRef.binary (.of main_call0_v2 : TRef sig ⟨S8x96x256x1, .f32⟩) (.of main_arg0 : TRef sig ⟨S8x96x256x256, .f32⟩) (.of main_call0_v3 : TRef sig ⟨S8x96x256x257, .f32⟩) (fun a b => concatenate S8x96x256x257 3 [⟨S8x96x256x1, a⟩, ⟨S8x96x256x256, b⟩] concatenates_S8x96x256x1_S8x96x256x256_S8x96x256x257_d3),
    TRef.unary (.of main_call0_v3 : TRef sig ⟨S8x96x256x257, .f32⟩) (.of main_call0_v4 : TRef sig ⟨S8x96x256x1, .f32⟩) (extractStridedSlice S8x96x256x1 ![0, 0, 0, 256] · slices_S8x96x256x257_S8x96x256x1_0_0_0_256),
    TRef.unary (.of main_call0_v3 : TRef sig ⟨S8x96x256x257, .f32⟩) (.of main_call0_v5 : TRef sig ⟨S8x96x256x1, .f32⟩) (extractStridedSlice S8x96x256x1 ![0, 0, 0, 255] · slices_S8x96x256x257_S8x96x256x1_0_0_0_255),
    TRef.unary (.of main_call0_v5 : TRef sig ⟨S8x96x256x1, .f32⟩) (.of main_call0_v6 : TRef sig ⟨S8x96x256x1, .f32⟩) (Host.reverse [3]),
    TRef.binary (.of main_call0_v3 : TRef sig ⟨S8x96x256x257, .f32⟩) (.of main_call0_v6 : TRef sig ⟨S8x96x256x1, .f32⟩) (.of main_v7 : TRef sig ⟨S8x96x256x258, .f32⟩) (fun a b => concatenate S8x96x256x258 3 [⟨S8x96x256x257, a⟩, ⟨S8x96x256x1, b⟩] concatenates_S8x96x256x257_S8x96x256x1_S8x96x256x258_d3),
    reshape main_v7 main_v8 rfl shapeCasts_S8x96x256x258_S8x2x48x256x258,
    unary main_v8 main_v9 ((extractStridedSlice S8x2x48x256x256 ![0, 0, 0, 0, 0] · slices_S8x2x48x256x258_S8x2x48x256x256_0_0_0_0_0) : (⟨S8x2x48x256x258, .f32⟩ : BufTy).Contents (Elt F) → (⟨S8x2x48x256x256, .f32⟩ : BufTy).Contents (Elt F)),
    unary main_v6 main_v10 ((extractStridedSlice S8x2x1 ![0, 0, 0] · slices_S8x2x3_S8x2x1_0_0_0) : (⟨S8x2x3, .f32⟩ : BufTy).Contents (Elt F) → (⟨S8x2x1, .f32⟩ : BufTy).Contents (Elt F)),
    reshape main_v10 main_v11 rfl shapeCasts_S8x2x1_S8x2,
    unary main_v11 main_v12 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v12 main_v13 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v9 main_v13 main_v14 (mulf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v15 ((extractStridedSlice S8x2x48x256x256 ![0, 0, 0, 0, 1] · slices_S8x2x48x256x258_S8x2x48x256x256_0_0_0_0_1) : (⟨S8x2x48x256x258, .f32⟩ : BufTy).Contents (Elt F) → (⟨S8x2x48x256x256, .f32⟩ : BufTy).Contents (Elt F)),
    unary main_v6 main_v16 ((extractStridedSlice S8x2x1 ![0, 0, 1] · slices_S8x2x3_S8x2x1_0_0_1) : (⟨S8x2x3, .f32⟩ : BufTy).Contents (Elt F) → (⟨S8x2x1, .f32⟩ : BufTy).Contents (Elt F)),
    reshape main_v16 main_v17 rfl shapeCasts_S8x2x1_S8x2,
    unary main_v17 main_v18 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v18 main_v19 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v15 main_v19 main_v20 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v14 main_v20 main_v21 (addf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v22 ((extractStridedSlice S8x2x48x256x256 ![0, 0, 0, 0, 2] · slices_S8x2x48x256x258_S8x2x48x256x256_0_0_0_0_2) : (⟨S8x2x48x256x258, .f32⟩ : BufTy).Contents (Elt F) → (⟨S8x2x48x256x256, .f32⟩ : BufTy).Contents (Elt F)),
    unary main_v6 main_v23 ((extractStridedSlice S8x2x1 ![0, 0, 2] · slices_S8x2x3_S8x2x1_0_0_2) : (⟨S8x2x3, .f32⟩ : BufTy).Contents (Elt F) → (⟨S8x2x1, .f32⟩ : BufTy).Contents (Elt F)),
    reshape main_v23 main_v24 rfl shapeCasts_S8x2x1_S8x2,
    unary main_v24 main_v25 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v25 main_v26 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v22 main_v26 main_v27 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v21 main_v27 main_v28 (addf : (⟨S8x2x48x256x256, .f32⟩ : BufTy).Contents (Elt F) → (⟨S8x2x48x256x256, .f32⟩ : BufTy).Contents (Elt F) → (⟨S8x2x48x256x256, .f32⟩ : BufTy).Contents (Elt F)),
    reshape main_v28 main_v29 rfl shapeCasts_S8x2x48x256x256_S8x96x256x256,
    nullary main_cst_1 (constant S_ .f32 0x00000000#32),
    binary main_arg0 main_cst_1 main_v30 ((fun x v => Host.reduceAdd x v reducesTo_S8x96x256x256_S8x96x256_d3 h_S_) : (⟨S8x96x256x256, .f32⟩ : BufTy).Contents (Elt F) → (⟨S_, .f32⟩ : BufTy).Contents (Elt F) → (⟨S8x96x256, .f32⟩ : BufTy).Contents (Elt F)),
    unary main_v30 main_v31 (broadcastInDim S8x96x256x1 ![0, 1, 2] bcast_S8x96x256_S8x96x256x1_0_1_2 : (⟨S8x96x256, .f32⟩ : BufTy).Contents (Elt F) → (⟨S8x96x256x1, .f32⟩ : BufTy).Contents (Elt F)),
    nullary main_cst_2 (constant S_ .f32 0x43800000#32),
    unary main_cst_2 main_v32 (broadcastInDim S8x96x256x1 ![] bcast_S_S8x96x256x1 : (⟨S_, .f32⟩ : BufTy).Contents (Elt F) → (⟨S8x96x256x1, .f32⟩ : BufTy).Contents (Elt F)),
    binary main_v31 main_v32 main_v33 (Host.divf : (⟨S8x96x256x1, .f32⟩ : BufTy).Contents (Elt F) → (⟨S8x96x256x1, .f32⟩ : BufTy).Contents (Elt F) → (⟨S8x96x256x1, .f32⟩ : BufTy).Contents (Elt F)),
    nullary main_cst_3 (constant S_ .f32 0x3F800000#32),
    unary main_cst_3 main_v34 (broadcastInDim S96x1x1 ![] bcast_S_S96x1x1 : (⟨S_, .f32⟩ : BufTy).Contents (Elt F) → (⟨S96x1x1, .f32⟩ : BufTy).Contents (Elt F)),
    binary main_arg2 main_v34 main_v35 (addf : (⟨S96x1x1, .f32⟩ : BufTy).Contents (Elt F) → (⟨S96x1x1, .f32⟩ : BufTy).Contents (Elt F) → (⟨S96x1x1, .f32⟩ : BufTy).Contents (Elt F)),
    unary main_v35 main_v36 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v36 main_v37 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v29 main_v37 main_v38 (mulf : (⟨S8x96x256x256, .f32⟩ : BufTy).Contents (Elt F) → (⟨S8x96x256x256, .f32⟩ : BufTy).Contents (Elt F) → (⟨S8x96x256x256, .f32⟩ : BufTy).Contents (Elt F)),
    unary main_arg2 main_v39 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v39 main_v40 (broadcastInDim S8x96x256x1 ![0, 1, 2, 3] bcast_S1x96x1x1_S8x96x256x1_0_1_2_3 : (⟨S1x96x1x1, .f32⟩ : BufTy).Contents (Elt F) → (⟨S8x96x256x1, .f32⟩ : BufTy).Contents (Elt F)),
    binary main_v40 main_v33 main_v41 (mulf : (⟨S8x96x256x1, .f32⟩ : BufTy).Contents (Elt F) → (⟨S8x96x256x1, .f32⟩ : BufTy).Contents (Elt F) → (⟨S8x96x256x1, .f32⟩ : BufTy).Contents (Elt F)),
    unary main_v41 main_v42 (broadcastInDim S8x96x256x256 ![0, 1, 2, 3] bcast_S8x96x256x1_S8x96x256x256_0_1_2_3 : (⟨S8x96x256x1, .f32⟩ : BufTy).Contents (Elt F) → (⟨S8x96x256x256, .f32⟩ : BufTy).Contents (Elt F)),
    binary main_v38 main_v42 main_v43 (subf : (⟨S8x96x256x256, .f32⟩ : BufTy).Contents (Elt F) → (⟨S8x96x256x256, .f32⟩ : BufTy).Contents (Elt F) → (⟨S8x96x256x256, .f32⟩ : BufTy).Contents (Elt F)),
    unary main_arg3 main_v44 (broadcastInDim S1x96x1x1 ![1] bcast_S96_S1x96x1x1_1 : (⟨S96, .f32⟩ : BufTy).Contents (Elt F) → (⟨S1x96x1x1, .f32⟩ : BufTy).Contents (Elt F)),
    unary main_v44 main_v45 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v43 main_v45 main_v46 (mulf : (⟨S8x96x256x256, .f32⟩ : BufTy).Contents (Elt F) → (⟨S8x96x256x256, .f32⟩ : BufTy).Contents (Elt F) → (⟨S8x96x256x256, .f32⟩ : BufTy).Contents (Elt F)),
    unary main_arg4 main_v47 (broadcastInDim S1x96x1x1 ![1] bcast_S96_S1x96x1x1_1 : (⟨S96, .f32⟩ : BufTy).Contents (Elt F) → (⟨S1x96x1x1, .f32⟩ : BufTy).Contents (Elt F)),
    nullary main_cst_4 (constant S_ .f32 0x3F800000#32),
    unary main_cst_4 main_v48 (broadcastInDim S1x96x1x1 ![] bcast_S_S1x96x1x1 : (⟨S_, .f32⟩ : BufTy).Contents (Elt F) → (⟨S1x96x1x1, .f32⟩ : BufTy).Contents (Elt F)),
    binary main_v47 main_v48 main_v49 (addf : (⟨S1x96x1x1, .f32⟩ : BufTy).Contents (Elt F) → (⟨S1x96x1x1, .f32⟩ : BufTy).Contents (Elt F) → (⟨S1x96x1x1, .f32⟩ : BufTy).Contents (Elt F)),
    unary main_v49 main_v50 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_arg0 main_v50 main_v51 (mulf : (⟨S8x96x256x256, .f32⟩ : BufTy).Contents (Elt F) → (⟨S8x96x256x256, .f32⟩ : BufTy).Contents (Elt F) → (⟨S8x96x256x256, .f32⟩ : BufTy).Contents (Elt F)),
    binary main_v46 main_v51 main_v52 (addf : (⟨S8x96x256x256, .f32⟩ : BufTy).Contents (Elt F) → (⟨S8x96x256x256, .f32⟩ : BufTy).Contents (Elt F) → (⟨S8x96x256x256, .f32⟩ : BufTy).Contents (Elt F)) ]

set_option maxRecDepth 4096 in
/-- The program is that straight line: the two functions' bodies unfolded at their calls and sequencing
    reassociated. -/
theorem main_eq (c : Dev nD) : main (F := F) c = seq ops := by
  simp only [main, main_part0, main_part1, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., reshape_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., reshape_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub ..⟩

/-! ## The stretches -/

/-- Stretch 1 of the program: operations 1 to 9. -/
abbrev seg1 : List (HloOp τ sig (Elt F)) :=
  [ nullary main_cst (constant S_ .f32 0x00000000#32),
    binary main_arg0 main_cst main_v0 ((fun x v => Host.reduceAdd x v reducesTo_S8x96x256x256_S8x96_d2_3 h_S_) : (⟨S8x96x256x256, .f32⟩ : BufTy).Contents (Elt F) → (⟨S_, .f32⟩ : BufTy).Contents (Elt F) → (⟨S8x96, .f32⟩ : BufTy).Contents (Elt F)),
    nullary main_cst_0 (constant S_ .f32 0x47800000#32),
    unary main_cst_0 main_v1 (broadcastInDim S8x96 ![] bcast_S_S8x96 : (⟨S_, .f32⟩ : BufTy).Contents (Elt F) → (⟨S8x96, .f32⟩ : BufTy).Contents (Elt F)),
    binary main_v0 main_v1 main_v2 (Host.divf : (⟨S8x96, .f32⟩ : BufTy).Contents (Elt F) → (⟨S8x96, .f32⟩ : BufTy).Contents (Elt F) → (⟨S8x96, .f32⟩ : BufTy).Contents (Elt F)),
    unary main_arg1 main_v3 ((transpose S96x6 [1, 0] · transposes_S6x96_S96x6_1_0) : (⟨S6x96, .f32⟩ : BufTy).Contents (Elt F) → (⟨S96x6, .f32⟩ : BufTy).Contents (Elt F)),
    binary main_v2 main_v3 main_v4 ((fun l r => Host.dotGeneral dot_S8x96_S96x6_S8x6_1_0_0_1_n_n none l r) : (⟨S8x96, .f32⟩ : BufTy).Contents (Elt F) → (⟨S96x6, .f32⟩ : BufTy).Contents (Elt F) → (⟨S8x6, .f32⟩ : BufTy).Contents (Elt F)),
    unary main_v4 main_v5 (Host.tanh : (⟨S8x6, .f32⟩ : BufTy).Contents (Elt F) → (⟨S8x6, .f32⟩ : BufTy).Contents (Elt F)),
    reshape main_v5 main_v6 rfl shapeCasts_S8x6_S8x2x3 ]

/-- Stretch 2 of the program: operations 10 to 19. -/
abbrev seg2 : List (HloOp τ sig (Elt F)) :=
  [ nullary main_c (constantI S_ 32 0#32),
    TRef.unary (.of main_arg0 : TRef sig ⟨S8x96x256x256, .f32⟩) (.of main_call0_v0 : TRef sig ⟨S8x96x256x1, .f32⟩) (extractStridedSlice S8x96x256x1 ![0, 0, 0, 0] · slices_S8x96x256x256_S8x96x256x1_0_0_0_0),
    TRef.unary (.of main_arg0 : TRef sig ⟨S8x96x256x256, .f32⟩) (.of main_call0_v1 : TRef sig ⟨S8x96x256x1, .f32⟩) (extractStridedSlice S8x96x256x1 ![0, 0, 0, 1] · slices_S8x96x256x256_S8x96x256x1_0_0_0_1),
    TRef.unary (.of main_call0_v1 : TRef sig ⟨S8x96x256x1, .f32⟩) (.of main_call0_v2 : TRef sig ⟨S8x96x256x1, .f32⟩) (Host.reverse [3]),
    TRef.binary (.of main_call0_v2 : TRef sig ⟨S8x96x256x1, .f32⟩) (.of main_arg0 : TRef sig ⟨S8x96x256x256, .f32⟩) (.of main_call0_v3 : TRef sig ⟨S8x96x256x257, .f32⟩) (fun a b => concatenate S8x96x256x257 3 [⟨S8x96x256x1, a⟩, ⟨S8x96x256x256, b⟩] concatenates_S8x96x256x1_S8x96x256x256_S8x96x256x257_d3),
    TRef.unary (.of main_call0_v3 : TRef sig ⟨S8x96x256x257, .f32⟩) (.of main_call0_v4 : TRef sig ⟨S8x96x256x1, .f32⟩) (extractStridedSlice S8x96x256x1 ![0, 0, 0, 256] · slices_S8x96x256x257_S8x96x256x1_0_0_0_256),
    TRef.unary (.of main_call0_v3 : TRef sig ⟨S8x96x256x257, .f32⟩) (.of main_call0_v5 : TRef sig ⟨S8x96x256x1, .f32⟩) (extractStridedSlice S8x96x256x1 ![0, 0, 0, 255] · slices_S8x96x256x257_S8x96x256x1_0_0_0_255),
    TRef.unary (.of main_call0_v5 : TRef sig ⟨S8x96x256x1, .f32⟩) (.of main_call0_v6 : TRef sig ⟨S8x96x256x1, .f32⟩) (Host.reverse [3]),
    TRef.binary (.of main_call0_v3 : TRef sig ⟨S8x96x256x257, .f32⟩) (.of main_call0_v6 : TRef sig ⟨S8x96x256x1, .f32⟩) (.of main_v7 : TRef sig ⟨S8x96x256x258, .f32⟩) (fun a b => concatenate S8x96x256x258 3 [⟨S8x96x256x257, a⟩, ⟨S8x96x256x1, b⟩] concatenates_S8x96x256x257_S8x96x256x1_S8x96x256x258_d3),
    reshape main_v7 main_v8 rfl shapeCasts_S8x96x256x258_S8x2x48x256x258 ]

/-- Stretch 3 of the program: operations 20 to 40. -/
abbrev seg3 : List (HloOp τ sig (Elt F)) :=
  [ unary main_v8 main_v9 ((extractStridedSlice S8x2x48x256x256 ![0, 0, 0, 0, 0] · slices_S8x2x48x256x258_S8x2x48x256x256_0_0_0_0_0) : (⟨S8x2x48x256x258, .f32⟩ : BufTy).Contents (Elt F) → (⟨S8x2x48x256x256, .f32⟩ : BufTy).Contents (Elt F)),
    unary main_v6 main_v10 ((extractStridedSlice S8x2x1 ![0, 0, 0] · slices_S8x2x3_S8x2x1_0_0_0) : (⟨S8x2x3, .f32⟩ : BufTy).Contents (Elt F) → (⟨S8x2x1, .f32⟩ : BufTy).Contents (Elt F)),
    reshape main_v10 main_v11 rfl shapeCasts_S8x2x1_S8x2,
    unary main_v11 main_v12 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v12 main_v13 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v9 main_v13 main_v14 (mulf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v15 ((extractStridedSlice S8x2x48x256x256 ![0, 0, 0, 0, 1] · slices_S8x2x48x256x258_S8x2x48x256x256_0_0_0_0_1) : (⟨S8x2x48x256x258, .f32⟩ : BufTy).Contents (Elt F) → (⟨S8x2x48x256x256, .f32⟩ : BufTy).Contents (Elt F)),
    unary main_v6 main_v16 ((extractStridedSlice S8x2x1 ![0, 0, 1] · slices_S8x2x3_S8x2x1_0_0_1) : (⟨S8x2x3, .f32⟩ : BufTy).Contents (Elt F) → (⟨S8x2x1, .f32⟩ : BufTy).Contents (Elt F)),
    reshape main_v16 main_v17 rfl shapeCasts_S8x2x1_S8x2,
    unary main_v17 main_v18 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v18 main_v19 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v15 main_v19 main_v20 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v14 main_v20 main_v21 (addf : (⟨S8x2x48x256x256, .f32⟩ : BufTy).Contents (Elt F) → (⟨S8x2x48x256x256, .f32⟩ : BufTy).Contents (Elt F) → (⟨S8x2x48x256x256, .f32⟩ : BufTy).Contents (Elt F)),
    unary main_v8 main_v22 ((extractStridedSlice S8x2x48x256x256 ![0, 0, 0, 0, 2] · slices_S8x2x48x256x258_S8x2x48x256x256_0_0_0_0_2) : (⟨S8x2x48x256x258, .f32⟩ : BufTy).Contents (Elt F) → (⟨S8x2x48x256x256, .f32⟩ : BufTy).Contents (Elt F)),
    unary main_v6 main_v23 ((extractStridedSlice S8x2x1 ![0, 0, 2] · slices_S8x2x3_S8x2x1_0_0_2) : (⟨S8x2x3, .f32⟩ : BufTy).Contents (Elt F) → (⟨S8x2x1, .f32⟩ : BufTy).Contents (Elt F)),
    reshape main_v23 main_v24 rfl shapeCasts_S8x2x1_S8x2,
    unary main_v24 main_v25 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v25 main_v26 (broadcastInDim S8x2x48x256x256 ![0, 1, 2, 3, 4] bcast_S8x2x1x1x1_S8x2x48x256x256_0_1_2_3_4 : (⟨S8x2x1x1x1, .f32⟩ : BufTy).Contents (Elt F) → (⟨S8x2x48x256x256, .f32⟩ : BufTy).Contents (Elt F)),
    binary main_v22 main_v26 main_v27 (mulf : (⟨S8x2x48x256x256, .f32⟩ : BufTy).Contents (Elt F) → (⟨S8x2x48x256x256, .f32⟩ : BufTy).Contents (Elt F) → (⟨S8x2x48x256x256, .f32⟩ : BufTy).Contents (Elt F)),
    binary main_v21 main_v27 main_v28 (addf : (⟨S8x2x48x256x256, .f32⟩ : BufTy).Contents (Elt F) → (⟨S8x2x48x256x256, .f32⟩ : BufTy).Contents (Elt F) → (⟨S8x2x48x256x256, .f32⟩ : BufTy).Contents (Elt F)),
    reshape main_v28 main_v29 rfl shapeCasts_S8x2x48x256x256_S8x96x256x256 ]

/-- Stretch 4 of the program: operations 41 to 46. -/
abbrev seg4 : List (HloOp τ sig (Elt F)) :=
  [ nullary main_cst_1 (constant S_ .f32 0x00000000#32),
    binary main_arg0 main_cst_1 main_v30 ((fun x v => Host.reduceAdd x v reducesTo_S8x96x256x256_S8x96x256_d3 h_S_) : (⟨S8x96x256x256, .f32⟩ : BufTy).Contents (Elt F) → (⟨S_, .f32⟩ : BufTy).Contents (Elt F) → (⟨S8x96x256, .f32⟩ : BufTy).Contents (Elt F)),
    unary main_v30 main_v31 (broadcastInDim S8x96x256x1 ![0, 1, 2] bcast_S8x96x256_S8x96x256x1_0_1_2 : (⟨S8x96x256, .f32⟩ : BufTy).Contents (Elt F) → (⟨S8x96x256x1, .f32⟩ : BufTy).Contents (Elt F)),
    nullary main_cst_2 (constant S_ .f32 0x43800000#32),
    unary main_cst_2 main_v32 (broadcastInDim S8x96x256x1 ![] bcast_S_S8x96x256x1 : (⟨S_, .f32⟩ : BufTy).Contents (Elt F) → (⟨S8x96x256x1, .f32⟩ : BufTy).Contents (Elt F)),
    binary main_v31 main_v32 main_v33 (Host.divf : (⟨S8x96x256x1, .f32⟩ : BufTy).Contents (Elt F) → (⟨S8x96x256x1, .f32⟩ : BufTy).Contents (Elt F) → (⟨S8x96x256x1, .f32⟩ : BufTy).Contents (Elt F)) ]

/-- Stretch 5 of the program: operations 47 to 52. -/
abbrev seg5 : List (HloOp τ sig (Elt F)) :=
  [ nullary main_cst_3 (constant S_ .f32 0x3F800000#32),
    unary main_cst_3 main_v34 (broadcastInDim S96x1x1 ![] bcast_S_S96x1x1 : (⟨S_, .f32⟩ : BufTy).Contents (Elt F) → (⟨S96x1x1, .f32⟩ : BufTy).Contents (Elt F)),
    binary main_arg2 main_v34 main_v35 (addf : (⟨S96x1x1, .f32⟩ : BufTy).Contents (Elt F) → (⟨S96x1x1, .f32⟩ : BufTy).Contents (Elt F) → (⟨S96x1x1, .f32⟩ : BufTy).Contents (Elt F)),
    unary main_v35 main_v36 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v36 main_v37 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v29 main_v37 main_v38 (mulf : (⟨S8x96x256x256, .f32⟩ : BufTy).Contents (Elt F) → (⟨S8x96x256x256, .f32⟩ : BufTy).Contents (Elt F) → (⟨S8x96x256x256, .f32⟩ : BufTy).Contents (Elt F)) ]

/-- Stretch 6 of the program: operations 53 to 57. -/
abbrev seg6 : List (HloOp τ sig (Elt F)) :=
  [ unary main_arg2 main_v39 (broadcastInDim S1x96x1x1 ![1, 2, 3] bcast_S96x1x1_S1x96x1x1_1_2_3 : (⟨S96x1x1, .f32⟩ : BufTy).Contents (Elt F) → (⟨S1x96x1x1, .f32⟩ : BufTy).Contents (Elt F)),
    unary main_v39 main_v40 (broadcastInDim S8x96x256x1 ![0, 1, 2, 3] bcast_S1x96x1x1_S8x96x256x1_0_1_2_3 : (⟨S1x96x1x1, .f32⟩ : BufTy).Contents (Elt F) → (⟨S8x96x256x1, .f32⟩ : BufTy).Contents (Elt F)),
    binary main_v40 main_v33 main_v41 (mulf : (⟨S8x96x256x1, .f32⟩ : BufTy).Contents (Elt F) → (⟨S8x96x256x1, .f32⟩ : BufTy).Contents (Elt F) → (⟨S8x96x256x1, .f32⟩ : BufTy).Contents (Elt F)),
    unary main_v41 main_v42 (broadcastInDim S8x96x256x256 ![0, 1, 2, 3] bcast_S8x96x256x1_S8x96x256x256_0_1_2_3 : (⟨S8x96x256x1, .f32⟩ : BufTy).Contents (Elt F) → (⟨S8x96x256x256, .f32⟩ : BufTy).Contents (Elt F)),
    binary main_v38 main_v42 main_v43 (subf : (⟨S8x96x256x256, .f32⟩ : BufTy).Contents (Elt F) → (⟨S8x96x256x256, .f32⟩ : BufTy).Contents (Elt F) → (⟨S8x96x256x256, .f32⟩ : BufTy).Contents (Elt F)) ]

/-- Stretch 7 of the program: operations 58 to 60. -/
abbrev seg7 : List (HloOp τ sig (Elt F)) :=
  [ unary main_arg3 main_v44 (broadcastInDim S1x96x1x1 ![1] bcast_S96_S1x96x1x1_1 : (⟨S96, .f32⟩ : BufTy).Contents (Elt F) → (⟨S1x96x1x1, .f32⟩ : BufTy).Contents (Elt F)),
    unary main_v44 main_v45 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_v43 main_v45 main_v46 (mulf : (⟨S8x96x256x256, .f32⟩ : BufTy).Contents (Elt F) → (⟨S8x96x256x256, .f32⟩ : BufTy).Contents (Elt F) → (⟨S8x96x256x256, .f32⟩ : BufTy).Contents (Elt F)) ]

/-- Stretch 8 of the program: operations 61 to 67. -/
abbrev seg8 : List (HloOp τ sig (Elt F)) :=
  [ unary main_arg4 main_v47 (broadcastInDim S1x96x1x1 ![1] bcast_S96_S1x96x1x1_1 : (⟨S96, .f32⟩ : BufTy).Contents (Elt F) → (⟨S1x96x1x1, .f32⟩ : BufTy).Contents (Elt F)),
    nullary main_cst_4 (constant S_ .f32 0x3F800000#32),
    unary main_cst_4 main_v48 (broadcastInDim S1x96x1x1 ![] bcast_S_S1x96x1x1 : (⟨S_, .f32⟩ : BufTy).Contents (Elt F) → (⟨S1x96x1x1, .f32⟩ : BufTy).Contents (Elt F)),
    binary main_v47 main_v48 main_v49 (addf : (⟨S1x96x1x1, .f32⟩ : BufTy).Contents (Elt F) → (⟨S1x96x1x1, .f32⟩ : BufTy).Contents (Elt F) → (⟨S1x96x1x1, .f32⟩ : BufTy).Contents (Elt F)),
    unary main_v49 main_v50 (broadcastInDim S8x96x256x256 ![0, 1, 2, 3] bcast_S1x96x1x1_S8x96x256x256_0_1_2_3 : (⟨S1x96x1x1, .f32⟩ : BufTy).Contents (Elt F) → (⟨S8x96x256x256, .f32⟩ : BufTy).Contents (Elt F)),
    binary main_arg0 main_v50 main_v51 (mulf : (⟨S8x96x256x256, .f32⟩ : BufTy).Contents (Elt F) → (⟨S8x96x256x256, .f32⟩ : BufTy).Contents (Elt F) → (⟨S8x96x256x256, .f32⟩ : BufTy).Contents (Elt F)),
    binary main_v46 main_v51 main_v52 (addf : (⟨S8x96x256x256, .f32⟩ : BufTy).Contents (Elt F) → (⟨S8x96x256x256, .f32⟩ : BufTy).Contents (Elt F) → (⟨S8x96x256x256, .f32⟩ : BufTy).Contents (Elt F)) ]

/-- The line is the eight stretches end to end. -/
theorem ops_split : (ops : List (HloOp τ sig (Elt F))) = seg1 ++ (seg2 ++ (seg3 ++ (seg4 ++ (seg5 ++ (seg6 ++ (seg7 ++ seg8)))))) := rfl

/-- Stretch 2 with the padding function's operations written over the plain references: the same operations. -/
abbrev seg2p : List (HloOp τ sig (Elt F)) :=
  [ nullary main_c (constantI S_ 32 0#32),
    unary main_arg0 main_call0_v0 ((extractStridedSlice S8x96x256x1 ![0, 0, 0, 0] · slices_S8x96x256x256_S8x96x256x1_0_0_0_0) : (⟨S8x96x256x256, .f32⟩ : BufTy).Contents (Elt F) → (⟨S8x96x256x1, .f32⟩ : BufTy).Contents (Elt F)),
    unary main_arg0 main_call0_v1 ((extractStridedSlice S8x96x256x1 ![0, 0, 0, 1] · slices_S8x96x256x256_S8x96x256x1_0_0_0_1) : (⟨S8x96x256x256, .f32⟩ : BufTy).Contents (Elt F) → (⟨S8x96x256x1, .f32⟩ : BufTy).Contents (Elt F)),
    unary main_call0_v1 main_call0_v2 (Host.reverse [3] : (⟨S8x96x256x1, .f32⟩ : BufTy).Contents (Elt F) → (⟨S8x96x256x1, .f32⟩ : BufTy).Contents (Elt F)),
    binary main_call0_v2 main_arg0 main_call0_v3 ((fun a b => concatenate S8x96x256x257 3 [⟨S8x96x256x1, a⟩, ⟨S8x96x256x256, b⟩] concatenates_S8x96x256x1_S8x96x256x256_S8x96x256x257_d3) : (⟨S8x96x256x1, .f32⟩ : BufTy).Contents (Elt F) → (⟨S8x96x256x256, .f32⟩ : BufTy).Contents (Elt F) → (⟨S8x96x256x257, .f32⟩ : BufTy).Contents (Elt F)),
    unary main_call0_v3 main_call0_v4 ((extractStridedSlice S8x96x256x1 ![0, 0, 0, 256] · slices_S8x96x256x257_S8x96x256x1_0_0_0_256) : (⟨S8x96x256x257, .f32⟩ : BufTy).Contents (Elt F) → (⟨S8x96x256x1, .f32⟩ : BufTy).Contents (Elt F)),
    unary main_call0_v3 main_call0_v5 ((extractStridedSlice S8x96x256x1 ![0, 0, 0, 255] · slices_S8x96x256x257_S8x96x256x1_0_0_0_255) : (⟨S8x96x256x257, .f32⟩ : BufTy).Contents (Elt F) → (⟨S8x96x256x1, .f32⟩ : BufTy).Contents (Elt F)),
    unary main_call0_v5 main_call0_v6 (Host.reverse [3] : (⟨S8x96x256x1, .f32⟩ : BufTy).Contents (Elt F) → (⟨S8x96x256x1, .f32⟩ : BufTy).Contents (Elt F)),
    binary main_call0_v3 main_call0_v6 main_v7 ((fun a b => concatenate S8x96x256x258 3 [⟨S8x96x256x257, a⟩, ⟨S8x96x256x1, b⟩] concatenates_S8x96x256x257_S8x96x256x1_S8x96x256x258_d3) : (⟨S8x96x256x257, .f32⟩ : BufTy).Contents (Elt F) → (⟨S8x96x256x1, .f32⟩ : BufTy).Contents (Elt F) → (⟨S8x96x256x258, .f32⟩ : BufTy).Contents (Elt F)),
    reshape main_v7 main_v8 rfl shapeCasts_S8x96x256x258_S8x2x48x256x258 ]

/-- The typed spelling of the padding function's operations is the plain one: at these literal references the
    transport of contents along the references' types is the identity. -/
theorem seg2_eq : (seg2 (F := F)) = seg2p := by chain_rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Two stages stated over the buffers a stretch reads -/

/-- The three-tap convolution of a grouped padded array with a tap table. -/
def convOf (p : FVec F S8x2x48x256x258 .f32) (t : FVec F S8x2x3 .f32) : FVec F S8x96x256x256 .f32 :=
  shapeCast S8x96x256x256
    (addf (addf
      (convTerm p t ![0, 0, 0, 0, 0] slices_S8x2x48x256x258_S8x2x48x256x256_0_0_0_0_0 ![0, 0, 0] slices_S8x2x3_S8x2x1_0_0_0)
      (convTerm p t ![0, 0, 0, 0, 1] slices_S8x2x48x256x258_S8x2x48x256x256_0_0_0_0_1 ![0, 0, 1] slices_S8x2x3_S8x2x1_0_0_1))
      (convTerm p t ![0, 0, 0, 0, 2] slices_S8x2x48x256x258_S8x2x48x256x256_0_0_0_0_2 ![0, 0, 2] slices_S8x2x3_S8x2x1_0_0_2))
    shapeCasts_S8x2x48x256x256_S8x96x256x256

/-- The per-channel gate times a table of row means, spread over the columns. -/
def gateMeanOf (r : FVec F S8x96x256x1 .f32) (ins : FVec F S96x1x1 .f32) : FVec F S8x96x256x256 .f32 :=
  broadcastInDim S8x96x256x256 ![0, 1, 2, 3] bcast_S8x96x256x1_S8x96x256x256_0_1_2_3
    (mulf
      (broadcastInDim S8x96x256x1 ![0, 1, 2, 3] bcast_S1x96x1x1_S8x96x256x1_0_1_2_3
        (broadcastInDim S1x96x1x1 ![1, 2, 3] bcast_S96x1x1_S1x96x1x1_1_2_3 ins))
      r)

/-! ## What each stretch writes and what it leaves -/

set_option maxRecDepth 8192 in
theorem seg1_out (V : Valuation τ sig (Elt F)) :
    after (seg1 (F := F)) V (Proc.devRef .tc main_v6) = tapTab (V (Proc.devRef .tc main_arg0)) (V (Proc.devRef .tc main_arg1)) := by
  after_results_simp <;> rfl

set_option maxRecDepth 8192 in
theorem seg2_out (V : Valuation τ sig (Elt F)) :
    after (seg2p (F := F)) V (Proc.devRef .tc main_v8) = padGrouped (V (Proc.devRef .tc main_arg0)) := by
  after_results_simp <;> rfl

set_option maxRecDepth 8192 in
theorem seg3_out (V : Valuation τ sig (Elt F)) :
    after (seg3 (F := F)) V (Proc.devRef .tc main_v29) = convOf (V (Proc.devRef .tc main_v8)) (V (Proc.devRef .tc main_v6)) := by
  after_results_simp <;> rfl

set_option maxRecDepth 8192 in
theorem seg4_out (V : Valuation τ sig (Elt F)) :
    after (seg4 (F := F)) V (Proc.devRef .tc main_v33) = rowMeanTab (V (Proc.devRef .tc main_arg0)) := by
  after_results_simp <;> rfl

set_option maxRecDepth 8192 in
theorem seg5_out (V : Valuation τ sig (Elt F)) :
    after (seg5 (F := F)) V (Proc.devRef .tc main_v38) = mulf (V (Proc.devRef .tc main_v29)) (gateP1 (V (Proc.devRef .tc main_arg2))) := by
  after_results_simp <;> rfl

set_option maxRecDepth 8192 in
theorem seg6_out (V : Valuation τ sig (Elt F)) :
    after (seg6 (F := F)) V (Proc.devRef .tc main_v43) = subf (V (Proc.devRef .tc main_v38)) (gateMeanOf (V (Proc.devRef .tc main_v33)) (V (Proc.devRef .tc main_arg2))) := by
  after_results_simp <;> rfl

set_option maxRecDepth 8192 in
theorem seg7_out (V : Valuation τ sig (Elt F)) :
    after (seg7 (F := F)) V (Proc.devRef .tc main_v46) = mulf (V (Proc.devRef .tc main_v43)) (lowW (V (Proc.devRef .tc main_arg3))) := by
  after_results_simp <;> rfl

set_option maxRecDepth 8192 in
theorem seg8_out (V : Valuation τ sig (Elt F)) :
    after (seg8 (F := F)) V (Proc.devRef .tc main_v52) = addf (V (Proc.devRef .tc main_v46)) (mulf (V (Proc.devRef .tc main_arg0)) (highW (V (Proc.devRef .tc main_arg4)))) := by
  after_results_simp <;> rfl

theorem seg1_keep_arg0 (V : Valuation τ sig (Elt F)) :
    after (seg1 (F := F)) V (Proc.devRef .tc main_arg0) = V (Proc.devRef .tc main_arg0) := by
  after_results_simp
theorem seg1_keep_arg1 (V : Valuation τ sig (Elt F)) :
    after (seg1 (F := F)) V (Proc.devRef .tc main_arg1) = V (Proc.devRef .tc main_arg1) := by
  after_results_simp
theorem seg1_keep_arg2 (V : Valuation τ sig (Elt F)) :
    after (seg1 (F := F)) V (Proc.devRef .tc main_arg2) = V (Proc.devRef .tc main_arg2) := by
  after_results_simp
theorem seg1_keep_arg3 (V : Valuation τ sig (Elt F)) :
    after (seg1 (F := F)) V (Proc.devRef .tc main_arg3) = V (Proc.devRef .tc main_arg3) := by
  after_results_simp
theorem seg1_keep_arg4 (V : Valuation τ sig (Elt F)) :
    after (seg1 (F := F)) V (Proc.devRef .tc main_arg4) = V (Proc.devRef .tc main_arg4) := by
  after_results_simp
theorem seg2_keep_arg0 (V : Valuation τ sig (Elt F)) :
    after (seg2p (F := F)) V (Proc.devRef .tc main_arg0) = V (Proc.devRef .tc main_arg0) := by
  after_results_simp
theorem seg2_keep_arg1 (V : Valuation τ sig (Elt F)) :
    after (seg2p (F := F)) V (Proc.devRef .tc main_arg1) = V (Proc.devRef .tc main_arg1) := by
  after_results_simp
theorem seg2_keep_arg2 (V : Valuation τ sig (Elt F)) :
    after (seg2p (F := F)) V (Proc.devRef .tc main_arg2) = V (Proc.devRef .tc main_arg2) := by
  after_results_simp
theorem seg2_keep_arg3 (V : Valuation τ sig (Elt F)) :
    after (seg2p (F := F)) V (Proc.devRef .tc main_arg3) = V (Proc.devRef .tc main_arg3) := by
  after_results_simp
theorem seg2_keep_arg4 (V : Valuation τ sig (Elt F)) :
    after (seg2p (F := F)) V (Proc.devRef .tc main_arg4) = V (Proc.devRef .tc main_arg4) := by
  after_results_simp
theorem seg2_keep_v6 (V : Valuation τ sig (Elt F)) :
    after (seg2p (F := F)) V (Proc.devRef .tc main_v6) = V (Proc.devRef .tc main_v6) := by
  after_results_simp
theorem seg3_keep_arg0 (V : Valuation τ sig (Elt F)) :
    after (seg3 (F := F)) V (Proc.devRef .tc main_arg0) = V (Proc.devRef .tc main_arg0) := by
  after_results_simp
theorem seg3_keep_arg1 (V : Valuation τ sig (Elt F)) :
    after (seg3 (F := F)) V (Proc.devRef .tc main_arg1) = V (Proc.devRef .tc main_arg1) := by
  after_results_simp
theorem seg3_keep_arg2 (V : Valuation τ sig (Elt F)) :
    after (seg3 (F := F)) V (Proc.devRef .tc main_arg2) = V (Proc.devRef .tc main_arg2) := by
  after_results_simp
theorem seg3_keep_arg3 (V : Valuation τ sig (Elt F)) :
    after (seg3 (F := F)) V (Proc.devRef .tc main_arg3) = V (Proc.devRef .tc main_arg3) := by
  after_results_simp
theorem seg3_keep_arg4 (V : Valuation τ sig (Elt F)) :
    after (seg3 (F := F)) V (Proc.devRef .tc main_arg4) = V (Proc.devRef .tc main_arg4) := by
  after_results_simp
theorem seg4_keep_arg0 (V : Valuation τ sig (Elt F)) :
    after (seg4 (F := F)) V (Proc.devRef .tc main_arg0) = V (Proc.devRef .tc main_arg0) := by
  after_results_simp
theorem seg4_keep_arg1 (V : Valuation τ sig (Elt F)) :
    after (seg4 (F := F)) V (Proc.devRef .tc main_arg1) = V (Proc.devRef .tc main_arg1) := by
  after_results_simp
theorem seg4_keep_arg2 (V : Valuation τ sig (Elt F)) :
    after (seg4 (F := F)) V (Proc.devRef .tc main_arg2) = V (Proc.devRef .tc main_arg2) := by
  after_results_simp
theorem seg4_keep_arg3 (V : Valuation τ sig (Elt F)) :
    after (seg4 (F := F)) V (Proc.devRef .tc main_arg3) = V (Proc.devRef .tc main_arg3) := by
  after_results_simp
theorem seg4_keep_arg4 (V : Valuation τ sig (Elt F)) :
    after (seg4 (F := F)) V (Proc.devRef .tc main_arg4) = V (Proc.devRef .tc main_arg4) := by
  after_results_simp
theorem seg4_keep_v29 (V : Valuation τ sig (Elt F)) :
    after (seg4 (F := F)) V (Proc.devRef .tc main_v29) = V (Proc.devRef .tc main_v29) := by
  after_results_simp
theorem seg5_keep_arg0 (V : Valuation τ sig (Elt F)) :
    after (seg5 (F := F)) V (Proc.devRef .tc main_arg0) = V (Proc.devRef .tc main_arg0) := by
  after_results_simp
theorem seg5_keep_arg1 (V : Valuation τ sig (Elt F)) :
    after (seg5 (F := F)) V (Proc.devRef .tc main_arg1) = V (Proc.devRef .tc main_arg1) := by
  after_results_simp
theorem seg5_keep_arg2 (V : Valuation τ sig (Elt F)) :
    after (seg5 (F := F)) V (Proc.devRef .tc main_arg2) = V (Proc.devRef .tc main_arg2) := by
  after_results_simp
theorem seg5_keep_arg3 (V : Valuation τ sig (Elt F)) :
    after (seg5 (F := F)) V (Proc.devRef .tc main_arg3) = V (Proc.devRef .tc main_arg3) := by
  after_results_simp
theorem seg5_keep_arg4 (V : Valuation τ sig (Elt F)) :
    after (seg5 (F := F)) V (Proc.devRef .tc main_arg4) = V (Proc.devRef .tc main_arg4) := by
  after_results_simp
theorem seg5_keep_v33 (V : Valuation τ sig (Elt F)) :
    after (seg5 (F := F)) V (Proc.devRef .tc main_v33) = V (Proc.devRef .tc main_v33) := by
  after_results_simp
theorem seg6_keep_arg0 (V : Valuation τ sig (Elt F)) :
    after (seg6 (F := F)) V (Proc.devRef .tc main_arg0) = V (Proc.devRef .tc main_arg0) := by
  after_results_simp
theorem seg6_keep_arg1 (V : Valuation τ sig (Elt F)) :
    after (seg6 (F := F)) V (Proc.devRef .tc main_arg1) = V (Proc.devRef .tc main_arg1) := by
  after_results_simp
theorem seg6_keep_arg2 (V : Valuation τ sig (Elt F)) :
    after (seg6 (F := F)) V (Proc.devRef .tc main_arg2) = V (Proc.devRef .tc main_arg2) := by
  after_results_simp
theorem seg6_keep_arg3 (V : Valuation τ sig (Elt F)) :
    after (seg6 (F := F)) V (Proc.devRef .tc main_arg3) = V (Proc.devRef .tc main_arg3) := by
  after_results_simp
theorem seg6_keep_arg4 (V : Valuation τ sig (Elt F)) :
    after (seg6 (F := F)) V (Proc.devRef .tc main_arg4) = V (Proc.devRef .tc main_arg4) := by
  after_results_simp
theorem seg7_keep_arg0 (V : Valuation τ sig (Elt F)) :
    after (seg7 (F := F)) V (Proc.devRef .tc main_arg0) = V (Proc.devRef .tc main_arg0) := by
  after_results_simp
theorem seg7_keep_arg1 (V : Valuation τ sig (Elt F)) :
    after (seg7 (F := F)) V (Proc.devRef .tc main_arg1) = V (Proc.devRef .tc main_arg1) := by
  after_results_simp
theorem seg7_keep_arg2 (V : Valuation τ sig (Elt F)) :
    after (seg7 (F := F)) V (Proc.devRef .tc main_arg2) = V (Proc.devRef .tc main_arg2) := by
  after_results_simp
theorem seg7_keep_arg3 (V : Valuation τ sig (Elt F)) :
    after (seg7 (F := F)) V (Proc.devRef .tc main_arg3) = V (Proc.devRef .tc main_arg3) := by
  after_results_simp
theorem seg7_keep_arg4 (V : Valuation τ sig (Elt F)) :
    after (seg7 (F := F)) V (Proc.devRef .tc main_arg4) = V (Proc.devRef .tc main_arg4) := by
  after_results_simp
theorem seg8_keep_arg0 (V : Valuation τ sig (Elt F)) :
    after (seg8 (F := F)) V (Proc.devRef .tc main_arg0) = V (Proc.devRef .tc main_arg0) := by
  after_results_simp
theorem seg8_keep_arg1 (V : Valuation τ sig (Elt F)) :
    after (seg8 (F := F)) V (Proc.devRef .tc main_arg1) = V (Proc.devRef .tc main_arg1) := by
  after_results_simp
theorem seg8_keep_arg2 (V : Valuation τ sig (Elt F)) :
    after (seg8 (F := F)) V (Proc.devRef .tc main_arg2) = V (Proc.devRef .tc main_arg2) := by
  after_results_simp
theorem seg8_keep_arg3 (V : Valuation τ sig (Elt F)) :
    after (seg8 (F := F)) V (Proc.devRef .tc main_arg3) = V (Proc.devRef .tc main_arg3) := by
  after_results_simp
theorem seg8_keep_arg4 (V : Valuation τ sig (Elt F)) :
    after (seg8 (F := F)) V (Proc.devRef .tc main_arg4) = V (Proc.devRef .tc main_arg4) := by
  after_results_simp

/-! ## The whole line -/

/-- After the whole line the result buffer holds the composition of the stages of the arguments' contents. -/
theorem out_eq (V : Valuation τ sig (Elt F)) :
    after (ops (F := F)) V (Proc.devRef .tc main_v52)
      = refOut (V (Proc.devRef .tc main_arg0)) (V (Proc.devRef .tc main_arg1)) (V (Proc.devRef .tc main_arg2)) (V (Proc.devRef .tc main_arg3)) (V (Proc.devRef .tc main_arg4)) := by
  rw [ops_split]
  simp only [after_append]
  rw [seg2_eq]
  rw [seg8_out, seg7_out, seg7_keep_arg0, seg7_keep_arg4,
    seg6_out, seg6_keep_arg3, seg6_keep_arg0, seg6_keep_arg4,
    seg5_out, seg5_keep_v33, seg5_keep_arg2, seg5_keep_arg3, seg5_keep_arg0, seg5_keep_arg4,
    seg4_out, seg4_keep_v29, seg4_keep_arg2, seg4_keep_arg3, seg4_keep_arg0, seg4_keep_arg4,
    seg3_out, seg3_keep_arg2, seg3_keep_arg3, seg3_keep_arg0, seg3_keep_arg4,
    seg2_out, seg2_keep_v6, seg2_keep_arg2, seg2_keep_arg3, seg2_keep_arg0, seg2_keep_arg4,
    seg1_out, seg1_keep_arg2, seg1_keep_arg3, seg1_keep_arg0, seg1_keep_arg4]
  rfl

/-- The line leaves argument 0 alone. -/
theorem keep_arg0 (V : Valuation τ sig (Elt F)) :
    after (ops (F := F)) V (Proc.devRef .tc main_arg0) = V (Proc.devRef .tc main_arg0) := by
  rw [ops_split]
  simp only [after_append]
  rw [seg2_eq]
  rw [seg8_keep_arg0, seg7_keep_arg0, seg6_keep_arg0, seg5_keep_arg0, seg4_keep_arg0, seg3_keep_arg0, seg2_keep_arg0, seg1_keep_arg0]

/-- The line leaves argument 1 alone. -/
theorem keep_arg1 (V : Valuation τ sig (Elt F)) :
    after (ops (F := F)) V (Proc.devRef .tc main_arg1) = V (Proc.devRef .tc main_arg1) := by
  rw [ops_split]
  simp only [after_append]
  rw [seg2_eq]
  rw [seg8_keep_arg1, seg7_keep_arg1, seg6_keep_arg1, seg5_keep_arg1, seg4_keep_arg1, seg3_keep_arg1, seg2_keep_arg1, seg1_keep_arg1]

/-- The line leaves argument 2 alone. -/
theorem keep_arg2 (V : Valuation τ sig (Elt F)) :
    after (ops (F := F)) V (Proc.devRef .tc main_arg2) = V (Proc.devRef .tc main_arg2) := by
  rw [ops_split]
  simp only [after_append]
  rw [seg2_eq]
  rw [seg8_keep_arg2, seg7_keep_arg2, seg6_keep_arg2, seg5_keep_arg2, seg4_keep_arg2, seg3_keep_arg2, seg2_keep_arg2, seg1_keep_arg2]

/-- The line leaves argument 3 alone. -/
theorem keep_arg3 (V : Valuation τ sig (Elt F)) :
    after (ops (F := F)) V (Proc.devRef .tc main_arg3) = V (Proc.devRef .tc main_arg3) := by
  rw [ops_split]
  simp only [after_append]
  rw [seg2_eq]
  rw [seg8_keep_arg3, seg7_keep_arg3, seg6_keep_arg3, seg5_keep_arg3, seg4_keep_arg3, seg3_keep_arg3, seg2_keep_arg3, seg1_keep_arg3]

/-- The line leaves argument 4 alone. -/
theorem keep_arg4 (V : Valuation τ sig (Elt F)) :
    after (ops (F := F)) V (Proc.devRef .tc main_arg4) = V (Proc.devRef .tc main_arg4) := by
  rw [ops_split]
  simp only [after_append]
  rw [seg2_eq]
  rw [seg8_keep_arg4, seg7_keep_arg4, seg6_keep_arg4, seg5_keep_arg4, seg4_keep_arg4, seg3_keep_arg4, seg2_keep_arg4, seg1_keep_arg4]

/-- On every device, for any float values, from any memory with zero counters: every weakly fair execution of the
    program terminates with the result buffer at the composition of the stages of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v52).trans (out_eq _),
      (h c main_arg0).trans (keep_arg0 _), (h c main_arg1).trans (keep_arg1 _), (h c main_arg2).trans (keep_arg2 _),
      (h c main_arg3).trans (keep_arg3 _), (h c main_arg4).trans (keep_arg4 _)⟩)
    (run_seq scopedRefs_eq scopedSems_eq defs main (fun _ => ops) main_eq (fun _ => ops_sub) m ρ)

end Cert.ReferenceIdeal.RefRun

end
-- ==== Proof.RefValue.lean ====
/-
  Every execution of the reference program ends with its result buffer holding the specification function of the
  launch contents of its five arguments, the arguments unchanged: the program's run, which ends with the result
  buffer at the composition of the program's stages, and the entry-by-entry reading of that composition over the
  extended reals.
-/
import proofs.«175004_j75453985457454_2_alg».proof.Proof.RefMix
import proofs.«175004_j75453985457454_2_alg».proof.Proof.RefRun

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.StripMix

open Idealize.ShloMosaic.TcCoe Idealize.SL.Sem

/-- Every execution of the reference program ends with its result buffer holding the specification function of
    the launch contents of its five arguments, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52) = Cert.StripMix.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => by
      obtain ⟨h52, h0, h1, h2, h3, h4⟩ := h c
      exact ⟨h52.trans (refOut_eq_G _ _ _ _ _), h0, h1, h2, h3, h4⟩)
    (RefRun.run (F := Ideal) m ρ)

end Cert.ReferenceIdeal.RefValue

end
-- ==== Proof.lean ====
/-
  The claim: the kernel program, its idealization and the reference run, and the two idealized programs end with equal
  results over the extended reals.

  Both idealized programs compute, index by index, the function G of Proof/Spec.lean of their five argument arrays: a
  three-tap convolution along the columns of the reflection-padded input, its taps the hyperbolic tangents of the
  plane means' products with the weights, mixed with the row means and the unpadded entry. The kernel program takes
  the row means in a first grid region (a row's sum times 2^-8) and the plane means from them on the host (their sum
  divided by 256); the reference divides a row's sum by 256 and a plane's sum by 65536; these agree on every extended
  real, so the equality needs nothing of the precondition. The frames of the two kernel programs are the generated
  ones; the reference's frame is its run with the result dropped; the idealization rewrote nothing.
-/
import proofs.«175004_j75453985457454_2_alg».proof.Defs
import proofs.«175004_j75453985457454_2_alg».proof.Proof.Gen.Kernel
import proofs.«175004_j75453985457454_2_alg».proof.Proof.Gen.Kernel.Frame
import proofs.«175004_j75453985457454_2_alg».proof.Proof.Gen.KernelIdeal
import proofs.«175004_j75453985457454_2_alg».proof.Proof.Gen.KernelIdeal.Frame
import proofs.«175004_j75453985457454_2_alg».proof.Proof.Gen.ReferenceIdeal
import proofs.«175004_j75453985457454_2_alg».proof.Proof.Gen.Pre_finite_inputs
import proofs.«175004_j75453985457454_2_alg».proof.Proof.KernFinal
import proofs.«175004_j75453985457454_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefValue.run_G m ρ)

/-- The idealization rewrote no operation. -/
theorem preserves : Cert.preserves_Kernel_KernelIdeal := trivial

/-- Both runs end with the result at G of their own arguments, and the arguments agree. -/
theorem algebraic : Cert.algebraic_KernelIdeal_ReferenceIdeal := by
  intro m ρ m' ρ' _ hagree
  refine ⟨_, Cert.KernelIdeal.KernFinal.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
